-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x16 : Shape := ⟨2, ![1600000, 16]⟩
abbrev S2x1600000 : Shape := ⟨2, ![2, 1600000]⟩
abbrev S128x128 : Shape := ⟨2, ![128, 128]⟩
abbrev S128 : Shape := ⟨1, ![128]⟩
abbrev S16x128 : Shape := ⟨2, ![16, 128]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg8 : FVec F S128 .f32) (main_arg9 : FVec F S256x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128 .f32) (main_arg6 : FVec F S128 .f32) (main_arg7 : FVec F S16x128 .f32) (main_arg8 : FVec F S128 .f32) (main_arg9 : FVec F S256x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S16x128 .f32 := Host.absf main_arg7
  let main_cst_10 : FVec F S_ .f32 := constant S_ .f32 0x7F800000#32
  let main_v30 : FVec F S16x128 .f32 := broadcastInDim S16x128 ![] bcast_S_S16x128 main_cst_10
  let main_v31 : IVec S16x128 1 := cmpf .olt main_v29 main_v30
  let main_c_11 : IVec S_ 1 := constantI S_ 1 1#1
  let main_v32 : IVec S_ 1 := (fun x v => Host.reduce IntOp.andi x v reducesTo_S16x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : FVec F S1600000x16 .f32) (main_arg2 : IVec S2x1600000 32) (main_arg3 : FVec F S128x128 .f32) (main_arg4 : FVec F S128 .f32) (main_arg5 : FVec F S128 .f32) (main_arg6 : FVec F S128 .f32) (main_arg7 : FVec F S16x128 .f32) (main_arg8 : FVec F S128 .f32) (main_arg9 : FVec F S256x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x16 .f32 := Host.absf main_arg1
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S1600000x16 : Shape := ⟨2, ![1600000, 16]⟩
abbrev S2x1600000 : Shape := ⟨2, ![2, 1600000]⟩
abbrev S128x128 : Shape := ⟨2, ![128, 128]⟩
abbrev S128 : Shape := ⟨1, ![128]⟩
abbrev S16x128 : Shape := ⟨2, ![16, 128]⟩
abbrev S256x128 : Shape := ⟨2, ![256, 128]⟩
abbrev S1x1600000 : Shape := ⟨2, ![1, 1600000]⟩
abbrev S1600000 : Shape := ⟨1, ![1600000]⟩
abbrev S_ : Shape := ⟨0, ![]⟩
abbrev S1x128 : Shape := ⟨2, ![1, 128]⟩
abbrev S1600000x128 : Shape := ⟨2, ![1600000, 128]⟩
abbrev S16000x16 : Shape := ⟨2, ![16000, 16]⟩
abbrev S16000x128 : Shape := ⟨2, ![16000, 128]⟩
abbrev S5000x128 : Shape := ⟨2, ![5000, 128]⟩
abbrev S5000 : Shape := ⟨1, ![5000]⟩
abbrev S5000x1 : Shape := ⟨2, ![5000, 1]⟩
abbrev S100000 : Shape := ⟨1, ![100000]⟩
abbrev S1600000x1 : Shape := ⟨2, ![1600000, 1]⟩
abbrev S100000x1 : Shape := ⟨2, ![100000, 1]⟩

abbrev nBuf : Space → Nat
  | .hbm => 94
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S1600000x16, .f32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S16x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S1600000x16, .f32⟩
  | .hbm, ⟨16, _⟩ => ⟨S_, .f32⟩
  | .hbm, ⟨17, _⟩ => ⟨S1600000, .f32⟩
  | .hbm, ⟨18, _⟩ => ⟨S1600000, .f32⟩
  | .hbm, ⟨19, _⟩ => ⟨S1x128, .f32⟩
  | .hbm, ⟨20, _⟩ => ⟨S1600000x128, .bf16⟩
  | .hbm, ⟨21, _⟩ => ⟨S1x128, .f32⟩
  | .hbm, ⟨22, _⟩ => ⟨S1x128, .f32⟩
  | .hbm, ⟨23, _⟩ => ⟨S100000x128, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S1600000, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000, .f32⟩
  | .hbm, ⟨51, _⟩ => ⟨S1600000, .f32⟩
  | .hbm, ⟨52, _⟩ => ⟨S1600000x1, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S1600000x128, .f32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S100000, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S1600000x128, .f32⟩
  | .hbm, ⟨83, _⟩ => ⟨S_, .f32⟩
  | .hbm, ⟨84, _⟩ => ⟨S100000x128, .f32⟩
  | .hbm, ⟨85, _⟩ => ⟨S1600000x1, .i32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S128x128, .f32⟩
  | .hbm, ⟨91, _⟩ => ⟨S128x128, .f32⟩
  | .hbm, ⟨92, _⟩ => ⟨S1x128, .f32⟩
  | .hbm, ⟨93, _⟩ => ⟨S100000x128, .f32⟩
  | .local _ .vmem, ⟨0, _⟩ => ⟨S16000x16, .f32⟩
  | .local _ .vmem, ⟨1, _⟩ => ⟨S16000x16, .f32⟩
  | .local _ .vmem, ⟨2, _⟩ => ⟨S16x128, .f32⟩
  | .local _ .vmem, ⟨3, _⟩ => ⟨S1x128, .f32⟩
  | .local _ .vmem, ⟨4, _⟩ => ⟨S16000x128, .bf16⟩
  | .local _ .vmem, ⟨5, _⟩ => ⟨S16000x128, .bf16⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_3 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_v56 : Ref sig .tc := ⟨.hbm, 78, rfl⟩
abbrev main_call0_cst : Ref sig .tc := ⟨.hbm, 79, rfl⟩
abbrev main_call0_v0 : Ref sig .tc := ⟨.hbm, 80, rfl⟩
abbrev main_v57 : Ref sig .tc := ⟨.hbm, 81, rfl⟩
abbrev main_v58 : Ref sig .tc := ⟨.hbm, 82, rfl⟩
abbrev main_cst_9 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  reducesTo_S1600000x16_S1600000_d1 : S1600000x16.ReducesTo [1] S1600000
  h_S_ : 0 < S_.numel
  shapeCasts_S128_S1x128 : S128.ShapeCasts S1x128
  inb_S16000x16_S16000x16_0_0 : ∀ a, (![0, 0] : Fin 2 → Nat) a + S16000x16.size a ≤ S16000x16.size a
  h_S16000x16 : 0 < S16000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  inb_S16000x128_S16000x128_0_0 : ∀ a, (![0, 0] : Fin 2 → Nat) a + S16000x128.size a ≤ S16000x128.size a
  h_S16000x128 : 0 < S16000x128.numel
  packedbf16_S16000x128_S16000x128_0_0 : (Rect.unit (s := S16000x128) ![0, 0] S16000x128.size inb_S16000x128_S16000x128_0_0).PackedRows (EltTy.packing .bf16)
  inb_S5000x128_S5000x128_0_0 : ∀ a, (![0, 0] : Fin 2 → Nat) a + S5000x128.size a ≤ S5000x128.size a
  h_S5000x128 : 0 < S5000x128.numel
  reduces_S5000x128_S5000 : S5000x128.Reduces [1] S5000
  shapeCasts_S5000_S5000x1 : S5000.ShapeCasts S5000x1
  broadcasts_S5000x1_S5000x128 : S5000x1.Broadcasts S5000x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S16x128_S128_d0 : S16x128.ReducesTo [0] S128
  bcast_S_S128 : S_.BroadcastsInDim S128 (![] : Fin 0 → Fin S128.rank)
  slices_S256x128_S128x128_0_0 : S256x128.Slices ![0, 0] S128x128
  slices_S256x128_S128x128_128_0 : S256x128.Slices ![128, 0] S128x128
  shapeCasts_S5000x128_S5000x128 : S5000x128.ShapeCasts S5000x128
  shapeCasts_S128x128_S128x128 : S128x128.ShapeCasts S128x128
  dot_S16000x16_S16x128_S16000x128_1_0_0_1_n_n_wf : DotDims.WF S16000x16 S16x128 S16000x128 [1] [0] [0] [1] [] []
  dot_S5000x128_S128x128_S5000x128_1_0_0_1_n_n_wf : DotDims.WF S5000x128 S128x128 S5000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x16.size a ≤ S1600000x16.size a
  hwx0_0 : ∀ i : grid0.Coords, EltTy.bits .f32 = 32 ∨ (Rect.block (s := S1600000x16) S16000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16000x128.size a ≤ S1600000x128.size a
  hwx0_3 : ∀ i : grid0.Coords, EltTy.bits .bf16 = 32 ∨ (Rect.block (s := S1600000x128) S16000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def dot_S16000x16_S16x128_S16000x128_1_0_0_1_n_n : DotDims S16000x16 S16x128 S16000x128 where
  lhsContracting := [1]
  rhsContracting := [0]
  lhsNonContracting := [0]
  rhsNonContracting := [1]
  lhsBatch := []
  rhsBatch := []
  wf := dot_S16000x16_S16x128_S16000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg1) S16000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S16000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000x16 : Shape := ⟨2, ![1600000, 16]⟩
abbrev S2x1600000 : Shape := ⟨2, ![2, 1600000]⟩
abbrev S128x128 : Shape := ⟨2, ![128, 128]⟩
abbrev S128 : Shape := ⟨1, ![128]⟩
abbrev S16x128 : Shape := ⟨2, ![16, 128]⟩
abbrev S256x128 : Shape := ⟨2, ![256, 128]⟩
abbrev S_ : Shape := ⟨0, ![]⟩
abbrev S1600000 : Shape := ⟨1, ![1600000]⟩
abbrev S100000 : Shape := ⟨1, ![100000]⟩
abbrev S1x1600000 : Shape := ⟨2, ![1, 1600000]⟩
abbrev S1700000 : Shape := ⟨1, ![1700000]⟩
abbrev S100000x16 : Shape := ⟨2, ![100000, 16]⟩
abbrev S1700000x16 : Shape := ⟨2, ![1700000, 16]⟩
abbrev S1700000x128 : Shape := ⟨2, ![1700000, 128]⟩
abbrev S1x128 : Shape := ⟨2, ![1, 128]⟩
abbrev S100000x1 : Shape := ⟨2, ![100000, 1]⟩
abbrev S1700000x1 : Shape := ⟨2, ![1700000, 1]⟩
abbrev S100000x256 : Shape := ⟨2, ![100000, 256]⟩

abbrev nBuf : Space → Nat
  | .hbm => 145
  | .vmem => 0
  | .smem => 0
  | _ => 0

abbrev hbmTy0_0 (i : Nat) : BufTy := match i % 128 with
  | 0 => ⟨S100000x128, .f32⟩
  | 1 => ⟨S1600000x16, .f32⟩
  | 2 => ⟨S2x1600000, .i32⟩
  | 3 => ⟨S128x128, .f32⟩
  | 4 => ⟨S128, .f32⟩
  | 5 => ⟨S128, .f32⟩
  | 6 => ⟨S128, .f32⟩
  | 7 => ⟨S16x128, .f32⟩
  | 8 => ⟨S128, .f32⟩
  | 9 => ⟨S256x128, .f32⟩
  | 10 => ⟨S128, .f32⟩
  | 11 => ⟨S1600000x16, .f32⟩
  | 12 => ⟨S_, .f32⟩
  | 13 => ⟨S1600000, .f32⟩
  | 14 => ⟨S1600000, .f32⟩
  | 15 => ⟨S100000, .i32⟩
  | 16 => ⟨S1x1600000, .i32⟩
  | 17 => ⟨S1600000, .i32⟩
  | 18 => ⟨S1700000, .i32⟩
  | 19 => ⟨S1x1600000, .i32⟩
  | 20 => ⟨S1600000, .i32⟩
  | 21 => ⟨S1700000, .i32⟩
  | 22 => ⟨S_, .f32⟩
  | 23 => ⟨S100000x16, .f32⟩
  | 24 => ⟨S1700000x16, .f32⟩
  | 25 => ⟨S_, .f32⟩
  | 26 => ⟨S100000, .f32⟩
  | 27 => ⟨S1700000, .f32⟩
  | 28 => ⟨S1700000x128, .f32⟩
  | 29 => ⟨S1x128, .f32⟩
  | 30 => ⟨S1700000x128, .f32⟩
  | 31 => ⟨S1700000x128, .f32⟩
  | 32 => ⟨S_, .f32⟩
  | 33 => ⟨S1700000x128, .f32⟩
  | 34 => ⟨S1700000x128, .f32⟩
  | 35 => ⟨S_, .f32⟩
  | 36 => ⟨S100000, .f32⟩
  | 37 => ⟨S100000x1, .f32⟩
  | 38 => ⟨S_, .f32⟩
  | 39 => ⟨S100000x1, .f32⟩
  | 40 => ⟨S100000x1, .f32⟩
  | 41 => ⟨S100000x128, .f32⟩
  | 42 => ⟨S100000x128, .f32⟩
  | 43 => ⟨S100000x128, .f32⟩
  | 44 => ⟨S_, .f32⟩
  | 45 => ⟨S100000, .f32⟩
  | 46 => ⟨S100000x1, .f32⟩
  | 47 => ⟨S_, .f32⟩
  | 48 => ⟨S100000x1, .f32⟩
  | 49 => ⟨S100000x1, .f32⟩
  | 50 => ⟨S100000x128, .f32⟩
  | 51 => ⟨S100000x128, .f32⟩
  | 52 => ⟨S_, .f32⟩
  | 53 => ⟨S100000x1, .f32⟩
  | 54 => ⟨S100000x1, .f32⟩
  | 55 => ⟨S100000x1, .f32⟩
  | 56 => ⟨S100000x128, .f32⟩
  | 57 => ⟨S100000x128, .f32⟩
  | 58 => ⟨S1x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S100000x128, .f32⟩
  | 65 => ⟨S_, .f32⟩
  | 66 => ⟨S100000, .f32⟩
  | 67 => ⟨S1700000x1, .i32⟩
  | 68 => ⟨S100000, .f32⟩
  | 69 => ⟨S_, .f32⟩
  | 70 => ⟨S100000, .f32⟩
  | 71 => ⟨S100000, .i1⟩
  | 72 => ⟨S_, .f32⟩
  | 73 => ⟨S100000, .f32⟩
  | 74 => ⟨S100000, .f32⟩
  | 75 => ⟨S100000, .f32⟩
  | 76 => ⟨S_, .f32⟩
  | 77 => ⟨S_, .f32⟩
  | 78 => ⟨S100000, .f32⟩
  | 79 => ⟨S100000, .f32⟩
  | 80 => ⟨S_, .i32⟩
  | 81 => ⟨S1700000, .i32⟩
  | 82 => ⟨S1700000, .i1⟩
  | 83 => ⟨S_, .i32⟩
  | 84 => ⟨S1700000, .i32⟩
  | 85 => ⟨S1700000, .i32⟩
  | 86 => ⟨S1700000, .i32⟩
  | 87 => ⟨S1700000x1, .i32⟩
  | 88 => ⟨S1700000, .f32⟩
  | 89 => ⟨S1700000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S1700000, .f32⟩
  | 100 => ⟨S1700000x1, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x128, .f32⟩
  | 110 => ⟨S1700000x128, .f32⟩
  | 111 => ⟨S1700000x128, .f32⟩
  | 112 => ⟨S_, .f32⟩
  | 113 => ⟨S100000x128, .f32⟩
  | 114 => ⟨S1700000x1, .i32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S100000x128, .f32⟩
  | 121 => ⟨S1700000x1, .i32⟩
  | 122 => ⟨S100000x128, .f32⟩
  | 123 => ⟨S100000x256, .f32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | 5 => ⟨S_, .f32⟩
  | 6 => ⟨S100000x128, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S100000x128, .f32⟩
  | 13 => ⟨S100000x128, .f32⟩
  | 14 => ⟨S_, .f32⟩
  | 15 => ⟨S100000x128, .f32⟩
  | 16 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call0_cst : Ref sig .tc := ⟨.hbm, 32, rfl⟩
abbrev main_call0_v0 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_call1_v0 : Ref sig .tc := ⟨.hbm, 77, rfl⟩
abbrev main_call1_v1 : Ref sig .tc := ⟨.hbm, 78, rfl⟩
abbrev main_v52 : Ref sig .tc := ⟨.hbm, 79, rfl⟩
abbrev main_c : Ref sig .tc := ⟨.hbm, 80, rfl⟩
abbrev main_v53 : Ref sig .tc := ⟨.hbm, 81, rfl⟩
abbrev main_v54 : Ref sig .tc := ⟨.hbm, 82, rfl⟩
abbrev main_c_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_12 : Ref sig .tc := ⟨.hbm, 90, rfl⟩
abbrev main_v61 : Ref sig .tc := ⟨.hbm, 91, rfl⟩
abbrev main_v62 : Ref sig .tc := ⟨.hbm, 92, rfl⟩
abbrev main_c_13 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_14 : Ref sig .tc := ⟨.hbm, 101, rfl⟩
abbrev main_v70 : Ref sig .tc := ⟨.hbm, 102, rfl⟩
abbrev main_v71 : Ref sig .tc := ⟨.hbm, 103, rfl⟩
abbrev main_c_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_16 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_17 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_18 : Ref sig .tc := ⟨.hbm, 130, rfl⟩
abbrev main_v95 : Ref sig .tc := ⟨.hbm, 131, rfl⟩
abbrev main_v96 : Ref sig .tc := ⟨.hbm, 132, rfl⟩
abbrev main_cst_19 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_20 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_call2_cst : Ref sig .tc := ⟨.hbm, 142, rfl⟩
abbrev main_call2_v0 : Ref sig .tc := ⟨.hbm, 143, rfl⟩
abbrev main_v104 : Ref sig .tc := ⟨.hbm, 144, rfl⟩

abbrev nD : Nat := 1
abbrev τ : Topo := Topo.v7x

variable {F : FTy → Type} [FloatOps F]

class Facts₀ : Prop where
  reducesTo_S1600000x16_S1600000_d1 : S1600000x16.ReducesTo [1] S1600000
  h_S_ : 0 < S_.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000x16 : S_.BroadcastsInDim S100000x16 (![] : Fin 0 → Fin S100000x16.rank)
  concatenates_S1600000x16_S100000x16_S1700000x16_d0 : Shape.Concatenates [S1600000x16, S100000x16] S1700000x16 0
  bcast_S_S100000 : S_.BroadcastsInDim S100000 (![] : Fin 0 → Fin S100000.rank)
  bcast_S128_S1x128_1 : S128.BroadcastsInDim S1x128 (![1] : Fin 1 → Fin S1x128.rank)
  bcast_S1x128_S1700000x128_0_1 : S1x128.BroadcastsInDim S1700000x128 (![0, 1] : Fin 2 → Fin S1700000x128.rank)
  bcast_S_S1700000x128 : S_.BroadcastsInDim S1700000x128 (![] : Fin 0 → Fin S1700000x128.rank)
  reducesTo_S100000x128_S100000_d1 : S100000x128.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  concatenates_S100000x128_S100000x128_S100000x256_d1 : Shape.Concatenates [S100000x128, S100000x128] S100000x256 1
  dot_S1700000x16_S16x128_S1700000x128_1_0_0_1_n_n_wf : DotDims.WF S1700000x16 S16x128 S1700000x128 [1] [0] [0] [1] [] []
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x256_S256x128_S100000x128_1_0_0_1_n_n_wf : DotDims.WF S100000x256 S256x128 S100000x128 [1] [0] [0] [1] [] []

variable [Facts₀]

def dot_S1700000x16_S16x128_S1700000x128_1_0_0_1_n_n : DotDims S1700000x16 S16x128 S1700000x128 where
  lhsContracting := [1]
  rhsContracting := [0]
  lhsNonContracting := [0]
  rhsNonContracting := [1]
  lhsBatch := []
  rhsBatch := []
  wf := dot_S1700000x16_S16x128_S1700000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.KernelRun.lean ====
/-
  The run of the idealized kernel program with its result array named.

  The program is three launches among stretches of host operations. Its buffers' contents at each boundary are a fold
  from the launch memory: a stretch of host operations applies them one after the other; a launch leaves each of its
  arrays at what its write-backs leave and every other buffer as it found it. After the last launch every buffer that
  outlives a launch holds the last boundary's contents, so every weakly fair execution ends with the result array at
  those contents, read at the result's buffer, and with the argument arrays as launched.
-/
import proofs.«144141_j47605417509015_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the eleven argument arrays as launched. -/
theorem run_result : θ_run defs (onTc (τ := τ) (main (F := F))) ⟨m, fun _ => 0, ρ⟩ (fun r => ∀ c : Dev nD,
      r.2.mem ((c.tc : Thread nD τ).loc main_v68) = W8 m ρ c (Proc.devRef .tc main_v68)
      ∧      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v68 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.Gen

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.LibRmsNorm.lean ====
/-
  Root-mean-square normalisation of the rows of a matrix, read one row at a time on the extended reals, over any sizes.

  A row r of N entries is scaled by s(r) = rsqrt((Σ_k r_k · r_k) / c + e), where c and e are the numbers two given 32-bit
  words encode (the row length and a small offset, as the program spells them), and then multiplied entry by entry
  by a gain row g:   rowNorm r g q = r_q · s(r) · g_q.

  The same function is computed two ways. On the vector unit: square, sum along the lanes from zero, lay the sums
  out as a column, divide, add, take the reciprocal square root, spread the column along the lanes, multiply; the
  gain row laid out as a row and spread down the sublanes. On the host: square, reduce-add over the last axis from a
  scalar zero, broadcast to a column, divide by a broadcast scalar, add a broadcast scalar, reciprocal square root,
  broadcast along the last axis, multiply; the gain broadcast to a row and then down the rows. Both, read at
  row p, are rowNorm of row p of the operand. Nothing here needs the entries to be finite: both sides apply the same
  operations to the same sums.

  Also here: the vocabulary of rows (row p of a matrix, a vector as a function of its coordinate, a matrix as a function
  of two coordinates), and a row times a matrix.
-/
import Idealize.ShloMosaic.PureOps.Ideal.Laws
import Idealize.ShloMosaic.Lib.Pipeline.Value
import Idealize.ShloMosaic.Lib.ValueIdx
import proofs.«144141_j47605417509015_2_alg».proof.Proof.LibColRowBroadcast

noncomputable section

open scoped BigOperators

namespace Cert.RmsNorm

open Idealize.ShloMosaic Idealize.ShloMosaic.ValueIdx

/-! ## Rows -/

/-- Row `p` of a matrix, as a function of the column. -/
def row {M N : ℕ} (a : (⟨2, ![M, N]⟩ : Shape).Idx → EReal) (p : Fin M) : Fin N → EReal := fun k => a (ix2 p k)

/-- A vector as a function of its coordinate. -/
def vec {N : ℕ} (g : (⟨1, ![N]⟩ : Shape).Idx → EReal) : Fin N → EReal := fun k => g (ix1 k)

/-- A matrix as a function of its two coordinates. -/
def mat {K N : ℕ} (w : (⟨2, ![K, N]⟩ : Shape).Idx → EReal) : Fin K → Fin N → EReal := fun k q => w (ix2 k q)

/-- A row times a matrix: entry q is Σ_k r_k · w_{k q}. -/
def rowMat {K N : ℕ} (r : Fin K → EReal) (w : Fin K → Fin N → EReal) : Fin N → EReal := fun q => ∑ k, r k * w k q

/-- The scale of a row: the reciprocal square root of (Σ_k r_k² divided by the number `cN` encodes, plus the number
    `ce` encodes). -/
def scale {N : ℕ} (cN ce : BitVec 32) (r : Fin N → EReal) : EReal :=
  Ideal.rsqrt (Ideal.div (∑ k, r k * r k) (Ideal.ofBits .f32 cN) + Ideal.ofBits .f32 ce)

/-- A row normalised by its scale and multiplied entry by entry by a gain row. -/
def rowNorm {N : ℕ} (cN ce : BitVec 32) (r g : Fin N → EReal) : Fin N → EReal := fun q => r q * scale cN ce r * g q

/-- Rows of equal matrices' sums: row p of a pointwise sum is the sum of the rows. -/
theorem row_addf {M N : ℕ} (a b : FVec Ideal ⟨2, ![M, N]⟩ .f32) (p : Fin M) :
    row (addf a b) p = fun q => row a p q + row b p q := rfl

/-! ## On the vector unit -/

/-- The reduced index `p` with lane `k` put back is (p, k). -/
theorem lift_lane {M N : ℕ} (h : (⟨2, ![M, N]⟩ : Shape).Reduces [1] (⟨1, ![M]⟩ : Shape)) (p : Fin M)
    (k : Fin ((⟨2, ![M, N]⟩ : Shape).size 1)) : h.lift (ix1 p) k = ix2 p (⟨k.val, k.isLt⟩ : Fin N) := by
  funext c; apply Fin.ext
  fin_cases c <;> rfl

/-- A sum along the lanes from zero, at row `p`, is the sum of the row. -/
theorem laneSum_apply {M N : ℕ} (src : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ) (p : Fin M) :
    multiReduction .add [1] ⟨1, ![M]⟩ src 0x00000000#32 hr hφ hacc (ix1 p) = ∑ k : Fin N, src (ix2 p k) := by
  refine (Ideal.multiReduction_add_single src 0x00000000#32 hr hφ hacc (ix1 p)).trans ?_
  exact Finset.sum_congr rfl fun k _ => congrArg src (lift_lane hr p k)

/-- The column of scales as the vector unit computes it. -/
def colScale {M N : ℕ} (cN ce : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) : FVec Ideal ⟨2, ![M, 1]⟩ .f32 :=
  rsqrt (addf (divf (shapeCast ⟨2, ![M, 1]⟩ (multiReduction .add [1] ⟨1, ![M]⟩ (mulf a a) 0x00000000#32 hr hφ hacc) hc)
    (broadcast ⟨2, ![M, 1]⟩ (Scalar.ofBits .f32 cN))) (broadcast ⟨2, ![M, 1]⟩ (Scalar.ofBits .f32 ce)))

/-- The column of scales at row `p` is the scale of row `p`. -/
theorem colScale_apply {M N : ℕ} (cN ce : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (p : Fin M) (z : Fin 1) :
    colScale cN ce a hr hφ hacc hc (ix2 p z) = scale cN ce (row a p) := by
  have h1 : shapeCast ⟨2, ![M, 1]⟩ (multiReduction .add [1] ⟨1, ![M]⟩ (mulf a a) 0x00000000#32 hr hφ hacc) hc (ix2 p z)
      = ∑ k : Fin N, row a p k * row a p k :=
    (Cert.ColRowBroadcast.colCast_apply _ hc p z).trans (laneSum_apply (mulf a a) hr hφ hacc p)
  exact congrArg (fun s => Ideal.rsqrt (Ideal.div s (Ideal.ofBits .f32 cN) + Ideal.ofBits .f32 ce)) h1

/-- Root-mean-square normalisation of the rows of `a` with gain `g`, as the vector unit computes it. -/
def vectorNorm {M N : ℕ} (cN ce : BitVec 32) (a : FVec Ideal ⟨2, ![M, N]⟩ .f32) (g : FVec Ideal ⟨1, ![N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hg : (⟨1, ![N]⟩ : Shape).ShapeCasts ⟨2, ![1, N]⟩) (hgb : (⟨2, ![1, N]⟩ : Shape).Broadcasts ⟨2, ![M, N]⟩) :
    FVec Ideal ⟨2, ![M, N]⟩ .f32 :=
  mulf (mulf a (broadcastTo ⟨2, ![M, N]⟩ (colScale cN ce a hr hφ hacc hc) hb))
    (broadcastTo ⟨2, ![M, N]⟩ (shapeCast ⟨2, ![1, N]⟩ g hg) hgb)

/-- Row `p` of the vector unit's normalisation is rowNorm of row `p`. -/
theorem vectorNorm_row {M N : ℕ} (cN ce : BitVec 32) (a : FVec Ideal ⟨2, ![M, N]⟩ .f32) (g : FVec Ideal ⟨1, ![N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hg : (⟨1, ![N]⟩ : Shape).ShapeCasts ⟨2, ![1, N]⟩) (hgb : (⟨2, ![1, N]⟩ : Shape).Broadcasts ⟨2, ![M, N]⟩) (p : Fin M) :
    row (vectorNorm cN ce a g hr hφ hacc hc hb hg hgb) p = rowNorm cN ce (row a p) (vec g) := by
  funext q
  have hs : broadcastTo ⟨2, ![M, N]⟩ (colScale cN ce a hr hφ hacc hc) hb (ix2 p q) = scale cN ce (row a p) :=
    (Cert.ColRowBroadcast.colBroadcast_apply _ hb p q).trans (colScale_apply cN ce a hr hφ hacc hc p 0)
  have hq : broadcastTo ⟨2, ![M, N]⟩ (shapeCast ⟨2, ![1, N]⟩ g hg) hgb (ix2 p q) = vec g q :=
    (Cert.ColRowBroadcast.rowBroadcast_apply _ hgb p q).trans (Cert.ColRowBroadcast.rowCast_apply g hg 0 q)
  show a (ix2 p q) * broadcastTo ⟨2, ![M, N]⟩ (colScale cN ce a hr hφ hacc hc) hb (ix2 p q)
      * broadcastTo ⟨2, ![M, N]⟩ (shapeCast ⟨2, ![1, N]⟩ g hg) hgb (ix2 p q) = _
  rw [hs, hq]
  rfl

/-! ## On the host -/

/-- The host's sum over the last axis from a scalar zero, at row `p`, is the sum of the row. -/
theorem hostSum_apply {M N : ℕ} (src : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel) (p : Fin M) :
    Host.reduceAdd src (constant (F := Ideal) ⟨0, ![]⟩ .f32 0x00000000#32) hrt h0 (ix1 p) = ∑ k : Fin N, src (ix2 p k) := by
  show Ideal.hostReduceAdd hrt src (Ideal.ofBits .f32 0x00000000#32) (ix1 p) = _
  rw [Ideal.hostReduceAdd_single hrt hr, Ideal.ofBits_zero_f32, zero_add]
  exact Finset.sum_congr rfl fun k _ => congrArg src (lift_lane hr p k)

/-- A scalar broadcast to any shape reads the scalar everywhere. -/
theorem scalarBroadcast_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 (fun a => a.elim0)

/-- A vector of `a` entries broadcast to a column [a, 1] reads, at (p, 0), entry `p`. -/
theorem hostCol_apply {α : Type} {a : ℕ} (u : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h u (ix2 p z) = u (ix1 p) := by
  refine broadcastInDim_apply _ h u (ix2 p z) (ix1 p) fun c => ?_
  match c with
  | ⟨0, _⟩ =>
    show p.val = if a = 1 then 0 else p.val
    split
    · have := p.isLt; omega
    · rfl

/-- A column [a, 1] broadcast along the last axis to [a, b] reads, at (p, q), the column at (p, 0). -/
theorem hostColBroadcast_apply {α : Type} {a b : ℕ} (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply _ h w (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A vector of `b` entries broadcast to a row [1, b] reads, at (0, q), entry `q`. -/
theorem hostRow_apply {α : Type} {b : ℕ} (u : (⟨1, ![b]⟩ : Shape).Idx → α)
    (h : (⟨1, ![b]⟩ : Shape).BroadcastsInDim ⟨2, ![1, b]⟩ ![1]) (z : Fin 1) (q : Fin b) :
    broadcastInDim ⟨2, ![1, b]⟩ ![1] h u (ix2 z q) = u (ix1 q) := by
  refine broadcastInDim_apply _ h u (ix2 z q) (ix1 q) fun c => ?_
  match c with
  | ⟨0, _⟩ =>
    show q.val = if b = 1 then 0 else q.val
    split
    · have := q.isLt; omega
    · rfl

/-- A row [1, b] broadcast down the first axis to [a, b] reads, at (p, q), the row at (0, q). -/
theorem hostRowBroadcast_apply {α : Type} {a b : ℕ} (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply _ h w (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

/-- The column of scales as the host computes it. -/
def hostColScale {M N : ℕ} (cN ce : BitVec 32) (a : FVec Ideal ⟨2, ![M, N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) : FVec Ideal ⟨2, ![M, 1]⟩ .f32 :=
  Host.rsqrt (addf (Host.divf
      (broadcastInDim ⟨2, ![M, 1]⟩ ![0] hb1 (Host.reduceAdd (mulf a a) (constant (F := Ideal) ⟨0, ![]⟩ .f32 0x00000000#32) hrt h0))
      (broadcastInDim ⟨2, ![M, 1]⟩ ![] hbs (constant (F := Ideal) ⟨0, ![]⟩ .f32 cN)))
    (broadcastInDim ⟨2, ![M, 1]⟩ ![] hbs (constant (F := Ideal) ⟨0, ![]⟩ .f32 ce)))

/-- The host's column of scales at row `p` is the scale of row `p`. -/
theorem hostColScale_apply {M N : ℕ} (cN ce : BitVec 32) (a : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) (p : Fin M) (z : Fin 1) :
    hostColScale cN ce a hrt h0 hb1 hbs (ix2 p z) = scale cN ce (row a p) := by
  have h1 : broadcastInDim ⟨2, ![M, 1]⟩ ![0] hb1
        (Host.reduceAdd (mulf a a) (constant (F := Ideal) ⟨0, ![]⟩ .f32 0x00000000#32) hrt h0) (ix2 p z)
      = ∑ k : Fin N, row a p k * row a p k :=
    (hostCol_apply _ hb1 p z).trans (hostSum_apply (mulf a a) hrt hr h0 p)
  have h2 : broadcastInDim ⟨2, ![M, 1]⟩ ![] hbs (constant (F := Ideal) ⟨0, ![]⟩ .f32 cN) (ix2 p z) = Ideal.ofBits .f32 cN :=
    scalarBroadcast_apply _ hbs (ix2 p z)
  have h3 : broadcastInDim ⟨2, ![M, 1]⟩ ![] hbs (constant (F := Ideal) ⟨0, ![]⟩ .f32 ce) (ix2 p z) = Ideal.ofBits .f32 ce :=
    scalarBroadcast_apply _ hbs (ix2 p z)
  show Ideal.rsqrt (Ideal.div
      (broadcastInDim ⟨2, ![M, 1]⟩ ![0] hb1 (Host.reduceAdd (mulf a a) (constant (F := Ideal) ⟨0, ![]⟩ .f32 0x00000000#32) hrt h0) (ix2 p z))
      (broadcastInDim ⟨2, ![M, 1]⟩ ![] hbs (constant (F := Ideal) ⟨0, ![]⟩ .f32 cN) (ix2 p z))
    + broadcastInDim ⟨2, ![M, 1]⟩ ![] hbs (constant (F := Ideal) ⟨0, ![]⟩ .f32 ce) (ix2 p z)) = _
  rw [h1, h2, h3]
  rfl

/-- Root-mean-square normalisation of the rows of `a` with gain `g`, as the host computes it. -/
def hostNorm {M N : ℕ} (cN ce : BitVec 32) (a : FVec Ideal ⟨2, ![M, N]⟩ .f32) (g : FVec Ideal ⟨1, ![N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) : FVec Ideal ⟨2, ![M, N]⟩ .f32 :=
  mulf (mulf a (broadcastInDim ⟨2, ![M, N]⟩ ![0, 1] hbc (hostColScale cN ce a hrt h0 hb1 hbs)))
    (broadcastInDim ⟨2, ![M, N]⟩ ![0, 1] hgb (broadcastInDim ⟨2, ![1, N]⟩ ![1] hg g))

/-- Row `p` of the host's normalisation is rowNorm of row `p`. -/
theorem hostNorm_row {M N : ℕ} (cN ce : BitVec 32) (a : FVec Ideal ⟨2, ![M, N]⟩ .f32) (g : FVec Ideal ⟨1, ![N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) (p : Fin M) :
    row (hostNorm cN ce a g hrt h0 hb1 hbs hbc hg hgb) p = rowNorm cN ce (row a p) (vec g) := by
  funext q
  have hs : broadcastInDim ⟨2, ![M, N]⟩ ![0, 1] hbc (hostColScale cN ce a hrt h0 hb1 hbs) (ix2 p q) = scale cN ce (row a p) :=
    (hostColBroadcast_apply _ hbc p q).trans (hostColScale_apply cN ce a hrt hr h0 hb1 hbs p 0)
  have hq : broadcastInDim ⟨2, ![M, N]⟩ ![0, 1] hgb (broadcastInDim ⟨2, ![1, N]⟩ ![1] hg g) (ix2 p q) = vec g q :=
    (hostRowBroadcast_apply _ hgb p q).trans (hostRow_apply g hg 0 q)
  show a (ix2 p q) * broadcastInDim ⟨2, ![M, N]⟩ ![0, 1] hbc (hostColScale cN ce a hrt h0 hb1 hbs) (ix2 p q)
      * broadcastInDim ⟨2, ![M, N]⟩ ![0, 1] hgb (broadcastInDim ⟨2, ![1, N]⟩ ![1] hg g) (ix2 p q) = _
  rw [hs, hq]
  rfl

end Cert.RmsNorm

end
-- ==== Proof.Spec.lean ====
/-
  The row functions both programs compute, on the extended reals, over any sizes.

  * `featRow`: a row of edge features times the projection table, plus the bias, cut off below at zero.
  * `gateRow`: the gated combination of a node's two rows o and a: with the gate
    g = logistic (o · W₁ + a · W₂ + bias) (column by column), the result is max (g · o + (1 − g) · a, 0), the one
    of "1 − g" being the number the f32 word of one encodes.
-/
import Idealize.ShloMosaic.PureOps.Ideal
import proofs.«144141_j47605417509015_2_alg».proof.Proof.LibRmsNorm

noncomputable section

open scoped BigOperators

namespace Cert.Gnn

open Idealize.ShloMosaic Cert.RmsNorm

/-- A row times a table, plus a bias row, cut off below at zero. -/
def featRow {K C : ℕ} (x : Fin K → EReal) (W : Fin K → Fin C → EReal) (b : Fin C → EReal) (q : Fin C) : EReal :=
  max (rowMat x W q + b q) 0

/-- The gate of a node in column q. -/
def gateAt {C : ℕ} (o a : Fin C → EReal) (W₁ W₂ : Fin C → Fin C → EReal) (b : Fin C → EReal) (q : Fin C) : EReal :=
  Ideal.logistic ((rowMat o W₁ q + rowMat a W₂ q) + b q)

/-- The gated combination of a node's two rows, cut off below at zero. -/
def gateRow {C : ℕ} (o a : Fin C → EReal) (W₁ W₂ : Fin C → Fin C → EReal) (b : Fin C → EReal) (q : Fin C) : EReal :=
  max (gateAt o a W₁ W₂ b q * o q + (Ideal.ofBits .f32 0x3F800000#32 - gateAt o a W₁ W₂ b q) * a q) 0

end Cert.Gnn

end
-- ==== Proof.Region0.lean ====
/-
  The first launch: the edge features.

  The launch cuts the 1600000 rows of edge attributes into 100 blocks of 16000 rows; the projection table and the
  one-row bias are whole at every point. On a block the body multiplies the block by the table into zeros, adds the
  bias row to every row and cuts off below at zero; a change of float format is the identity on the extended reals.
  Row p of block t depends on row 16000 t + p of the attributes only, so what point t writes back is block t of ONE
  table (`efTable`): at (e, q), `featRow` of row e. The blocks cover the table.
-/
import proofs.«144141_j47605417509015_2_alg».proof.Proof.Gen.KernelIdeal.Frame
import proofs.«144141_j47605417509015_2_alg».proof.Proof.LibPlainMatmul
import proofs.«144141_j47605417509015_2_alg».proof.Proof.LibColRowBroadcast
import proofs.«144141_j47605417509015_2_alg».proof.Proof.Spec
import Idealize.ShloMosaic.Lib.Pipeline.Value
import Idealize.ShloMosaic.Lib.ValueIdx

set_option maxRecDepth 16384

noncomputable section

open scoped BigOperators

namespace Cert.KernelIdeal.Region0

open Idealize.ShloMosaic Idealize.ShloMosaic.TcCoe Idealize.ShloMosaic.ValueIdx Idealize.SL.Sem
open Cert.KernelIdeal Cert.KernelIdeal.Gen Cert.RmsNorm Cert.Gnn
open Idealize.ShloMosaic.Pipeline (Dat)

/-- The table the launch leaves. -/
def efTable (EA : S1600000x16.Idx → EReal) (W : S16x128.Idx → EReal) (b : S1x128.Idx → EReal) :
    S1600000x128.Idx → EReal :=
  fun i => featRow (row EA (i 0)) (mat W) (row b 0) (i 1)

theorem hz : (![0, 0] : Fin 2 → Nat) = fun _ => 0 := funext fun a => by fin_cases a <;> rfl

/-- The body's result on a block, at (p, q). -/
theorem pay_apply (x0 : Vec Ideal S16000x16 .f32) (w : Vec Ideal S16x128 .f32) (b : Vec Ideal S1x128 .f32)
    (p : Fin 16000) (q : Fin 128) :
    k0_pay1 (F := Ideal) x0 w b (ix2 p q) = featRow (row x0 p) (mat w) (row b 0) q := by
  unfold k0_pay1
  try dsimp only
  rw [shapeCast_self, truncf_apply, maximumf_apply, addf_apply]
  unfold featRow rowMat
  refine congrArg₂ max (congrArg₂ (· + ·) ?_ ?_) ?_
  · refine (Cert.PlainMatmul.matmul_zero_apply 16000 16 128 none _ _ p q).trans ?_
    refine Finset.sum_congr rfl fun k _ => ?_
    rw [truncf_apply, truncf_apply]
    rfl
  · exact Cert.ColRowBroadcast.rowBroadcast_apply b broadcasts_S1x128_S16000x128 p q
  · exact Ideal.ofBits_zero_f32

section Launch

variable (V : (c : Dev nD) → (b : Ref sig .tc) → Buf (Elt Ideal) ((c : Thread nD τ).loc b))

/-- The printed index maps over the grid. -/
theorem idx_facts : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 99 :=
  (by decide +kernel : ∀ t : Fin grid0.N, _)

/-- Every block of rows is some point's. -/
theorem idx_onto : ∀ q0 : Fin 100, ∃ t : Fin cfg0.N, win0_3.index t = ![q0.val, 0] :=
  (by decide +kernel : ∀ q0 : Fin 100, ∃ t : Fin grid0.N, win0_3.index t = ![q0.val, 0])

/-- What point t writes back is block t of the table. -/
theorem flushed_eq (c : Dev nD) (t : Fin cfg0.N) :
    (dat0 V c).flushed 3 t = ((cfg0.win 3).blk t).view.read (Elt Ideal)
      (efTable (V c main_arg1) (V c main_arg7) (V c main_v7)) := by
  show (cfg0.win 3).cut (grid0.coords t) ((dat0 V c).after 3 t) = _
  rw [after0_3]
  unfold out0_3
  rw [View.canon_unit_zero hz]
  simp only [View.ld_unit_zero (S := S16000x16) hz, View.ld_unit_zero (S := S1x128) hz,
    View.ld_unit_zero (S := S16x128) hz]
  obtain ⟨e0, e1, e2, e3, e4, e5, e6, e7⟩ := idx_facts t
  funext j
  obtain ⟨p, q, rfl⟩ : ∃ (p : Fin 16000) (q : Fin 128), j = ix2 p q := ⟨j 0, j 1, eq_ix2 j⟩
  show k0_pay1 (F := Ideal) (iblk0 V c 0 t) (iblk0 V c 1 t) (iblk0 V c 2 t) (ix2 p q)
    = efTable (V c main_arg1) (V c main_arg7) (V c main_v7) (((cfg0.win 3).blk t).view.emb (ix2 p q))
  refine (pay_apply _ _ _ p q).trans ?_
  unfold efTable
  have hq : (((cfg0.win 3).blk t).view.emb (ix2 p q)) 1 = q := by
    apply Fin.ext
    show win0_3.index t (1 : Fin 2) * 128 + 1 * q.val = q.val
    omega
  have hx : row (iblk0 V c 0 t) p = row (V c main_arg1) ((((cfg0.win 3).blk t).view.emb (ix2 p q)) 0) := by
    funext k
    show V c main_arg1 (((cfg0.win 0).blk t).view.emb (ix2 p k)) = V c main_arg1 (ix2 _ k)
    refine congrArg (V c main_arg1) (funext fun a => Fin.ext ?_)
    match a with
    | ⟨0, _⟩ => show win0_0.index t (0 : Fin 2) * 16000 + 1 * p.val = win0_3.index t (0 : Fin 2) * 16000 + 1 * p.val; omega
    | ⟨1, _⟩ => show win0_0.index t (1 : Fin 2) * 16 + 1 * k.val = k.val; omega
  have hb : row (iblk0 V c 2 t) 0 = row (V c main_v7) 0 := by
    funext k
    show V c main_v7 (((cfg0.win 2).blk t).view.emb (ix2 0 k)) = V c main_v7 (ix2 0 k)
    refine congrArg (V c main_v7) (funext fun a => Fin.ext ?_)
    match a with
    | ⟨0, _⟩ => show win0_2.index t (0 : Fin 2) * 1 + 1 * 0 = 0; omega
    | ⟨1, _⟩ => show win0_2.index t (1 : Fin 2) * 128 + 1 * k.val = k.val; omega
  have hw : mat (iblk0 V c 1 t) = mat (V c main_arg7) := by
    funext k n
    show V c main_arg7 (((cfg0.win 1).blk t).view.emb (ix2 k n)) = V c main_arg7 (ix2 k n)
    refine congrArg (V c main_arg7) (funext fun a => Fin.ext ?_)
    match a with
    | ⟨0, _⟩ => show win0_1.index t (0 : Fin 2) * 16 + 1 * k.val = k.val; omega
    | ⟨1, _⟩ => show win0_1.index t (1 : Fin 2) * 128 + 1 * n.val = n.val; omega
  rw [hx, hb, hw, hq]

/-- An index of the table is in point t's block iff each coordinate is in the block's range on its axis. -/
theorem mem_blk (t : Fin cfg0.N) (i : S1600000x128.Idx) :
    i ∈ ((cfg0.win 3).blk t).view.set ↔ ∀ a : Fin 2, win0_3.index t a * S16000x128.size a ≤ (i a).val
      ∧ (i a).val < win0_3.index t a * S16000x128.size a + S16000x128.size a := by
  show i ∈ ((View.whole main_v8).slice (win0_3.rect t)).set ↔ _
  rw [View.set_slice_whole, Rect.mem_set_unit]
  exact Iff.rfl

/-- Every index of the table is in some point's block: row e is in block e / 16000. -/
theorem cover (i : S1600000x128.Idx) :
    ∃ t : Fin cfg0.N, (cfg0.win 3).flush t = true ∧ i ∈ ((cfg0.win 3).blk t).view.set := by
  have hi0 : (i 0).val < 1600000 := (i 0).isLt
  have hi1 : (i 1).val < 128 := (i 1).isLt
  obtain ⟨t, ht⟩ := idx_onto ⟨(i 0).val / 16000, by omega⟩
  have q0 : win0_3.index t (0 : Fin 2) = (i 0).val / 16000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 16000 ≤ (i 0).val ∧ (i 0).val < win0_3.index t (0 : Fin 2) * 16000 + 16000; omega
  | ⟨1, _⟩ => show win0_3.index t (1 : Fin 2) * 128 ≤ (i 1).val ∧ (i 1).val < win0_3.index t (1 : Fin 2) * 128 + 128; omega

/-- THE ARRAY after the launch is the table of the arrays the launch found. -/
theorem final (c : Dev nD) :
    (dat0 V c).arrAt 3 cfg0.N = efTable (V c main_arg1) (V c main_arg7) (V c main_v7) :=
  (dat0 V c).arrAt_eq_of_cover 3 _ (fun t _ => flushed_eq V c t) (cover)

end Launch

end Cert.KernelIdeal.Region0

end
-- ==== Proof.LibLayerNorm.lean ====
/-
  Layer normalisation of the rows of a matrix, read one row at a time on the extended reals, over any sizes.

  A row r of N entries has mean μ(r) = (Σ_k r_k) / c, where c is the number a given 32-bit word encodes (the row length as
  the program spells it); the centred row is d_k = r_k − μ(r); and with the scale s(d) = rsqrt((Σ_k d_k · d_k) / c + e) of the
  centred row (e a second word: the small offset), a gain row g and a bias row b,

      rowLN r g b q = d_q · s(d) · g_q + b_q.

  The same function is computed two ways. On the vector unit: sum along the lanes from zero, lay the sums out as a
  column, divide, spread the column along the lanes and subtract; square, sum, divide, add the offset, take the
  reciprocal square root, spread, multiply; the gain and bias given as one-row matrices and spread down the sublanes.
  On the host: reduce-add over the last axis from a scalar zero, broadcast to a column, divide by a broadcast scalar,
  broadcast along the last axis and subtract; and so on; the gain and bias vectors broadcast to a row and then down the
  rows. Both, read at row p, are rowLN of row p of the operand. Nothing here needs the entries to be finite: both
  sides apply the same operations to the same sums.
-/
import Idealize.ShloMosaic.PureOps.Ideal.Laws
import Idealize.ShloMosaic.Lib.Pipeline.Value
import Idealize.ShloMosaic.Lib.ValueIdx
import proofs.«144141_j47605417509015_2_alg».proof.Proof.LibColRowBroadcast
import proofs.«144141_j47605417509015_2_alg».proof.Proof.LibRmsNorm

noncomputable section

open scoped BigOperators

namespace Cert.LayerNorm

open Idealize.ShloMosaic Idealize.ShloMosaic.ValueIdx Cert.RmsNorm

/-! ## The function -/

/-- The mean of a row: its sum divided by the number `cN` encodes. -/
def mean {N : ℕ} (cN : BitVec 32) (r : Fin N → EReal) : EReal := Ideal.div (∑ k, r k) (Ideal.ofBits .f32 cN)

/-- A row with its mean subtracted from every entry. -/
def centred {N : ℕ} (cN : BitVec 32) (r : Fin N → EReal) : Fin N → EReal := fun k => r k - mean cN r

/-- Layer normalisation of a row: the centred row times its scale, times the gain, plus the bias. -/
def rowLN {N : ℕ} (cN ce : BitVec 32) (r g b : Fin N → EReal) : Fin N → EReal :=
  fun q => centred cN r q * scale cN ce (centred cN r) * g q + b q

/-! ## On the vector unit -/

/-- The column of means as the vector unit computes it. -/
def colMean {M N : ℕ} (cN : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) : FVec Ideal ⟨2, ![M, 1]⟩ .f32 :=
  divf (shapeCast ⟨2, ![M, 1]⟩ (multiReduction .add [1] ⟨1, ![M]⟩ a 0x00000000#32 hr hφ hacc) hc)
    (broadcast ⟨2, ![M, 1]⟩ (Scalar.ofBits .f32 cN))

/-- The column of means at row `p` is the mean of row `p`. -/
theorem colMean_apply {M N : ℕ} (cN : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (p : Fin M) (z : Fin 1) :
    colMean cN a hr hφ hacc hc (ix2 p z) = mean cN (row a p) := by
  have h1 : shapeCast ⟨2, ![M, 1]⟩ (multiReduction .add [1] ⟨1, ![M]⟩ a 0x00000000#32 hr hφ hacc) hc (ix2 p z)
      = ∑ k : Fin N, row a p k :=
    (Cert.ColRowBroadcast.colCast_apply _ hc p z).trans (laneSum_apply a hr hφ hacc p)
  exact congrArg (fun s => Ideal.div s (Ideal.ofBits .f32 cN)) h1

/-- The matrix with each row's mean subtracted, as the vector unit computes it. -/
def vectorCentred {M N : ℕ} (cN : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩) :
    FVec Ideal ⟨2, ![M, N]⟩ .f32 :=
  subf a (broadcastTo ⟨2, ![M, N]⟩ (colMean cN a hr hφ hacc hc) hb)

/-- Row `p` of it is row `p` centred. -/
theorem vectorCentred_row {M N : ℕ} (cN : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩) (p : Fin M) :
    row (vectorCentred cN a hr hφ hacc hc hb) p = centred cN (row a p) := by
  funext q
  have hm : broadcastTo ⟨2, ![M, N]⟩ (colMean cN a hr hφ hacc hc) hb (ix2 p q) = mean cN (row a p) :=
    (Cert.ColRowBroadcast.colBroadcast_apply _ hb p q).trans (colMean_apply cN a hr hφ hacc hc p 0)
  show a (ix2 p q) - broadcastTo ⟨2, ![M, N]⟩ (colMean cN a hr hφ hacc hc) hb (ix2 p q) = _
  rw [hm]
  rfl

/-- Layer normalisation of the rows of `a` with gain `g` and bias `bb` (one-row matrices), as the vector unit computes
    it. -/
def vectorLN {M N : ℕ} (cN ce : BitVec 32) (a : FVec Ideal ⟨2, ![M, N]⟩ .f32) (g bb : FVec Ideal ⟨2, ![1, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hgb : (⟨2, ![1, N]⟩ : Shape).Broadcasts ⟨2, ![M, N]⟩) : FVec Ideal ⟨2, ![M, N]⟩ .f32 :=
  addf (mulf (mulf (vectorCentred cN a hr hφ hacc hc hb)
      (broadcastTo ⟨2, ![M, N]⟩ (colScale cN ce (vectorCentred cN a hr hφ hacc hc hb) hr hφ hacc hc) hb))
      (broadcastTo ⟨2, ![M, N]⟩ g hgb))
    (broadcastTo ⟨2, ![M, N]⟩ bb hgb)

/-- Row `p` of the vector unit's layer normalisation is rowLN of row `p`. -/
theorem vectorLN_row {M N : ℕ} (cN ce : BitVec 32) (a : FVec Ideal ⟨2, ![M, N]⟩ .f32) (g bb : FVec Ideal ⟨2, ![1, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hgb : (⟨2, ![1, N]⟩ : Shape).Broadcasts ⟨2, ![M, N]⟩) (p : Fin M) :
    row (vectorLN cN ce a g bb hr hφ hacc hc hb hgb) p = rowLN cN ce (row a p) (row g 0) (row bb 0) := by
  funext q
  have hd : row (vectorCentred cN a hr hφ hacc hc hb) p = centred cN (row a p) := vectorCentred_row cN a hr hφ hacc hc hb p
  have hs : broadcastTo ⟨2, ![M, N]⟩ (colScale cN ce (vectorCentred cN a hr hφ hacc hc hb) hr hφ hacc hc) hb (ix2 p q)
      = scale cN ce (centred cN (row a p)) := by
    rw [Cert.ColRowBroadcast.colBroadcast_apply _ hb p q, colScale_apply cN ce _ hr hφ hacc hc p 0, hd]
  have hg : broadcastTo ⟨2, ![M, N]⟩ g hgb (ix2 p q) = row g 0 q := Cert.ColRowBroadcast.rowBroadcast_apply _ hgb p q
  have hbb : broadcastTo ⟨2, ![M, N]⟩ bb hgb (ix2 p q) = row bb 0 q := Cert.ColRowBroadcast.rowBroadcast_apply _ hgb p q
  show row (vectorCentred cN a hr hφ hacc hc hb) p q
      * broadcastTo ⟨2, ![M, N]⟩ (colScale cN ce (vectorCentred cN a hr hφ hacc hc hb) hr hφ hacc hc) hb (ix2 p q)
      * broadcastTo ⟨2, ![M, N]⟩ g hgb (ix2 p q) + broadcastTo ⟨2, ![M, N]⟩ bb hgb (ix2 p q) = _
  rw [hs, hg, hbb, hd]
  rfl

/-! ## On the host -/

/-- The column of means as the host computes it. -/
def hostColMean {M N : ℕ} (cN : BitVec 32) (a : FVec Ideal ⟨2, ![M, N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) : FVec Ideal ⟨2, ![M, 1]⟩ .f32 :=
  Host.divf
    (broadcastInDim ⟨2, ![M, 1]⟩ ![0] hb1 (Host.reduceAdd a (constant (F := Ideal) ⟨0, ![]⟩ .f32 0x00000000#32) hrt h0))
    (broadcastInDim ⟨2, ![M, 1]⟩ ![] hbs (constant (F := Ideal) ⟨0, ![]⟩ .f32 cN))

/-- The host's column of means at row `p` is the mean of row `p`. -/
theorem hostColMean_apply {M N : ℕ} (cN : BitVec 32) (a : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) (p : Fin M) (z : Fin 1) :
    hostColMean cN a hrt h0 hb1 hbs (ix2 p z) = mean cN (row a p) := by
  have h1 : broadcastInDim ⟨2, ![M, 1]⟩ ![0] hb1
        (Host.reduceAdd a (constant (F := Ideal) ⟨0, ![]⟩ .f32 0x00000000#32) hrt h0) (ix2 p z)
      = ∑ k : Fin N, row a p k :=
    (hostCol_apply _ hb1 p z).trans (hostSum_apply a hrt hr h0 p)
  have h2 : broadcastInDim ⟨2, ![M, 1]⟩ ![] hbs (constant (F := Ideal) ⟨0, ![]⟩ .f32 cN) (ix2 p z) = Ideal.ofBits .f32 cN :=
    scalarBroadcast_apply _ hbs (ix2 p z)
  show Ideal.div
      (broadcastInDim ⟨2, ![M, 1]⟩ ![0] hb1 (Host.reduceAdd a (constant (F := Ideal) ⟨0, ![]⟩ .f32 0x00000000#32) hrt h0) (ix2 p z))
      (broadcastInDim ⟨2, ![M, 1]⟩ ![] hbs (constant (F := Ideal) ⟨0, ![]⟩ .f32 cN) (ix2 p z)) = _
  rw [h1, h2]
  rfl

/-- The matrix with each row's mean subtracted, as the host computes it. -/
def hostCentred {M N : ℕ} (cN : BitVec 32) (a : FVec Ideal ⟨2, ![M, N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1]) : FVec Ideal ⟨2, ![M, N]⟩ .f32 :=
  subf a (broadcastInDim ⟨2, ![M, N]⟩ ![0, 1] hbc (hostColMean cN a hrt h0 hb1 hbs))

/-- Row `p` of it is row `p` centred. -/
theorem hostCentred_row {M N : ℕ} (cN : BitVec 32) (a : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1]) (p : Fin M) :
    row (hostCentred cN a hrt h0 hb1 hbs hbc) p = centred cN (row a p) := by
  funext q
  have hm : broadcastInDim ⟨2, ![M, N]⟩ ![0, 1] hbc (hostColMean cN a hrt h0 hb1 hbs) (ix2 p q) = mean cN (row a p) :=
    (hostColBroadcast_apply _ hbc p q).trans (hostColMean_apply cN a hrt hr h0 hb1 hbs p 0)
  show a (ix2 p q) - broadcastInDim ⟨2, ![M, N]⟩ ![0, 1] hbc (hostColMean cN a hrt h0 hb1 hbs) (ix2 p q) = _
  rw [hm]
  rfl

/-- Layer normalisation of the rows of `a` with gain `g` and bias `bb` (vectors), as the host computes it. -/
def hostLN {M N : ℕ} (cN ce : BitVec 32) (a : FVec Ideal ⟨2, ![M, N]⟩ .f32) (g bb : FVec Ideal ⟨1, ![N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) : FVec Ideal ⟨2, ![M, N]⟩ .f32 :=
  addf (mulf (mulf (hostCentred cN a hrt h0 hb1 hbs hbc)
      (broadcastInDim ⟨2, ![M, N]⟩ ![0, 1] hbc (hostColScale cN ce (hostCentred cN a hrt h0 hb1 hbs hbc) hrt h0 hb1 hbs)))
      (broadcastInDim ⟨2, ![M, N]⟩ ![0, 1] hgb (broadcastInDim ⟨2, ![1, N]⟩ ![1] hg g)))
    (broadcastInDim ⟨2, ![M, N]⟩ ![0, 1] hgb (broadcastInDim ⟨2, ![1, N]⟩ ![1] hg bb))

/-- Row `p` of the host's layer normalisation is rowLN of row `p`. -/
theorem hostLN_row {M N : ℕ} (cN ce : BitVec 32) (a : FVec Ideal ⟨2, ![M, N]⟩ .f32) (g bb : FVec Ideal ⟨1, ![N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) (p : Fin M) :
    row (hostLN cN ce a g bb hrt h0 hb1 hbs hbc hg hgb) p = rowLN cN ce (row a p) (vec g) (vec bb) := by
  funext q
  have hd : row (hostCentred cN a hrt h0 hb1 hbs hbc) p = centred cN (row a p) := hostCentred_row cN a hrt hr h0 hb1 hbs hbc p
  have hs : broadcastInDim ⟨2, ![M, N]⟩ ![0, 1] hbc (hostColScale cN ce (hostCentred cN a hrt h0 hb1 hbs hbc) hrt h0 hb1 hbs) (ix2 p q)
      = scale cN ce (centred cN (row a p)) := by
    rw [hostColBroadcast_apply _ hbc p q, hostColScale_apply cN ce _ hrt hr h0 hb1 hbs p 0, hd]
  have hq : broadcastInDim ⟨2, ![M, N]⟩ ![0, 1] hgb (broadcastInDim ⟨2, ![1, N]⟩ ![1] hg g) (ix2 p q) = vec g q :=
    (hostRowBroadcast_apply _ hgb p q).trans (hostRow_apply g hg 0 q)
  have hbq : broadcastInDim ⟨2, ![M, N]⟩ ![0, 1] hgb (broadcastInDim ⟨2, ![1, N]⟩ ![1] hg bb) (ix2 p q) = vec bb q :=
    (hostRowBroadcast_apply _ hgb p q).trans (hostRow_apply bb hg 0 q)
  show row (hostCentred cN a hrt h0 hb1 hbs hbc) p q
      * broadcastInDim ⟨2, ![M, N]⟩ ![0, 1] hbc (hostColScale cN ce (hostCentred cN a hrt h0 hb1 hbs hbc) hrt h0 hb1 hbs) (ix2 p q)
      * broadcastInDim ⟨2, ![M, N]⟩ ![0, 1] hgb (broadcastInDim ⟨2, ![1, N]⟩ ![1] hg g) (ix2 p q)
      + broadcastInDim ⟨2, ![M, N]⟩ ![0, 1] hgb (broadcastInDim ⟨2, ![1, N]⟩ ![1] hg bb) (ix2 p q) = _
  rw [hs, hq, hbq, hd]
  rfl

end Cert.LayerNorm

end
-- ==== Proof.Region1.lean ====
/-
  The second launch: layer-normalised rows of x times the weight table.

  The launch cuts the 100000 rows of x into 20 blocks of 5000 rows; the weight table W and the one-row gain and bias
  tables are whole at every point. On a block the body normalises each row (mean subtracted, scaled by the reciprocal
  square root of the variance plus a small word, times the gain, plus the bias) and multiplies the normalised block
  by W into zeros; a change of float format is the identity on the extended reals. Row p of block t depends on row
  5000 t + p of x only, so what point t writes back is block t of ONE table (`hTable`): at (r, q) the sum over k of
  (row r of x, normalised)_k · W (k, q). The blocks cover the table, so the array ends at `hTable` of the arrays the
  launch found.
-/
import proofs.«144141_j47605417509015_2_alg».proof.Proof.Gen.KernelIdeal.Frame
import proofs.«144141_j47605417509015_2_alg».proof.Proof.LibLayerNorm
import proofs.«144141_j47605417509015_2_alg».proof.Proof.LibPlainMatmul
import Idealize.ShloMosaic.Lib.Pipeline.Value
import Idealize.ShloMosaic.Lib.ValueIdx

set_option maxRecDepth 16384

noncomputable section

open scoped BigOperators

namespace Cert.KernelIdeal.Region1

open Idealize.ShloMosaic Idealize.ShloMosaic.TcCoe Idealize.ShloMosaic.ValueIdx Idealize.SL.Sem
open Cert.KernelIdeal Cert.KernelIdeal.Gen Cert.RmsNorm Cert.LayerNorm
open Idealize.ShloMosaic.Pipeline (Dat)

/-- The words of the row length 128 and of the small offset. -/
abbrev cN : BitVec 32 := 0x43000000#32
abbrev cE : BitVec 32 := 0x3727C5AC#32

/-- The table the launch leaves: the normalised rows of X times W. -/
def hTable (X : S100000x128.Idx → EReal) (W : S128x128.Idx → EReal) (g b : S1x128.Idx → EReal) :
    S100000x128.Idx → EReal :=
  fun i => rowMat (rowLN cN cE (row X (i 0)) (row g 0) (row b 0)) (mat W) (i 1)

theorem hz : (![0, 0] : Fin 2 → Nat) = fun _ => 0 := funext fun a => by fin_cases a <;> rfl

/-- The body's result on a block, at (p, q): the normalised row p of the block times column q of the weights. -/
theorem pay_apply (x0 : Vec Ideal S5000x128 .f32) (g b : Vec Ideal S1x128 .f32) (w : Vec Ideal S128x128 .f32)
    (p : Fin 5000) (q : Fin 128) :
    k1_pay1 (F := Ideal) x0 g b w (ix2 p q)
      = rowMat (rowLN cN cE (row x0 p) (row g 0) (row b 0)) (mat w) q := by
  unfold k1_pay1
  dsimp only
  rw [shapeCast_self, shapeCast_self]
  refine (Cert.PlainMatmul.matmul_zero_apply 5000 128 128 none _ _ p q).trans ?_
  unfold rowMat
  refine Finset.sum_congr rfl fun k _ => ?_
  rw [truncf_apply, truncf_apply]
  exact congrArg (· * w (ix2 k q))
    (congrFun (vectorLN_row cN cE x0 g b reduces_S5000x128_S5000 (.inl rfl) rfl shapeCasts_S5000_S5000x1
      broadcasts_S5000x1_S5000x128 broadcasts_S1x128_S5000x128 p) k)

section Launch

variable (V : (c : Dev nD) → (b : Ref sig .tc) → Buf (Elt Ideal) ((c : Thread nD τ).loc b))

/-- The printed index maps over the grid: the blocks of x and of the result move together down the rows; the other
    windows are whole. -/
theorem idx_facts : ∀ t : Fin cfg1.N, win1_0.index t (0 : Fin 2) = win1_4.index t (0 : Fin 2)
    ∧ win1_0.index t (1 : Fin 2) = 0 ∧ win1_4.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) ≤ 19 :=
  (by decide +kernel : ∀ t : Fin grid1.N, _)

/-- Every block of rows is some point's. -/
theorem idx_onto : ∀ q0 : Fin 20, ∃ t : Fin cfg1.N, win1_4.index t = ![q0.val, 0] :=
  (by decide +kernel : ∀ q0 : Fin 20, ∃ t : Fin grid1.N, win1_4.index t = ![q0.val, 0])

/-- What point t writes back is block t of the table. -/
theorem flushed_eq (c : Dev nD) (t : Fin cfg1.N) :
    (dat1 V c).flushed 4 t = ((cfg1.win 4).blk t).view.read (Elt Ideal)
      (hTable (V c main_arg0) (V c main_arg3) (V c main_v9) (V c main_v10)) := by
  show (cfg1.win 4).cut (grid1.coords t) ((dat1 V c).after 4 t) = _
  rw [after1_4]
  unfold out1_4
  rw [View.canon_unit_zero hz]
  simp only [View.ld_unit_zero (S := S5000x128) hz, View.ld_unit_zero (S := S1x128) hz,
    View.ld_unit_zero (S := S128x128) hz]
  obtain ⟨e0, e1, e2, e3, e4, e5, e6, e7, e8, e9⟩ := idx_facts t
  funext j
  obtain ⟨p, q, rfl⟩ : ∃ (p : Fin 5000) (q : Fin 128), j = ix2 p q := ⟨j 0, j 1, eq_ix2 j⟩
  show k1_pay1 (F := Ideal) (iblk1 V c 0 t) (iblk1 V c 2 t) (iblk1 V c 3 t) (iblk1 V c 1 t) (ix2 p q)
    = hTable (V c main_arg0) (V c main_arg3) (V c main_v9) (V c main_v10) (((cfg1.win 4).blk t).view.emb (ix2 p q))
  refine (pay_apply _ _ _ _ p q).trans ?_
  unfold hTable
  have hq : (((cfg1.win 4).blk t).view.emb (ix2 p q)) 1 = q := by
    apply Fin.ext
    show win1_4.index t (1 : Fin 2) * 128 + 1 * q.val = q.val
    omega
  have hx : row (iblk1 V c 0 t) p = row (V c main_arg0) ((((cfg1.win 4).blk t).view.emb (ix2 p q)) 0) := by
    funext k
    show V c main_arg0 (((cfg1.win 0).blk t).view.emb (ix2 p k)) = V c main_arg0 (ix2 _ k)
    refine congrArg (V c main_arg0) (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * k.val = k.val; omega
  have hg : row (iblk1 V c 2 t) 0 = row (V c main_v9) 0 := by
    funext k
    show V c main_v9 (((cfg1.win 2).blk t).view.emb (ix2 0 k)) = V c main_v9 (ix2 0 k)
    refine congrArg (V c main_v9) (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  have hb : row (iblk1 V c 3 t) 0 = row (V c main_v10) 0 := by
    funext k
    show V c main_v10 (((cfg1.win 3).blk t).view.emb (ix2 0 k)) = V c main_v10 (ix2 0 k)
    refine congrArg (V c main_v10) (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  have hw : mat (iblk1 V c 1 t) = mat (V c main_arg3) := by
    funext k n
    show V c main_arg3 (((cfg1.win 1).blk t).view.emb (ix2 k n)) = V c main_arg3 (ix2 k n)
    refine congrArg (V c main_arg3) (funext fun a => Fin.ext ?_)
    match a with
    | ⟨0, _⟩ => show win1_1.index t (0 : Fin 2) * 128 + 1 * k.val = k.val; omega
    | ⟨1, _⟩ => show win1_1.index t (1 : Fin 2) * 128 + 1 * n.val = n.val; omega
  rw [hx, hg, hb, hw, hq]

/-- An index of the table is in point t's block iff each coordinate is in the block's range on its axis. -/
theorem mem_blk (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v11).slice (win1_4.rect t)).set ↔ _
  rw [View.set_slice_whole, Rect.mem_set_unit]
  exact Iff.rfl

/-- Every index of the table is in some point's block: row r is in block r / 5000. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- THE ARRAY after the launch is the table of the arrays the launch found. -/
theorem final (c : Dev nD) :
    (dat1 V c).arrAt 4 cfg1.N = hTable (V c main_arg0) (V c main_arg3) (V c main_v9) (V c main_v10) :=
  (dat1 V c).arrAt_eq_of_cover 4 _ (fun t _ => flushed_eq V c t) (cover)

end Launch

end Cert.KernelIdeal.Region1

end
-- ==== Proof.Region2.lean ====
/-
  The third launch: the gated combination.

  The launch cuts the 100000 rows of the two node tables O (the convolution's result) and A (the aggregated edge
  features) into 20 blocks of 5000 rows; the two weight tables and the one-row bias are whole at every point. On a
  block the body forms the gate, logistic (O · W₁ + A · W₂ + bias) — two products into zeros, a change of float
  format being the identity on the extended reals — and leaves max (g · O + (1 − g) · A, 0). Row p of block t
  depends on rows 5000 t + p of O and of A only, so what point t writes back is block t of ONE table (`finTable`):
  at (r, q), `gateRow` of rows r. The blocks cover the table.
-/
import proofs.«144141_j47605417509015_2_alg».proof.Proof.Gen.KernelIdeal.Frame
import proofs.«144141_j47605417509015_2_alg».proof.Proof.LibPlainMatmul
import proofs.«144141_j47605417509015_2_alg».proof.Proof.LibColRowBroadcast
import proofs.«144141_j47605417509015_2_alg».proof.Proof.Spec
import Idealize.ShloMosaic.Lib.Pipeline.Value
import Idealize.ShloMosaic.Lib.ValueIdx

set_option maxRecDepth 16384

noncomputable section

open scoped BigOperators

namespace Cert.KernelIdeal.Region2

open Idealize.ShloMosaic Idealize.ShloMosaic.TcCoe Idealize.ShloMosaic.ValueIdx Idealize.SL.Sem
open Cert.KernelIdeal Cert.KernelIdeal.Gen Cert.RmsNorm Cert.Gnn
open Idealize.ShloMosaic.Pipeline (Dat)

/-- The table the launch leaves. -/
def finTable (O A : S100000x128.Idx → EReal) (W₁ W₂ : S128x128.Idx → EReal) (b : S1x128.Idx → EReal) :
    S100000x128.Idx → EReal :=
  fun i => gateRow (row O (i 0)) (row A (i 0)) (mat W₁) (mat W₂) (row b 0) (i 1)

theorem hz : (![0, 0] : Fin 2 → Nat) = fun _ => 0 := funext fun a => by fin_cases a <;> rfl

/-- The gate's argument on a block, at (p, q). -/
theorem logits_apply (o a : Vec Ideal S5000x128 .f32) (w₁ w₂ : Vec Ideal S128x128 .f32) (b : Vec Ideal S1x128 .f32)
    (p : Fin 5000) (q : Fin 128) :
    addf (addf
        (matmul dot_S5000x128_S128x128_S5000x128_1_0_0_1_n_n none (truncf .bf16 o bitsLt_bf16_f32)
          (truncf .bf16 w₁ bitsLt_bf16_f32) (constant (F := Ideal) S5000x128 .f32 0x00000000#32))
        (matmul dot_S5000x128_S128x128_S5000x128_1_0_0_1_n_n none (truncf .bf16 a bitsLt_bf16_f32)
          (truncf .bf16 w₂ bitsLt_bf16_f32) (constant (F := Ideal) S5000x128 .f32 0x00000000#32)))
      (broadcastTo S5000x128 b broadcasts_S1x128_S5000x128) (ix2 p q)
      = (rowMat (row o p) (mat w₁) q + rowMat (row a p) (mat w₂) q) + row b 0 q := by
  rw [addf_apply, addf_apply]
  unfold rowMat
  refine congrArg₂ (· + ·) (congrArg₂ (· + ·) ?_ ?_) ?_
  · refine (Cert.PlainMatmul.matmul_zero_apply 5000 128 128 none _ _ p q).trans ?_
    refine Finset.sum_congr rfl fun k _ => ?_
    rw [truncf_apply, truncf_apply]
    rfl
  · refine (Cert.PlainMatmul.matmul_zero_apply 5000 128 128 none _ _ p q).trans ?_
    refine Finset.sum_congr rfl fun k _ => ?_
    rw [truncf_apply, truncf_apply]
    rfl
  · exact Cert.ColRowBroadcast.rowBroadcast_apply b broadcasts_S1x128_S5000x128 p q

/-- The body's result on a block, at (p, q). -/
theorem pay_apply (o a : Vec Ideal S5000x128 .f32) (w₁ w₂ : Vec Ideal S128x128 .f32) (b : Vec Ideal S1x128 .f32)
    (p : Fin 5000) (q : Fin 128) :
    k2_pay1 (F := Ideal) o a w₁ w₂ b (ix2 p q) = gateRow (row o p) (row a p) (mat w₁) (mat w₂) (row b 0) q := by
  unfold k2_pay1
  try dsimp only
  rw [shapeCast_self, shapeCast_self, shapeCast_self, shapeCast_self, shapeCast_self]
  rw [maximumf_apply, addf_apply, mulf_apply, mulf_apply, subf_apply]
  unfold gateRow gateAt
  have hl := logits_apply o a w₁ w₂ b p q
  refine congrArg₂ max (congrArg₂ (· + ·) (congrArg₂ (· * ·) ?_ rfl) (congrArg₂ (· * ·) (congrArg₂ (· - ·) rfl ?_) rfl))
    Ideal.ofBits_zero_f32
  · exact congrArg Ideal.logistic hl
  · exact congrArg Ideal.logistic hl

section Launch

variable (V : (c : Dev nD) → (b : Ref sig .tc) → Buf (Elt Ideal) ((c : Thread nD τ).loc b))

/-- The printed index maps over the grid. -/
theorem idx_facts : ∀ t : Fin cfg2.N, win2_0.index t (0 : Fin 2) = win2_5.index t (0 : Fin 2)
    ∧ win2_0.index t (1 : Fin 2) = 0 ∧ win2_5.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 19 :=
  (by decide +kernel : ∀ t : Fin grid2.N, _)

/-- Every block of rows is some point's. -/
theorem idx_onto : ∀ q0 : Fin 20, ∃ t : Fin cfg2.N, win2_5.index t = ![q0.val, 0] :=
  (by decide +kernel : ∀ q0 : Fin 20, ∃ t : Fin grid2.N, win2_5.index t = ![q0.val, 0])

set_option maxHeartbeats 2000000 in
/-- What point t writes back is block t of the table. -/
theorem flushed_eq (c : Dev nD) (t : Fin cfg2.N) :
    (dat2 V c).flushed 5 t = ((cfg2.win 5).blk t).view.read (Elt Ideal)
      (finTable (V c main_v54) (V c main_v64) (V c main_v65) (V c main_v66) (V c main_v67)) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz,
    View.ld_unit_zero (S := S128x128) hz]
  obtain ⟨e0, e1, e2, e3, e4, e5, e6, e7, e8, e9, e10, e11⟩ := idx_facts t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
    = finTable (V c main_v54) (V c main_v64) (V c main_v65) (V c main_v66) (V c main_v67)
        (((cfg2.win 5).blk t).view.emb (ix2 p q))
  refine (pay_apply _ _ _ _ _ p q).trans ?_
  unfold finTable
  have hq : (((cfg2.win 5).blk t).view.emb (ix2 p q)) 1 = q := by
    apply Fin.ext
    show win2_5.index t (1 : Fin 2) * 128 + 1 * q.val = q.val
    omega
  have ho : row (iblk2 V c 0 t) p = row (V c main_v54) ((((cfg2.win 5).blk t).view.emb (ix2 p q)) 0) := by
    funext k
    show V c main_v54 (((cfg2.win 0).blk t).view.emb (ix2 p k)) = V c main_v54 (ix2 _ k)
    refine congrArg (V c main_v54) (funext fun a => Fin.ext ?_)
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * k.val = k.val; omega
  have ha : row (iblk2 V c 1 t) p = row (V c main_v64) ((((cfg2.win 5).blk t).view.emb (ix2 p q)) 0) := by
    funext k
    show V c main_v64 (((cfg2.win 1).blk t).view.emb (ix2 p k)) = V c main_v64 (ix2 _ k)
    refine congrArg (V c main_v64) (funext fun a => Fin.ext ?_)
    match a with
    | ⟨0, _⟩ => show win2_1.index t (0 : Fin 2) * 5000 + 1 * p.val = win2_5.index t (0 : Fin 2) * 5000 + 1 * p.val; omega
    | ⟨1, _⟩ => show win2_1.index t (1 : Fin 2) * 128 + 1 * k.val = k.val; omega
  have hw1 : mat (iblk2 V c 2 t) = mat (V c main_v65) := by
    funext k n
    show V c main_v65 (((cfg2.win 2).blk t).view.emb (ix2 k n)) = V c main_v65 (ix2 k n)
    refine congrArg (V c main_v65) (funext fun a => Fin.ext ?_)
    match a with
    | ⟨0, _⟩ => show win2_2.index t (0 : Fin 2) * 128 + 1 * k.val = k.val; omega
    | ⟨1, _⟩ => show win2_2.index t (1 : Fin 2) * 128 + 1 * n.val = n.val; omega
  have hw2 : mat (iblk2 V c 3 t) = mat (V c main_v66) := by
    funext k n
    show V c main_v66 (((cfg2.win 3).blk t).view.emb (ix2 k n)) = V c main_v66 (ix2 k n)
    refine congrArg (V c main_v66) (funext fun a => Fin.ext ?_)
    match a with
    | ⟨0, _⟩ => show win2_3.index t (0 : Fin 2) * 128 + 1 * k.val = k.val; omega
    | ⟨1, _⟩ => show win2_3.index t (1 : Fin 2) * 128 + 1 * n.val = n.val; omega
  have hb : row (iblk2 V c 4 t) 0 = row (V c main_v67) 0 := by
    funext k
    show V c main_v67 (((cfg2.win 4).blk t).view.emb (ix2 0 k)) = V c main_v67 (ix2 0 k)
    refine congrArg (V c main_v67) (funext fun a => Fin.ext ?_)
    match a with
    | ⟨0, _⟩ => show win2_4.index t (0 : Fin 2) * 1 + 1 * 0 = 0; omega
    | ⟨1, _⟩ => show win2_4.index t (1 : Fin 2) * 128 + 1 * k.val = k.val; omega
  rw [ho, ha, hw1, hw2, hb, hq]

/-- An index of the table is in point t's block iff each coordinate is in the block's range on its axis. -/
theorem mem_blk (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v68).slice (win2_5.rect t)).set ↔ _
  rw [View.set_slice_whole, Rect.mem_set_unit]
  exact Iff.rfl

/-- Every index of the table is in some point's block: row r is in block r / 5000. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE ARRAY after the launch is the table of the arrays the launch found. -/
theorem final (c : Dev nD) :
    (dat2 V c).arrAt 5 cfg2.N
      = finTable (V c main_v54) (V c main_v64) (V c main_v65) (V c main_v66) (V c main_v67) :=
  (dat2 V c).arrAt_eq_of_cover 5 _ (fun t _ => flushed_eq V c t) (cover)

end Launch

end Cert.KernelIdeal.Region2

end
-- ==== Proof.LibRowGatherScatter.lean ====
/-
  Rows gathered and rows scattered, read at one element, over any sizes.

  A table `x` of R rows and C columns; N index words. The row gather makes the N × C table whose row n is row
  `idx n` of x, the word read as a signed integer and clamped into [0, R − 1]. The accumulating row scatter adds row n
  of an N × C table of updates to row `idx n` of the operand, the word read signed and NOT clamped: a row whose index
  is outside the operand is dropped. On the extended reals the scatter's result at (r, c) is the operand there plus the
  sum, over the rows n whose index is r, of the update at (n, c); no order of accumulation is left in it. Composed: the
  scatter of weighted gathered rows at (r, c) is a sum over n of weight · x (clamped source row of n, c) — column c of
  the result only ever meets column c of x.
-/
import Idealize.ShloMosaic.PureOps.Ideal
import Idealize.ShloMosaic.Lib.ValueIdx
import Idealize.ShloMosaic.Lib.Pipeline.Value

noncomputable section

open scoped BigOperators

namespace Cert.LibRowGatherScatter

open Idealize.ShloMosaic Idealize.ShloMosaic.ValueIdx

/-- The row an index word names for a gather out of R rows: read signed, clamped into [0, R − 1]. -/
def clampRow (R : Nat) (hR : 0 < R) {w : Nat} (b : BitVec w) : Fin R := ⟨min b.toInt.toNat (R - 1), by omega⟩

section Gather

variable {α : Type} {R N C : Nat}

/-- The dimension numbers of a row gather, for an operand [R, C], start indices [N, 1] and a result [N, C]. -/
abbrev rowGatherDims (R N C : Nat)
    (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

theorem gather_rowDims_apply (hR : 0 < R)
    (wf : GatherDims.WF ⟨2, ![R, C]⟩ ⟨2, ![N, 1]⟩ ⟨2, ![N, C]⟩ [1] [0] [] [0] [] 1 ![1, C]) {w : Nat}
    (x : (⟨2, ![R, C]⟩ : Shape).Idx → α) (idx : IVec ⟨2, ![N, 1]⟩ w) (n : Fin N) (c : Fin C) :
    Host.gather (rowGatherDims R N C wf) x idx (ix2 n c) = x (ix2 (clampRow R hR (idx (ix2 n (0 : Fin 1)))) c) := by
  unfold Host.gather
  congr 1
  funext a
  refine Fin.ext ?_
  have e0 : ((rowGatherDims R N C wf).operandIdx (ix2 n c) idx 0).val = min (idx (ix2 n (0 : Fin 1))).toInt.toNat (R - 1) := by
    show (rowGatherDims R N C wf).start (ix2 n c) idx 0 + (rowGatherDims R N C wf).batchCoord (ix2 n c) 0
      + (rowGatherDims R N C wf).offCoord (ix2 n c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims R N C wf).startIndexMap from List.mem_singleton.mpr rfl)]
    have hsi : (rowGatherDims R N C wf).siIdx (ix2 n c) ⟨List.idxOf (0 : Fin 2) (rowGatherDims R N C wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  have e1 : ((rowGatherDims R N C wf).operandIdx (ix2 n c) idx 1).val = c.val := by
    show (rowGatherDims R N C wf).start (ix2 n c) idx 1 + (rowGatherDims R N C wf).batchCoord (ix2 n c) 1
      + (rowGatherDims R N C wf).offCoord (ix2 n c) 1 = _
    rw [GatherDims.batchCoord_eq_zero _ _ _ List.not_mem_nil]
    have hs : (rowGatherDims R N C wf).start (ix2 n c) idx 1 = 0 := by
      unfold GatherDims.start
      rw [dif_neg (show (1 : Fin 2) ∉ (rowGatherDims R N C wf).startIndexMap from
        (by decide : (1 : Fin 2) ∉ ([0] : List (Fin 2))))]
    rw [hs]
    simp only [Nat.add_zero, Nat.zero_add]
    unfold GatherDims.offCoord
    rw [dif_pos (show (1 : Fin 2) ∈ (rowGatherDims R N C wf).sKept from
      List.mem_filter.2 ⟨List.mem_finRange _, (by decide : decide ((1 : Fin 2) ∉ (([0] : List (Fin 2)) ++ [])) = true)⟩)]
    rfl
  match a with
  | ⟨0, _⟩ => exact e0
  | ⟨1, _⟩ => exact e1

/-- THE ROW GATHER READ AT (n, c): x at (the clamped row of word n, c). -/
theorem gather_rows (g : GatherDims ⟨2, ![R, C]⟩ ⟨2, ![N, 1]⟩ ⟨2, ![N, C]⟩)
    (h1 : g.offsetDims = [1]) (h2 : g.collapsedSliceDims = [0]) (h3 : g.operandBatchingDims = [])
    (h4 : g.startIndicesBatchingDims = []) (h5 : g.startIndexMap = [0]) (h6 : g.indexVectorDim = 1)
    (h7 : g.sliceSizes = ![1, C]) (hR : 0 < R) {w : Nat}
    (x : (⟨2, ![R, C]⟩ : Shape).Idx → α) (idx : IVec ⟨2, ![N, 1]⟩ w) (n : Fin N) (c : Fin C) :
    Host.gather g x idx (ix2 n c) = x (ix2 (clampRow R hR (idx (ix2 n (0 : Fin 1)))) c) := by
  obtain ⟨od, cd, ob, sb, sm, iv, ss, wf⟩ := g
  simp only at h1 h2 h3 h4 h5 h6 h7
  subst h1 h2 h3 h4 h5 h6 h7
  exact gather_rowDims_apply hR wf x idx n c

end Gather

section Scatter

variable {R N C : Nat} (d : ScatterDims ⟨2, ![R, C]⟩ ⟨2, ![N, 1]⟩ ⟨2, ![N, C]⟩)

/-- Where update element (n, c') lands: at (r, c) exactly when row n's index word, read signed, is r and c' = c. -/
theorem resultIdx?_rows (h1 : d.updateWindowDims = [1]) (h2 : d.insertedWindowDims = [0])
    (h3 : d.scatterDimsToOperandDims = [0]) (h4 : d.indexVectorDim = 1) {w : Nat}
    (idx : IVec ⟨2, ![N, 1]⟩ w) (n : Fin N) (c' : Fin C) (r : Fin R) (c : Fin C) :
    d.resultIdx? (ix2 n c') idx = some (ix2 r c) ↔ (idx (ix2 n (0 : Fin 1))).toInt = (r.val : ℤ) ∧ c' = c := by
  obtain ⟨uw, iw, sd, iv, wf⟩ := d
  simp only at h1 h2 h3 h4
  subst h1 h2 h3 h4
  have hs0 : ScatterDims.start ⟨[1], [0], [0], 1, wf⟩ (ix2 n c') idx 0 = (idx (ix2 n (0 : Fin 1))).toInt := by
    unfold ScatterDims.start
    rw [dif_pos (List.mem_singleton.mpr rfl)]
    congr 2
    funext b
    refine Fin.ext ?_
    match b with
    | ⟨0, _⟩ => rfl
    | ⟨1, _⟩ => rfl
  have hs1 : ScatterDims.start ⟨[1], [0], [0], 1, wf⟩ (ix2 n c') idx 1 = 0 := by
    unfold ScatterDims.start
    rw [dif_neg (show (1 : Fin 2) ∉ ([0] : List (Fin 2)) by decide)]
  have hw0 : ScatterDims.window ⟨[1], [0], [0], 1, wf⟩ (ix2 n c') 0 = 0 := by
    unfold ScatterDims.window
    rw [dif_neg (show (0 : Fin 2) ∉ (⟨2, ![R, C]⟩ : Shape).kept [0] from
      fun h => (of_decide_eq_true (List.mem_filter.1 h).2) (List.mem_singleton.mpr rfl))]
  have hw1 : ScatterDims.window ⟨[1], [0], [0], 1, wf⟩ (ix2 n c') 1 = c'.val := by
    unfold ScatterDims.window
    rw [dif_pos (show (1 : Fin 2) ∈ (⟨2, ![R, C]⟩ : Shape).kept [0] from
      List.mem_filter.2 ⟨List.mem_finRange _, (by decide : decide ((1 : Fin 2) ∉ ([0] : List (Fin 2))) = true)⟩)]
    rfl
  unfold ScatterDims.resultIdx?
  simp only [Fin.forall_fin_two, hs0, hs1, hw0, hw1]
  have hc0 : (ix2 r c (0 : Fin 2)) = r := rfl
  have hc1 : (ix2 r c (1 : Fin 2)) = c := rfl
  have hz0 : ((![R, C] : Fin 2 → ℕ) 0) = R := rfl
  have hz1 : ((![R, C] : Fin 2 → ℕ) 1) = C := rfl
  have hr := r.isLt
  have hc := c.isLt
  have hc' := c'.isLt
  by_cases hcond : ((0 ≤ (idx (ix2 n (0 : Fin 1))).toInt + ((0 : ℕ) : ℤ) ∧ (idx (ix2 n (0 : Fin 1))).toInt + ((0 : ℕ) : ℤ) < (((![R, C] : Fin 2 → ℕ) 0 : ℕ) : ℤ)) ∧
            0 ≤ (0 : ℤ) + ((c'.val : ℕ) : ℤ) ∧ (0 : ℤ) + ((c'.val : ℕ) : ℤ) < (((![R, C] : Fin 2 → ℕ) 1 : ℕ) : ℤ))
  · rw [dif_pos hcond]
    simp only [Option.some.injEq, funext_iff, Fin.forall_fin_two, Fin.ext_iff, hs0, hs1, hw0, hw1, hc0, hc1]
    rw [hz0, hz1] at hcond
    constructor
    · rintro ⟨h0, h1⟩
      exact ⟨by omega, by omega⟩
    · rintro ⟨h0, h1⟩
      exact ⟨by omega, by omega⟩
  · rw [dif_neg hcond]
    rw [hz0, hz1] at hcond
    constructor
    · intro h; exact absurd h (by simp)
    · rintro ⟨h0, h1⟩
      exact absurd ⟨⟨by omega, by omega⟩, by omega, by omega⟩ hcond

/-- THE ROW SCATTER READ AT (r, c): the operand there plus the updates (n, c) of the rows n whose index is r. -/
theorem scatterAdd_rows (h1 : d.updateWindowDims = [1]) (h2 : d.insertedWindowDims = [0])
    (h3 : d.scatterDimsToOperandDims = [0]) (h4 : d.indexVectorDim = 1) {w : Nat}
    (x : FVec Ideal ⟨2, ![R, C]⟩ .f32) (idx : IVec ⟨2, ![N, 1]⟩ w)
    (upd : FVec Ideal ⟨2, ![N, C]⟩ .f32) (r : Fin R) (c : Fin C) :
    Host.scatterAdd (F := Ideal) d x idx upd (ix2 r c)
      = x (ix2 r c) + ∑ n : Fin N, (if (idx (ix2 n (0 : Fin 1))).toInt = (r.val : ℤ) then upd (ix2 n c) else 0) := by
  simp only [Host.scatterAdd, Ideal.hostScatterAdd_def, Ideal.hostScatterAdd]
  refine congrArg (x (ix2 r c) + ·) ?_
  rw [Finset.sum_filter, sum_idx2]
  refine Finset.sum_congr rfl fun n _ => ?_
  simp only [resultIdx?_rows d h1 h2 h3 h4]
  by_cases hA : (idx (ix2 n (0 : Fin 1))).toInt = (r.val : ℤ)
  · simp only [hA, true_and, if_true]
    rw [Finset.sum_ite_eq' Finset.univ c (fun c' => upd (ix2 n c')), if_pos (Finset.mem_univ c)]
  · simp only [hA, false_and, if_false, Finset.sum_const_zero]

end Scatter

section Propagate

variable {R N C : Nat} (d : ScatterDims ⟨2, ![R, C]⟩ ⟨2, ![N, 1]⟩ ⟨2, ![N, C]⟩)
  (g : GatherDims ⟨2, ![R, C]⟩ ⟨2, ![N, 1]⟩ ⟨2, ![N, C]⟩)

/-- The scatter of weighted gathered rows at (r, c): the operand there plus, over the rows n sent to r, weight (n, c)
    times x at (the clamped source row of n, c). -/
theorem scatter_mul_gather (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C]) (hR : 0 < R) {w w' : Nat}
    (z x : FVec Ideal ⟨2, ![R, C]⟩ .f32) (wt : FVec Ideal ⟨2, ![N, C]⟩ .f32)
    (idxD : IVec ⟨2, ![N, 1]⟩ w) (idxS : IVec ⟨2, ![N, 1]⟩ w') (r : Fin R) (c : Fin C) :
    Host.scatterAdd (F := Ideal) d z idxD (mulf wt (Host.gather g x idxS)) (ix2 r c)
      = z (ix2 r c) + ∑ n : Fin N, (if (idxD (ix2 n (0 : Fin 1))).toInt = (r.val : ℤ)
          then wt (ix2 n c) * x (ix2 (clampRow R hR (idxS (ix2 n (0 : Fin 1)))) c) else 0) := by
  rw [scatterAdd_rows d h1 h2 h3 h4]
  refine congrArg (z (ix2 r c) + ·) (Finset.sum_congr rfl fun n _ => ?_)
  rw [mulf_apply, gather_rows g k1 k2 k3 k4 k5 k6 k7 hR]

end Propagate

section Widths

variable {R N C C' : Nat}

/-- A per-row number broadcast across C columns, read at (n, c): the number of row n. -/
theorem bcast_col_apply {α : Type} (hN : N ≠ 1) (v : (⟨1, ![N]⟩ : Shape).Idx → α)
    (h3 : (⟨1, ![N]⟩ : Shape).BroadcastsInDim ⟨2, ![N, 1]⟩ ![0])
    (h4 : (⟨2, ![N, 1]⟩ : Shape).BroadcastsInDim ⟨2, ![N, C]⟩ ![0, 1]) (n : Fin N) (c : Fin C) :
    broadcastInDim ⟨2, ![N, C]⟩ ![0, 1] h4 (broadcastInDim ⟨2, ![N, 1]⟩ ![0] h3 v) (ix2 n c) = v (ix1 n) := by
  refine (broadcastInDim_apply _ h4 _ (ix2 n c) (ix2 n (0 : Fin 1)) ?_).trans ?_
  · intro a
    match a with
    | ⟨0, _⟩ => show n.val = if N = 1 then 0 else n.val; rw [if_neg hN]
    | ⟨1, _⟩ => show (0 : Fin 1).val = if (1 : Nat) = 1 then 0 else c.val; rw [if_pos rfl]; rfl
  refine broadcastInDim_apply _ h3 v (ix2 n (0 : Fin 1)) (ix1 n) ?_
  intro a
  match a with
  | ⟨0, _⟩ => show n.val = if N = 1 then 0 else n.val; rw [if_neg hN]

/-- TWO WIDTHS, ONE COLUMN EACH: the scatter of weighted gathered rows over tables of C columns, read at column c,
    and the same over tables of C' columns, read at column c', agree when the operands agree at those two columns —
    the index lists being the same. A propagation of a wide table is, column by column, the propagation of its
    columns. -/
theorem scatter_mul_gather_congr
    (d : ScatterDims ⟨2, ![R, C]⟩ ⟨2, ![N, 1]⟩ ⟨2, ![N, C]⟩) (g : GatherDims ⟨2, ![R, C]⟩ ⟨2, ![N, 1]⟩ ⟨2, ![N, C]⟩)
    (d' : ScatterDims ⟨2, ![R, C']⟩ ⟨2, ![N, 1]⟩ ⟨2, ![N, C']⟩) (g' : GatherDims ⟨2, ![R, C']⟩ ⟨2, ![N, 1]⟩ ⟨2, ![N, C']⟩)
    (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C])
    (h1' : d'.updateWindowDims = [1]) (h2' : d'.insertedWindowDims = [0])
    (h3' : d'.scatterDimsToOperandDims = [0]) (h4' : d'.indexVectorDim = 1)
    (k1' : g'.offsetDims = [1]) (k2' : g'.collapsedSliceDims = [0]) (k3' : g'.operandBatchingDims = [])
    (k4' : g'.startIndicesBatchingDims = []) (k5' : g'.startIndexMap = [0]) (k6' : g'.indexVectorDim = 1)
    (k7' : g'.sliceSizes = ![1, C']) (hR : 0 < R) {w w' : Nat}
    (z x : FVec Ideal ⟨2, ![R, C]⟩ .f32) (wt : FVec Ideal ⟨2, ![N, C]⟩ .f32)
    (z' x' : FVec Ideal ⟨2, ![R, C']⟩ .f32) (wt' : FVec Ideal ⟨2, ![N, C']⟩ .f32)
    (idxD : IVec ⟨2, ![N, 1]⟩ w) (idxS : IVec ⟨2, ![N, 1]⟩ w') (r : Fin R) (c : Fin C) (c' : Fin C')
    (hz : z (ix2 r c) = z' (ix2 r c')) (hw : ∀ n : Fin N, wt (ix2 n c) = wt' (ix2 n c'))
    (hx : ∀ ρ : Fin R, x (ix2 ρ c) = x' (ix2 ρ c')) :
    Host.scatterAdd (F := Ideal) d z idxD (mulf wt (Host.gather g x idxS)) (ix2 r c)
      = Host.scatterAdd (F := Ideal) d' z' idxD (mulf wt' (Host.gather g' x' idxS)) (ix2 r c') := by
  rw [scatter_mul_gather d g h1 h2 h3 h4 k1 k2 k3 k4 k5 k6 k7 hR,
    scatter_mul_gather d' g' h1' h2' h3' h4' k1' k2' k3' k4' k5' k6' k7' hR, hz]
  refine congrArg (z' (ix2 r c') + ·) (Finset.sum_congr rfl fun n _ => ?_)
  rw [hw n, hx]

/-- The same under a negation: the scaled Laplacian's sign. -/
theorem neg_scatter_mul_gather_congr
    (d : ScatterDims ⟨2, ![R, C]⟩ ⟨2, ![N, 1]⟩ ⟨2, ![N, C]⟩) (g : GatherDims ⟨2, ![R, C]⟩ ⟨2, ![N, 1]⟩ ⟨2, ![N, C]⟩)
    (d' : ScatterDims ⟨2, ![R, C']⟩ ⟨2, ![N, 1]⟩ ⟨2, ![N, C']⟩) (g' : GatherDims ⟨2, ![R, C']⟩ ⟨2, ![N, 1]⟩ ⟨2, ![N, C']⟩)
    (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C])
    (h1' : d'.updateWindowDims = [1]) (h2' : d'.insertedWindowDims = [0])
    (h3' : d'.scatterDimsToOperandDims = [0]) (h4' : d'.indexVectorDim = 1)
    (k1' : g'.offsetDims = [1]) (k2' : g'.collapsedSliceDims = [0]) (k3' : g'.operandBatchingDims = [])
    (k4' : g'.startIndicesBatchingDims = []) (k5' : g'.startIndexMap = [0]) (k6' : g'.indexVectorDim = 1)
    (k7' : g'.sliceSizes = ![1, C']) (hR : 0 < R) {w w' : Nat}
    (z x : FVec Ideal ⟨2, ![R, C]⟩ .f32) (wt : FVec Ideal ⟨2, ![N, C]⟩ .f32)
    (z' x' : FVec Ideal ⟨2, ![R, C']⟩ .f32) (wt' : FVec Ideal ⟨2, ![N, C']⟩ .f32)
    (idxD : IVec ⟨2, ![N, 1]⟩ w) (idxS : IVec ⟨2, ![N, 1]⟩ w') (r : Fin R) (c : Fin C) (c' : Fin C')
    (hz : z (ix2 r c) = z' (ix2 r c')) (hw : ∀ n : Fin N, wt (ix2 n c) = wt' (ix2 n c'))
    (hx : ∀ ρ : Fin R, x (ix2 ρ c) = x' (ix2 ρ c')) :
    Host.negf (F := Ideal) (Host.scatterAdd (F := Ideal) d z idxD (mulf wt (Host.gather g x idxS))) (ix2 r c)
      = Host.negf (F := Ideal) (Host.scatterAdd (F := Ideal) d' z' idxD (mulf wt' (Host.gather g' x' idxS))) (ix2 r c') := by
  show -(Host.scatterAdd (F := Ideal) d z idxD (mulf wt (Host.gather g x idxS)) (ix2 r c))
    = -(Host.scatterAdd (F := Ideal) d' z' idxD (mulf wt' (Host.gather g' x' idxS)) (ix2 r c'))
  rw [scatter_mul_gather_congr d g d' g' h1 h2 h3 h4 k1 k2 k3 k4 k5 k6 k7 h1' h2' h3' h4' k1' k2' k3' k4' k5' k6' k7' hR
    z x wt z' x' wt' idxD idxS r c c' hz hw hx]

end Widths

end Cert.LibRowGatherScatter

end
-- ==== Proof.LibSegmentSum.lean ====
/-
  A segment sum read at one element, over any sizes.

  R segments; N index words, one per row; N values. The accumulating scatter that `jax.ops.segment_sum` of a vector
  lowers to adds value n to element `idx n` of the operand, the word read as a signed integer and NOT clamped: a row
  whose index is outside the operand is dropped. On the extended reals its result at r is the operand there plus the
  sum, over the rows n whose index is r, of value n; no order of accumulation is left in it. (The same for a table of
  rows, segment_sum of a matrix, is the row scatter of LibRowGatherScatter.)
-/
import Idealize.ShloMosaic.PureOps.Ideal
import Idealize.ShloMosaic.Lib.ValueIdx

noncomputable section

open scoped BigOperators

namespace Cert.LibSegmentSum

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Scatter

variable {R N : Nat} (d : ScatterDims ⟨1, ![R]⟩ ⟨2, ![N, 1]⟩ ⟨1, ![N]⟩)

/-- Where value n lands: at r exactly when row n's index word, read signed, is r. -/
theorem resultIdx?_seg (h1 : d.updateWindowDims = []) (h2 : d.insertedWindowDims = [0])
    (h3 : d.scatterDimsToOperandDims = [0]) (h4 : d.indexVectorDim = 1) {w : Nat}
    (idx : IVec ⟨2, ![N, 1]⟩ w) (n : Fin N) (r : Fin R) :
    d.resultIdx? (ix1 n) idx = some (ix1 r) ↔ (idx (ix2 n (0 : Fin 1))).toInt = (r.val : ℤ) := by
  obtain ⟨uw, iw, sd, iv, wf⟩ := d
  simp only at h1 h2 h3 h4
  subst h1 h2 h3 h4
  have hs0 : ScatterDims.start ⟨[], [0], [0], 1, wf⟩ (ix1 n) idx 0 = (idx (ix2 n (0 : Fin 1))).toInt := by
    unfold ScatterDims.start
    rw [dif_pos (List.mem_singleton.mpr rfl)]
    congr 2
    funext b
    refine Fin.ext ?_
    match b with
    | ⟨0, _⟩ => rfl
    | ⟨1, _⟩ => rfl
  have hw0 : ScatterDims.window ⟨[], [0], [0], 1, wf⟩ (ix1 n) 0 = 0 := by
    unfold ScatterDims.window
    rw [dif_neg (show (0 : Fin 1) ∉ (⟨1, ![R]⟩ : Shape).kept [0] from
      fun h => (of_decide_eq_true (List.mem_filter.1 h).2) (List.mem_singleton.mpr rfl))]
  unfold ScatterDims.resultIdx?
  simp only [Fin.forall_fin_one, hs0, hw0]
  have hc0 : (ix1 r (0 : Fin 1)) = r := rfl
  have hz0 : ((![R] : Fin 1 → ℕ) 0) = R := rfl
  have hr := r.isLt
  by_cases hcond : (0 ≤ (idx (ix2 n (0 : Fin 1))).toInt + ((0 : ℕ) : ℤ) ∧ (idx (ix2 n (0 : Fin 1))).toInt + ((0 : ℕ) : ℤ) < (((![R] : Fin 1 → ℕ) 0 : ℕ) : ℤ))
  · rw [dif_pos hcond]
    simp only [Option.some.injEq, funext_iff, Fin.forall_fin_one, Fin.ext_iff, hs0, hw0, hc0]
    rw [hz0] at hcond
    constructor
    · intro h0; omega
    · intro h0; omega
  · rw [dif_neg hcond]
    rw [hz0] at hcond
    constructor
    · intro h; exact absurd h (by simp)
    · intro h0; exact absurd ⟨by omega, by omega⟩ hcond

/-- THE SEGMENT SUM READ AT r: the operand there plus the values of the rows whose index is r. -/
theorem scatterAdd_seg (h1 : d.updateWindowDims = []) (h2 : d.insertedWindowDims = [0])
    (h3 : d.scatterDimsToOperandDims = [0]) (h4 : d.indexVectorDim = 1) {w : Nat}
    (x : FVec Ideal ⟨1, ![R]⟩ .f32) (idx : IVec ⟨2, ![N, 1]⟩ w)
    (upd : FVec Ideal ⟨1, ![N]⟩ .f32) (r : Fin R) :
    Host.scatterAdd (F := Ideal) d x idx upd (ix1 r)
      = x (ix1 r) + ∑ n : Fin N, (if (idx (ix2 n (0 : Fin 1))).toInt = (r.val : ℤ) then upd (ix1 n) else 0) := by
  simp only [Host.scatterAdd, Ideal.hostScatterAdd_def, Ideal.hostScatterAdd]
  refine congrArg (x (ix1 r) + ·) ?_
  rw [Finset.sum_filter, sum_idx1]
  refine Finset.sum_congr rfl fun n _ => ?_
  simp only [resultIdx?_seg d h1 h2 h3 h4]

end Scatter

end Cert.LibSegmentSum

end
-- ==== Proof.LibSelfLoops.lean ====
/-
  Self-loops appended to a list of edges, read against the list without them; and a vector gathered by index words.

  A graph on R nodes is given as n edges, each a pair of index words (a source and a destination) and a weight. One
  way to give every node a loop onto itself is to lengthen the three lists by R entries, entry n + j being the loop of
  node j: its two index words are the word of j and its weight is one. Whatever is then summed over the edges sent
  to a node r is the sum over the first n entries sent to r plus the one loop of r — a sum over n + R terms cut after
  the n-th, and among the last R terms only the r-th survives. Nothing but the commutative monoid is used.

  The rest is how such lists read at one entry, over any sizes: the two-piece concatenation along the one axis of a
  vector (left piece below the cut, right piece above it), the counting vector 0, 1, 2, …, the words of small numbers
  (a number below 2^31 read signed is itself, is not negative, so the index normalisation "add R when negative"
  leaves it alone, and clamped into [0, R − 1] it is still itself when below R), a vector laid as a column of words,
  and a vector gathered by a column of index words (the rank-one gather: element n of the result is the operand at
  the clamped word n).
-/
import Idealize.ShloMosaic.PureOps.Ideal
import Idealize.ShloMosaic.Lib.ValueIdx
import Idealize.ShloMosaic.Lib.Pipeline.Value
import proofs.«144141_j47605417509015_2_alg».proof.Proof.LibRowGatherScatter

noncomputable section

open scoped BigOperators

namespace Cert.LibSelfLoops

open Idealize.ShloMosaic Idealize.ShloMosaic.ValueIdx Cert.LibRowGatherScatter

/-! ## Sums -/

/-- A sum over a + b terms is the sum over the first a plus the sum over the last b. -/
theorem sum_append {M : Type*} [AddCommMonoid M] {a b t : Nat} (h : a + b = t) (f : Fin t → M) :
    ∑ i, f i = ∑ i : Fin a, f ⟨i.val, by have := i.isLt; omega⟩ + ∑ j : Fin b, f ⟨a + j.val, by have := j.isLt; omega⟩ := by
  subst h
  rw [Fin.sum_univ_add]
  rfl

/-- Of the loops, one per node, only node r's is sent to r. -/
theorem sum_loops {M : Type*} [AddCommMonoid M] {R : Nat} (r : Fin R) (g : Fin R → M) :
    ∑ j : Fin R, (if (j.val : ℤ) = (r.val : ℤ) then g j else 0) = g r := by
  rw [Finset.sum_eq_single r]
  · rw [if_pos rfl]
  · intro j _ hj
    rw [if_neg]
    intro h
    exact hj (Fin.ext (by exact_mod_cast h))
  · intro h
    exact absurd (Finset.mem_univ r) h

/-- THE EDGES WITH THE LOOPS APPENDED, SUMMED AT r: when the first n of the n + R entries are the edges (same
    destination, same term) and entry n + j is node j's loop (destination j, term g j), the terms sent to r sum to
    the edges' terms sent to r plus g r. -/
theorem sum_edges_loops {M : Type*} [AddCommMonoid M] {n R t : Nat} (h : n + R = t) (r : Fin R)
    (dst' : Fin t → ℤ) (f' : Fin t → M) (dst : Fin n → ℤ) (f : Fin n → M) (g : Fin R → M)
    (hd : ∀ e : Fin n, dst' ⟨e.val, by have := e.isLt; omega⟩ = dst e)
    (hf : ∀ e : Fin n, f' ⟨e.val, by have := e.isLt; omega⟩ = f e)
    (hdl : ∀ j : Fin R, dst' ⟨n + j.val, by have := j.isLt; omega⟩ = (j.val : ℤ))
    (hfl : ∀ j : Fin R, f' ⟨n + j.val, by have := j.isLt; omega⟩ = g j) :
    ∑ e : Fin t, (if dst' e = (r.val : ℤ) then f' e else 0)
      = ∑ e : Fin n, (if dst e = (r.val : ℤ) then f e else 0) + g r := by
  rw [sum_append h]
  refine congrArg₂ (· + ·) (Finset.sum_congr rfl fun e _ => ?_) ?_
  · rw [hd e, hf e]
  · rw [← sum_loops r g]
    refine Finset.sum_congr rfl fun j _ => ?_
    rw [hdl j, hfl j]

/-! ## The words of small numbers -/

/-- A number below 2^31, as a 32-bit word read signed, is itself. -/
theorem toInt_word {j : Nat} (h : j < 2 ^ 31) : (BitVec.ofNat 32 j).toInt = (j : ℤ) := by
  rw [BitVec.toInt_eq_toNat_cond, BitVec.toNat_ofNat, Nat.mod_eq_of_lt (by omega)]
  rw [if_pos (by omega)]

/-- The index normalisation — add k when the word is negative — leaves a word that is not negative alone. -/
theorem wrap_nonneg (b k : BitVec 32) (h : 0 ≤ b.toInt) :
    Scalar.select (IntOp.cmpi .slt b 0#32) (IntOp.addi b k) b = b := by
  have hs : b.slt 0#32 = false := by
    rw [BitVec.slt]
    simp only [BitVec.toInt_zero, decide_eq_false_iff_not, not_lt]
    exact h
  simp only [Scalar.select, IntOp.cmpi, hs, BitVec.ofBool_false]
  rw [if_neg (by decide)]

/-- So it leaves the word of a number below 2^31 alone. -/
theorem wrap_word {j : Nat} (h : j < 2 ^ 31) (k : BitVec 32) :
    Scalar.select (IntOp.cmpi .slt (BitVec.ofNat 32 j) 0#32) (IntOp.addi (BitVec.ofNat 32 j) k) (BitVec.ofNat 32 j)
      = BitVec.ofNat 32 j :=
  wrap_nonneg _ k (by rw [toInt_word h]; exact Int.natCast_nonneg j)

/-- The index normalisation of a word: k added when the word, read signed, is negative. -/
def wrapWord (k b : BitVec 32) : BitVec 32 := Scalar.select (IntOp.cmpi .slt b 0#32) (IntOp.addi b k) b

/-- It leaves the word of a number below 2^31 alone. -/
theorem wrapWord_word {j : Nat} (h : j < 2 ^ 31) (k : BitVec 32) : wrapWord k (BitVec.ofNat 32 j) = BitVec.ofNat 32 j :=
  wrap_word h k

/-- The normalisation spelt on a whole array of words — compare with a splat zero, add a splat k, select — read at
    one entry: the normalised word of the entry. -/
theorem wrap_apply {s : Shape} (k : BitVec 32) (h0 hk : (⟨0, ![]⟩ : Shape).BroadcastsInDim s ![]) (v : IVec s 32)
    (i : s.Idx) :
    select (cmpi .slt v (broadcastInDim s ![] h0 (constantI ⟨0, ![]⟩ 32 0#32)))
      (addi v (broadcastInDim s ![] hk (constantI ⟨0, ![]⟩ 32 k))) v i = wrapWord k (v i) := by
  show Scalar.select (IntOp.cmpi .slt (v i) (broadcastInDim s ![] h0 (constantI ⟨0, ![]⟩ 32 0#32) i))
      (IntOp.addi (v i) (broadcastInDim s ![] hk (constantI ⟨0, ![]⟩ 32 k) i)) (v i) = _
  have e0 : broadcastInDim s ![] h0 (constantI ⟨0, ![]⟩ 32 0#32) i = 0#32 :=
    broadcastInDim_apply _ h0 _ i (fun a => a.elim0) (fun a => a.elim0)
  have ek : broadcastInDim s ![] hk (constantI ⟨0, ![]⟩ 32 k) i = k :=
    broadcastInDim_apply _ hk _ i (fun a => a.elim0) (fun a => a.elim0)
  rw [e0, ek]
  rfl

/-- The word of node j, clamped into the R rows, is row j. -/
theorem clampRow_word {R : Nat} (hR : 0 < R) (hR31 : R ≤ 2 ^ 31) (j : Fin R) :
    clampRow R hR (BitVec.ofNat 32 j.val) = j := by
  refine Fin.ext ?_
  show min (BitVec.ofNat 32 j.val).toInt.toNat (R - 1) = j.val
  rw [toInt_word (by have := j.isLt; omega)]
  have := j.isLt
  rw [Int.toNat_natCast]
  omega

/-! ## Vectors read at an entry -/

/-- The counting vector at entry j is the word of j. -/
theorem iota_apply {N : Nat} (j : Fin N) : iotaInDim ⟨1, ![N]⟩ 32 0 (ix1 j) = BitVec.ofNat 32 j.val := rfl

/-- A vector of N entries laid as a column [N, 1], read at (n, 0): entry n. -/
theorem column_apply {α : Type} {N : Nat} (hN : N ≠ 1) (v : (⟨1, ![N]⟩ : Shape).Idx → α)
    (h : (⟨1, ![N]⟩ : Shape).BroadcastsInDim ⟨2, ![N, 1]⟩ ![0]) (n : Fin N) :
    broadcastInDim ⟨2, ![N, 1]⟩ ![0] h v (ix2 n (0 : Fin 1)) = v (ix1 n) := by
  refine broadcastInDim_apply _ h v (ix2 n (0 : Fin 1)) (ix1 n) ?_
  intro a
  match a with
  | ⟨0, _⟩ => show n.val = if N = 1 then 0 else n.val; rw [if_neg hN]

/-- A join of a vector of a entries and one of b entries, read below the cut: the first vector there. -/
theorem join_left {α : Type} {a b t : Nat} (h : Shape.Concatenates [⟨1, ![a]⟩, ⟨1, ![b]⟩] ⟨1, ![t]⟩ 0)
    (u : (⟨1, ![a]⟩ : Shape).Idx → α) (v : (⟨1, ![b]⟩ : Shape).Idx → α) (i : Fin a) (hi : i.val < t) :
    concatenate ⟨1, ![t]⟩ 0 [⟨⟨1, ![a]⟩, u⟩, ⟨⟨1, ![b]⟩, v⟩] h (ix1 ⟨i.val, hi⟩) = u (ix1 i) := by
  refine concatenate_pair_apply_left 0 u v h (ix1 ⟨i.val, hi⟩) rfl (ix1 i) ?_
  intro c
  match c with
  | ⟨0, _⟩ => rfl

/-- The same join read above the cut, at a + j: the second vector at j. -/
theorem join_right {α : Type} {a b t : Nat} (h : Shape.Concatenates [⟨1, ![a]⟩, ⟨1, ![b]⟩] ⟨1, ![t]⟩ 0)
    (u : (⟨1, ![a]⟩ : Shape).Idx → α) (v : (⟨1, ![b]⟩ : Shape).Idx → α) (j : Fin b) (hj : a + j.val < t) :
    concatenate ⟨1, ![t]⟩ 0 [⟨⟨1, ![a]⟩, u⟩, ⟨⟨1, ![b]⟩, v⟩] h (ix1 ⟨a + j.val, hj⟩) = v (ix1 j) := by
  refine concatenate_pair_apply_right 0 u v h (ix1 ⟨a + j.val, hj⟩) rfl rfl (ix1 j) ?_ ?_
  · intro c hc
    match c with
    | ⟨0, _⟩ => exact absurd rfl hc
  · show j.val + a = a + j.val
    omega

/-! ## A vector gathered by a column of index words -/

section Gather

variable {α : Type} {R N : Nat}

/-- The dimension numbers of the gather of a vector [R] by start indices [N, 1] into a vector [N]. -/
abbrev vecGatherDims (R N : Nat)
    (wf : GatherDims.WF ⟨1, ![R]⟩ ⟨2, ![N, 1]⟩ ⟨1, ![N]⟩ [] [0] [] [0] [] 1 ![1]) :
    GatherDims ⟨1, ![R]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

theorem gather_vecDims_apply (hR : 0 < R)
    (wf : GatherDims.WF ⟨1, ![R]⟩ ⟨2, ![N, 1]⟩ ⟨1, ![N]⟩ [] [0] [] [0] [] 1 ![1]) {w : Nat}
    (x : (⟨1, ![R]⟩ : Shape).Idx → α) (idx : IVec ⟨2, ![N, 1]⟩ w) (n : Fin N) :
    Host.gather (vecGatherDims R N wf) x idx (ix1 n) = x (ix1 (clampRow R hR (idx (ix2 n (0 : Fin 1))))) := by
  unfold Host.gather
  congr 1
  funext a
  refine Fin.ext ?_
  have e0 : ((vecGatherDims R N wf).operandIdx (ix1 n) idx 0).val = min (idx (ix2 n (0 : Fin 1))).toInt.toNat (R - 1) := by
    show (vecGatherDims R N wf).start (ix1 n) idx 0 + (vecGatherDims R N wf).batchCoord (ix1 n) 0
      + (vecGatherDims R N wf).offCoord (ix1 n) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims R N wf).startIndexMap from List.mem_singleton.mpr rfl)]
    have hsi : (vecGatherDims R N wf).siIdx (ix1 n) ⟨List.idxOf (0 : Fin 1) (vecGatherDims R N wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  match a with
  | ⟨0, _⟩ => exact e0

/-- THE VECTOR GATHER READ AT n: the operand at the clamped word n. -/
theorem gather_vec (g : GatherDims ⟨1, ![R]⟩ ⟨2, ![N, 1]⟩ ⟨1, ![N]⟩)
    (h1 : g.offsetDims = []) (h2 : g.collapsedSliceDims = [0]) (h3 : g.operandBatchingDims = [])
    (h4 : g.startIndicesBatchingDims = []) (h5 : g.startIndexMap = [0]) (h6 : g.indexVectorDim = 1)
    (h7 : g.sliceSizes = ![1]) (hR : 0 < R) {w : Nat}
    (x : (⟨1, ![R]⟩ : Shape).Idx → α) (idx : IVec ⟨2, ![N, 1]⟩ w) (n : Fin N) :
    Host.gather g x idx (ix1 n) = x (ix1 (clampRow R hR (idx (ix2 n (0 : Fin 1))))) := by
  obtain ⟨od, cd, ob, sb, sm, iv, ss, wf⟩ := g
  simp only at h1 h2 h3 h4 h5 h6 h7
  subst h1 h2 h3 h4 h5 h6 h7
  exact gather_vecDims_apply hR wf x idx n

end Gather

end Cert.LibSelfLoops

end
-- ==== Proof.LibGcnNorm.lean ====
/-
  The symmetric normalisation of a weighted edge list and the messages it sends, read at one entry, over any sizes.

  R nodes carry rows of C numbers, the table X; n edges are given as two vectors of index words, row (the
  destination) and col (the source), and a vector w of weights; D is a vector of R numbers, one per node (the
  inverse square roots of the degrees, but nothing here asks what it is). An index word is normalised before it
  picks a node to read (k is added when it is negative, k the number of nodes) and the normalised word is clamped
  into the table; the word that says where a message is ADDED is used as it stands, and a message whose word names
  no node is dropped. Edge e sends to node row e, in column c,

      X (col e, c) · ((D (row e) · w e) · D (col e)).

  Read at one entry: the table of messages at (e, c) is that product (`message_apply`); the degrees — the weights
  added up at their source words — at node r are the start value plus the weights of the edges whose col word is r
  (`degree_apply`); the messages added up at their destination words at (r, c) are the start value plus the
  messages of the edges whose row word is r (`aggregate_apply`). No order of accumulation is left in the sums.
-/
import Idealize.ShloMosaic.PureOps.Ideal
import Idealize.ShloMosaic.Lib.ValueIdx
import Idealize.ShloMosaic.Lib.Pipeline.Value
import proofs.«144141_j47605417509015_2_alg».proof.Proof.LibRowGatherScatter
import proofs.«144141_j47605417509015_2_alg».proof.Proof.LibSegmentSum
import proofs.«144141_j47605417509015_2_alg».proof.Proof.LibSelfLoops

noncomputable section

open scoped BigOperators

namespace Cert.LibGcnNorm

open Idealize.ShloMosaic Idealize.ShloMosaic.ValueIdx Cert.LibRowGatherScatter Cert.LibSegmentSum Cert.LibSelfLoops

variable {R n C : Nat}

/-- An array of index words normalised: k added to the negative ones. -/
def wrapVec {s : Shape} (k : BitVec 32) (h0 : (⟨0, ![]⟩ : Shape).BroadcastsInDim s ![]) (v : IVec s 32) : IVec s 32 :=
  select (cmpi .slt v (broadcastInDim s ![] h0 (constantI ⟨0, ![]⟩ 32 0#32)))
    (addi v (broadcastInDim s ![] h0 (constantI ⟨0, ![]⟩ 32 k))) v

/-- Entry by entry. -/
theorem wrapVec_apply {s : Shape} (k : BitVec 32) (h0 : (⟨0, ![]⟩ : Shape).BroadcastsInDim s ![]) (v : IVec s 32)
    (i : s.Idx) : wrapVec k h0 v i = wrapWord k (v i) :=
  wrap_apply k h0 h0 v i

/-- One number per node from its degree, as the programs spell it: the host's reciprocal square root where the degree
    is above zero, and zero elsewhere. -/
def invSqrtDeg {F : FTy → Type} [FloatOps F] (h0 : (⟨0, ![]⟩ : Shape).BroadcastsInDim ⟨1, ![R]⟩ ![])
    (deg : FVec F ⟨1, ![R]⟩ .f32) : FVec F ⟨1, ![R]⟩ .f32 :=
  select (cmpf .ogt deg (broadcastInDim ⟨1, ![R]⟩ ![] h0 (constant (F := F) ⟨0, ![]⟩ .f32 0x00000000#32)))
    (Host.rsqrt (F := F) deg)
    (broadcastInDim ⟨1, ![R]⟩ ![] h0 (id (constant (F := F) ⟨0, ![]⟩ .f32 0x00000000#32)))

/-- What an edge with index words rw (destination) and cw (source) and weight wt sends, in one column: the column's
    entry at the source node times the normalised weight (D at the destination · wt) · D at the source. -/
def edgeTerm (hR : 0 < R) (k : BitVec 32) (X D : Fin R → EReal) (rw cw : BitVec 32) (wt : EReal) : EReal :=
  X (clampRow R hR (wrapWord k cw)) * ((D (clampRow R hR (wrapWord k rw)) * wt) * D (clampRow R hR (wrapWord k cw)))

/-- The normalised weights of the edges: (D gathered at the destinations · w) · D gathered at the sources. -/
def normVec {F : FTy → Type} [FloatOps F] (gv : GatherDims ⟨1, ![R]⟩ ⟨2, ![n, 1]⟩ ⟨1, ![n]⟩)
    (hc : (⟨1, ![n]⟩ : Shape).BroadcastsInDim ⟨2, ![n, 1]⟩ ![0]) (h0 : (⟨0, ![]⟩ : Shape).BroadcastsInDim ⟨1, ![n]⟩ ![])
    (k : BitVec 32) (D : FVec F ⟨1, ![R]⟩ .f32) (row col : IVec ⟨1, ![n]⟩ 32) (w : FVec F ⟨1, ![n]⟩ .f32) :
    FVec F ⟨1, ![n]⟩ .f32 :=
  mulf (mulf (Host.gather gv D (broadcastInDim ⟨2, ![n, 1]⟩ ![0] hc (wrapVec k h0 row))) w)
    (Host.gather gv D (broadcastInDim ⟨2, ![n, 1]⟩ ![0] hc (wrapVec k h0 col)))

/-- The table of messages: the rows of X gathered at the sources, each times its edge's normalised weight. -/
def messages {F : FTy → Type} [FloatOps F] (gv : GatherDims ⟨1, ![R]⟩ ⟨2, ![n, 1]⟩ ⟨1, ![n]⟩)
    (gr : GatherDims ⟨2, ![R, C]⟩ ⟨2, ![n, 1]⟩ ⟨2, ![n, C]⟩)
    (hc : (⟨1, ![n]⟩ : Shape).BroadcastsInDim ⟨2, ![n, 1]⟩ ![0])
    (hw : (⟨2, ![n, 1]⟩ : Shape).BroadcastsInDim ⟨2, ![n, C]⟩ ![0, 1])
    (h0 : (⟨0, ![]⟩ : Shape).BroadcastsInDim ⟨1, ![n]⟩ ![])
    (k : BitVec 32) (X : FVec F ⟨2, ![R, C]⟩ .f32) (D : FVec F ⟨1, ![R]⟩ .f32)
    (row col : IVec ⟨1, ![n]⟩ 32) (w : FVec F ⟨1, ![n]⟩ .f32) : FVec F ⟨2, ![n, C]⟩ .f32 :=
  mulf (Host.gather gr X (broadcastInDim ⟨2, ![n, 1]⟩ ![0] hc (wrapVec k h0 col)))
    (broadcastInDim ⟨2, ![n, C]⟩ ![0, 1] hw (broadcastInDim ⟨2, ![n, 1]⟩ ![0] hc (normVec gv hc h0 k D row col w)))

/-- THE MESSAGE OF EDGE e IN COLUMN c. -/
theorem message_apply (hR : 0 < R) (hn : n ≠ 1)
    (gv : GatherDims ⟨1, ![R]⟩ ⟨2, ![n, 1]⟩ ⟨1, ![n]⟩) (gr : GatherDims ⟨2, ![R, C]⟩ ⟨2, ![n, 1]⟩ ⟨2, ![n, C]⟩)
    (v1 : gv.offsetDims = []) (v2 : gv.collapsedSliceDims = [0]) (v3 : gv.operandBatchingDims = [])
    (v4 : gv.startIndicesBatchingDims = []) (v5 : gv.startIndexMap = [0]) (v6 : gv.indexVectorDim = 1)
    (v7 : gv.sliceSizes = ![1])
    (r1 : gr.offsetDims = [1]) (r2 : gr.collapsedSliceDims = [0]) (r3 : gr.operandBatchingDims = [])
    (r4 : gr.startIndicesBatchingDims = []) (r5 : gr.startIndexMap = [0]) (r6 : gr.indexVectorDim = 1)
    (r7 : gr.sliceSizes = ![1, C])
    (hc : (⟨1, ![n]⟩ : Shape).BroadcastsInDim ⟨2, ![n, 1]⟩ ![0])
    (hw : (⟨2, ![n, 1]⟩ : Shape).BroadcastsInDim ⟨2, ![n, C]⟩ ![0, 1])
    (h0 : (⟨0, ![]⟩ : Shape).BroadcastsInDim ⟨1, ![n]⟩ ![])
    (k : BitVec 32) (X : FVec Ideal ⟨2, ![R, C]⟩ .f32) (D : FVec Ideal ⟨1, ![R]⟩ .f32)
    (row col : IVec ⟨1, ![n]⟩ 32) (w : FVec Ideal ⟨1, ![n]⟩ .f32) (e : Fin n) (c : Fin C) :
    messages (F := Ideal) gv gr hc hw h0 k X D row col w (ix2 e c)
      = edgeTerm hR k (fun ρ => X (ix2 ρ c)) (fun ρ => D (ix1 ρ)) (row (ix1 e)) (col (ix1 e)) (w (ix1 e)) := by
  unfold messages normVec edgeTerm
  rw [mulf_apply, gather_rows gr r1 r2 r3 r4 r5 r6 r7 hR, bcast_col_apply hn _ hc hw, mulf_apply, mulf_apply,
    gather_vec gv v1 v2 v3 v4 v5 v6 v7 hR, gather_vec gv v1 v2 v3 v4 v5 v6 v7 hR]
  simp only [column_apply hn, wrapVec_apply]

/-- THE DEGREE OF NODE r: the start value plus the weights of the edges whose source word is r. -/
theorem degree_apply (hn : n ≠ 1) (sd : ScatterDims ⟨1, ![R]⟩ ⟨2, ![n, 1]⟩ ⟨1, ![n]⟩)
    (s1 : sd.updateWindowDims = []) (s2 : sd.insertedWindowDims = [0])
    (s3 : sd.scatterDimsToOperandDims = [0]) (s4 : sd.indexVectorDim = 1)
    (hc : (⟨1, ![n]⟩ : Shape).BroadcastsInDim ⟨2, ![n, 1]⟩ ![0])
    (Z : FVec Ideal ⟨1, ![R]⟩ .f32) (col : IVec ⟨1, ![n]⟩ 32) (w : FVec Ideal ⟨1, ![n]⟩ .f32) (r : Fin R) :
    Host.scatterAdd (F := Ideal) sd Z (broadcastInDim ⟨2, ![n, 1]⟩ ![0] hc col) w (ix1 r)
      = Z (ix1 r) + ∑ e : Fin n, (if (col (ix1 e)).toInt = (r.val : ℤ) then w (ix1 e) else 0) := by
  rw [scatterAdd_seg sd s1 s2 s3 s4]
  simp only [column_apply hn]

/-- THE MESSAGES ADDED UP AT NODE r, COLUMN c: the start value plus the messages of the edges whose destination
    word is r. -/
theorem aggregate_apply (hn : n ≠ 1) (sd : ScatterDims ⟨2, ![R, C]⟩ ⟨2, ![n, 1]⟩ ⟨2, ![n, C]⟩)
    (s1 : sd.updateWindowDims = [1]) (s2 : sd.insertedWindowDims = [0])
    (s3 : sd.scatterDimsToOperandDims = [0]) (s4 : sd.indexVectorDim = 1)
    (hc : (⟨1, ![n]⟩ : Shape).BroadcastsInDim ⟨2, ![n, 1]⟩ ![0])
    (Z : FVec Ideal ⟨2, ![R, C]⟩ .f32) (row : IVec ⟨1, ![n]⟩ 32) (msg : FVec Ideal ⟨2, ![n, C]⟩ .f32)
    (r : Fin R) (c : Fin C) :
    Host.scatterAdd (F := Ideal) sd Z (broadcastInDim ⟨2, ![n, 1]⟩ ![0] hc row) msg (ix2 r c)
      = Z (ix2 r c) + ∑ e : Fin n, (if (row (ix1 e)).toInt = (r.val : ℤ) then msg (ix2 e c) else 0) := by
  rw [scatterAdd_rows sd s1 s2 s3 s4]
  simp only [column_apply hn]

end Cert.LibGcnNorm

end
-- ==== Proof.LibRealEntries.lean ====
/-
  Entries that are real numbers, on the extended reals.

  An extended real is REAL when it is neither +∞ nor −∞. Sums, products and maxima of real entries are real, a finite
  sum of real entries is real, and so is the greatest entry of a nonempty finite row of real entries (the fold of `max`
  from −∞). The one law of subtraction used with it: taking away `m + L` is taking away `m` and then `L`, as soon as `m`
  is real, whatever `L` and the minuend are — at an infinite `m` the two sides differ.
-/
import Idealize.ShloMosaic.PureOps.Ideal
import Mathlib.Data.Finset.Fold

noncomputable section

open scoped BigOperators

namespace Cert.LibRealEntries

/-- An extended real that is a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem isReal_of_ne {x : EReal} (h1 : x ≠ ⊥) (h2 : x ≠ ⊤) : IsReal x := by
  induction x using EReal.rec with
  | bot => exact absurd rfl h1
  | coe r => exact ⟨r, rfl⟩
  | top => exact absurd rfl h2

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.ite {p : Prop} [Decidable p] {x y : EReal} (hx : IsReal x) (hy : IsReal y) : IsReal (if p then x else y) := by
  split <;> assumption

/-- A finite sum of real entries is real. -/
theorem isReal_sum {ι : Type} (s : Finset ι) (f : ι → EReal) (h : ∀ i ∈ s, IsReal (f i)) : IsReal (∑ i ∈ s, f i) :=
  Finset.sum_induction f IsReal (fun _ _ ha hb => ha.add hb) isReal_zero h

/-- The greatest entry of a nonempty finite row of real entries, folded from −∞, is real. -/
theorem isReal_fold_max {ι : Type} (s : Finset ι) (f : ι → EReal) (hne : s.Nonempty) (h : ∀ i ∈ s, IsReal (f i)) :
    IsReal (s.fold max (⊥ : EReal) f) := by
  refine isReal_of_ne ?_ ?_
  · obtain ⟨i, hi⟩ := hne
    intro hb
    have hle : f i ≤ s.fold max (⊥ : EReal) f := (Finset.le_fold_max _).mpr (Or.inr ⟨i, hi, le_rfl⟩)
    rw [hb] at hle
    exact (h i hi).ne_bot (le_bot_iff.mp hle)
  · have hlt : s.fold max (⊥ : EReal) f < ⊤ :=
      (Finset.fold_max_lt _).mpr ⟨bot_lt_top, fun i hi => lt_top_iff_ne_top.mpr (h i hi).ne_top⟩
    exact hlt.ne

/-- Taking away `m + L` is taking away `m`, then `L`, when `m` is real. -/
theorem sub_add_of_isReal {m : EReal} (hm : IsReal m) (x L : EReal) : x - (m + L) = x - m - L := by
  obtain ⟨r, rfl⟩ := hm
  rw [sub_eq_add_neg, EReal.neg_add (Or.inl (EReal.coe_ne_bot r)) (Or.inl (EReal.coe_ne_top r)),
    sub_eq_add_neg (-(r : EReal)) L, ← add_assoc, ← sub_eq_add_neg, ← sub_eq_add_neg]

end Cert.LibRealEntries

end
-- ==== Proof.LibWeightedConv.lean ====
/-
  A weighted graph convolution with symmetric normalisation and a loop at every node, on the extended reals, over
  any sizes.

  R nodes; n edges, each a source word, a destination word and a weight. An index word picks the node to READ after
  normalisation (k added when negative) and clamping into the table (`nodeOf`); the word that says where a term is
  ADDED is used as it stands (`sumTo`: the terms of the edges whose destination word, read signed, is the node).

  * The degree of a node with its loop counted: the weights sent to it plus one (`degree`).
  * The normalised weight of an edge: (D at its source · its weight) · D at its destination (`normOf`).
  * The messages added up at a node: Σ over the edges sent to it of normalised weight · H (source, column) (`msgSum`).

  THE LOOP LAW (`sumTo_loops`): when the list is lengthened by one entry per node — entry n + j with destination word
  j and term g j — the sum sent to r over the long list is the sum over the first n entries plus g r. Only the
  commutative monoid is used.

  THE GUARD LAW (`guard_eq`): at a degree that is a real number at least one, "the reciprocal square root of the
  larger of the degree and a small positive word where the degree is above zero, and zero elsewhere" is the plain
  reciprocal square root of the degree. This is where the weights have to be real and not negative: the weights of
  finite rows (`edgeWeight_real`) make every degree a real number ≥ 1 (`degree_real`).

  Then the host's spelling of these, read at one entry (`normVec_apply`, `weighted_apply`).
-/
import Idealize.ShloMosaic.PureOps.Ideal
import Idealize.ShloMosaic.PureOps.Ideal.Laws
import Idealize.ShloMosaic.Lib.ValueIdx
import Idealize.ShloMosaic.Lib.Pipeline.Value
import proofs.«144141_j47605417509015_2_alg».proof.Proof.LibRowGatherScatter
import proofs.«144141_j47605417509015_2_alg».proof.Proof.LibSegmentSum
import proofs.«144141_j47605417509015_2_alg».proof.Proof.LibSelfLoops
import proofs.«144141_j47605417509015_2_alg».proof.Proof.LibGcnNorm
import proofs.«144141_j47605417509015_2_alg».proof.Proof.LibRealEntries

noncomputable section

open scoped BigOperators

namespace Cert.WeightedConv

open Idealize.ShloMosaic Idealize.ShloMosaic.ValueIdx
open Cert.LibRowGatherScatter Cert.LibSegmentSum Cert.LibSelfLoops Cert.LibGcnNorm Cert.LibRealEntries

variable {R n C K : Nat}

/-! ## The functions -/

/-- The terms of the edges sent to node r, added up. -/
def sumTo (dst : Fin n → BitVec 32) (r : Fin R) (f : Fin n → EReal) : EReal :=
  ∑ e, if (dst e).toInt = (r.val : ℤ) then f e else 0

/-- The node an index word reads: the word normalised, then clamped into the R rows. -/
def nodeOf (hR : 0 < R) (k : BitVec 32) (b : BitVec 32) : Fin R := clampRow R hR (wrapWord k b)

/-- The degree of node r with its loop counted. -/
def degree (dst : Fin n → BitVec 32) (w : Fin n → EReal) (r : Fin R) : EReal := (0 + sumTo dst r w) + 1

/-- The normalised weight of edge e. -/
def normOf (hR : 0 < R) (k : BitVec 32) (D : Fin R → EReal) (src dst : Fin n → BitVec 32) (w : Fin n → EReal)
    (e : Fin n) : EReal :=
  (D (nodeOf hR k (src e)) * w e) * D (nodeOf hR k (dst e))

/-- The messages added up at node r in column c, from zero. -/
def msgSum (hR : 0 < R) (k : BitVec 32) (H : Fin R → Fin C → EReal) (D : Fin R → EReal) (src dst : Fin n → BitVec 32)
    (w : Fin n → EReal) (r : Fin R) (c : Fin C) : EReal :=
  0 + sumTo dst r (fun e => normOf hR k D src dst w e * H (nodeOf hR k (src e)) c)

/-- The Euclidean length of an edge's row of features. -/
def edgeWeight (ea : Fin n → Fin K → EReal) (e : Fin n) : EReal := Ideal.sqrt (∑ k, ea e k * ea e k)

/-! ## The loop law -/

/-- The word of node j picks node j. -/
theorem nodeOf_word (hR : 0 < R) (hR31 : R ≤ 2 ^ 31) (k : BitVec 32) (j : Fin R) :
    nodeOf hR k (BitVec.ofNat 32 j.val) = j := by
  unfold nodeOf
  rw [wrapWord_word (by have := j.isLt; omega) k]
  exact clampRow_word hR hR31 j

/-- THE LOOP LAW. -/
theorem sumTo_loops {t : Nat} (h : n + R = t) (hR31 : R ≤ 2 ^ 31) (r : Fin R)
    (dst' : Fin t → BitVec 32) (f' : Fin t → EReal) (dst : Fin n → BitVec 32) (f : Fin n → EReal) (g : Fin R → EReal)
    (hd : ∀ e : Fin n, dst' ⟨e.val, by have := e.isLt; omega⟩ = dst e)
    (hf : ∀ e : Fin n, f' ⟨e.val, by have := e.isLt; omega⟩ = f e)
    (hdl : ∀ j : Fin R, dst' ⟨n + j.val, by have := j.isLt; omega⟩ = BitVec.ofNat 32 j.val)
    (hfl : ∀ j : Fin R, f' ⟨n + j.val, by have := j.isLt; omega⟩ = g j) :
    (0 : EReal) + sumTo dst' r f' = (0 + sumTo dst r f) + g r := by
  unfold sumTo
  rw [sum_edges_loops h r (fun e => (dst' e).toInt) f' (fun e => (dst e).toInt) f g
    (fun e => by rw [hd e]) hf
    (fun j => by rw [hdl j]; exact toInt_word (by have := j.isLt; omega)) hfl]
  rw [add_assoc]

/-! ## Real entries and the guard law -/

/-- A finite sum of real numbers, as extended reals, is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is a real number and not negative. -/
def IsNonneg (x : EReal) : Prop := ∃ y : ℝ, 0 ≤ y ∧ x = (y : EReal)

/-- The weight of an edge whose features are real numbers is a real number that is not negative. -/
theorem edgeWeight_real (ea : Fin n → Fin K → EReal) (e : Fin n) (h : ∀ k, IsReal (ea e k)) :
    IsNonneg (edgeWeight ea e) := by
  choose y hy using h
  unfold edgeWeight
  have hs : (∑ k, ea e k * ea e k) = ((∑ k, y k * y k : ℝ) : EReal) := by
    rw [coe_sum]
    exact Finset.sum_congr rfl fun k _ => by rw [hy k, EReal.coe_mul]
  rw [hs, Ideal.sqrt_coe, if_neg (not_lt.mpr (Finset.sum_nonneg fun k _ => mul_self_nonneg (y k)))]
  exact ⟨_, Real.sqrt_nonneg _, rfl⟩

/-- With such weights every degree is a real number at least one. -/
theorem degree_real (dst : Fin n → BitVec 32) (w : Fin n → EReal) (r : Fin R) (h : ∀ e, IsNonneg (w e)) :
    ∃ x : ℝ, 1 ≤ x ∧ degree dst w r = (x : EReal) := by
  choose y hy0 hy using h
  refine ⟨(∑ e, if (dst e).toInt = (r.val : ℤ) then y e else 0) + 1, ?_, ?_⟩
  · have : 0 ≤ ∑ e, (if (dst e).toInt = (r.val : ℤ) then y e else 0) :=
      Finset.sum_nonneg fun e _ => by split_ifs; exact hy0 e; exact le_rfl
    linarith
  · unfold degree sumTo
    rw [zero_add, EReal.coe_add, EReal.coe_one, coe_sum]
    refine congrArg (· + 1) (Finset.sum_congr rfl fun e _ => ?_)
    split_ifs
    · exact hy e
    · exact EReal.coe_zero.symm

/-- The word 0x2B8CBCCC (about 1e-12) is a real number at most one. -/
theorem tiny_le_one : ∃ y : ℝ, y ≤ 1 ∧ Ideal.ofBits .f32 0x2B8CBCCC#32 = (y : EReal) := by
  refine ⟨(9223372 : ℝ) * (2 : ℝ) ^ (-63 : Int), ?_, ?_⟩
  · have : (2 : ℝ) ^ (-63 : Int) = 1 / 9223372036854775808 := by norm_num [zpow_neg]
    rw [this]; norm_num
  · simp [Ideal.ofBits, Ideal.ieee]

/-- THE GUARD LAW. -/
theorem guard_eq (d : EReal) (x : ℝ) (hx : 1 ≤ x) (hd : d = (x : EReal)) :
    Scalar.select (Ideal.cmp .ogt d (Ideal.ofBits .f32 0x00000000#32))
      (Ideal.rsqrt (max d (Ideal.ofBits .f32 0x2B8CBCCC#32))) (Ideal.ofBits .f32 0x00000000#32) = Ideal.rsqrt d := by
  obtain ⟨y, hy1, hy⟩ := tiny_le_one
  have hpos : (0 : EReal) < d := by rw [hd]; exact_mod_cast (by linarith : (0 : ℝ) < x)
  have hmax : max d (Ideal.ofBits .f32 0x2B8CBCCC#32) = d := by
    rw [hy, hd]; exact max_eq_left (by exact_mod_cast (by linarith : y ≤ x))
  rw [hmax, Ideal.ofBits_zero_f32]
  unfold Scalar.select Ideal.cmp
  simp only [hpos, decide_true, BitVec.ofBool_true]
  rfl

/-! ## The host's spelling, read at one entry -/

/-- THE NORMALISED WEIGHT OF EDGE e, as the host spells it: (D gathered at the sources · w) · D gathered at the
    destinations. -/
theorem normVec_apply (hR : 0 < R) (hn : n ≠ 1) (gv : GatherDims ⟨1, ![R]⟩ ⟨2, ![n, 1]⟩ ⟨1, ![n]⟩)
    (v1 : gv.offsetDims = []) (v2 : gv.collapsedSliceDims = [0]) (v3 : gv.operandBatchingDims = [])
    (v4 : gv.startIndicesBatchingDims = []) (v5 : gv.startIndexMap = [0]) (v6 : gv.indexVectorDim = 1)
    (v7 : gv.sliceSizes = ![1])
    (hc : (⟨1, ![n]⟩ : Shape).BroadcastsInDim ⟨2, ![n, 1]⟩ ![0]) (h0 : (⟨0, ![]⟩ : Shape).BroadcastsInDim ⟨1, ![n]⟩ ![])
    (k : BitVec 32) (D : FVec Ideal ⟨1, ![R]⟩ .f32) (src dst : IVec ⟨1, ![n]⟩ 32) (w : FVec Ideal ⟨1, ![n]⟩ .f32)
    (e : Fin n) :
    normVec (F := Ideal) gv hc h0 k D src dst w (ix1 e)
      = normOf hR k (fun ρ => D (ix1 ρ)) (fun a => src (ix1 a)) (fun a => dst (ix1 a)) (fun a => w (ix1 a)) e := by
  unfold normVec normOf nodeOf
  rw [mulf_apply, mulf_apply, gather_vec gv v1 v2 v3 v4 v5 v6 v7 hR, gather_vec gv v1 v2 v3 v4 v5 v6 v7 hR]
  simp only [column_apply hn, wrapVec_apply]

/-- The rows of X gathered at the sources, each times its edge's normalised weight, added up at the destination
    words from zero. -/
def weighted {F : FTy → Type} [FloatOps F] (gv : GatherDims ⟨1, ![R]⟩ ⟨2, ![n, 1]⟩ ⟨1, ![n]⟩)
    (gr : GatherDims ⟨2, ![R, C]⟩ ⟨2, ![n, 1]⟩ ⟨2, ![n, C]⟩) (sd : ScatterDims ⟨2, ![R, C]⟩ ⟨2, ![n, 1]⟩ ⟨2, ![n, C]⟩)
    (hc : (⟨1, ![n]⟩ : Shape).BroadcastsInDim ⟨2, ![n, 1]⟩ ![0])
    (hw : (⟨2, ![n, 1]⟩ : Shape).BroadcastsInDim ⟨2, ![n, C]⟩ ![0, 1])
    (h0 : (⟨0, ![]⟩ : Shape).BroadcastsInDim ⟨1, ![n]⟩ ![])
    (hz : (⟨0, ![]⟩ : Shape).BroadcastsInDim ⟨2, ![R, C]⟩ ![])
    (k : BitVec 32) (X : FVec F ⟨2, ![R, C]⟩ .f32) (D : FVec F ⟨1, ![R]⟩ .f32)
    (src dst : IVec ⟨1, ![n]⟩ 32) (w : FVec F ⟨1, ![n]⟩ .f32) : FVec F ⟨2, ![R, C]⟩ .f32 :=
  Host.scatterAdd (F := F) sd (broadcastInDim ⟨2, ![R, C]⟩ ![] hz (constant (F := F) ⟨0, ![]⟩ .f32 0x00000000#32))
    (broadcastInDim ⟨2, ![n, 1]⟩ ![0] hc dst)
    (mulf (broadcastInDim ⟨2, ![n, C]⟩ ![0, 1] hw (broadcastInDim ⟨2, ![n, 1]⟩ ![0] hc (normVec gv hc h0 k D src dst w)))
      (Host.gather gr X (broadcastInDim ⟨2, ![n, 1]⟩ ![0] hc (wrapVec k h0 src))))

/-- THE MESSAGES ADDED UP AT (r, c). -/
theorem weighted_apply (hR : 0 < R) (hn : n ≠ 1) (gv : GatherDims ⟨1, ![R]⟩ ⟨2, ![n, 1]⟩ ⟨1, ![n]⟩)
    (gr : GatherDims ⟨2, ![R, C]⟩ ⟨2, ![n, 1]⟩ ⟨2, ![n, C]⟩) (sd : ScatterDims ⟨2, ![R, C]⟩ ⟨2, ![n, 1]⟩ ⟨2, ![n, C]⟩)
    (v1 : gv.offsetDims = []) (v2 : gv.collapsedSliceDims = [0]) (v3 : gv.operandBatchingDims = [])
    (v4 : gv.startIndicesBatchingDims = []) (v5 : gv.startIndexMap = [0]) (v6 : gv.indexVectorDim = 1)
    (v7 : gv.sliceSizes = ![1])
    (r1 : gr.offsetDims = [1]) (r2 : gr.collapsedSliceDims = [0]) (r3 : gr.operandBatchingDims = [])
    (r4 : gr.startIndicesBatchingDims = []) (r5 : gr.startIndexMap = [0]) (r6 : gr.indexVectorDim = 1)
    (r7 : gr.sliceSizes = ![1, C])
    (s1 : sd.updateWindowDims = [1]) (s2 : sd.insertedWindowDims = [0])
    (s3 : sd.scatterDimsToOperandDims = [0]) (s4 : sd.indexVectorDim = 1)
    (hc : (⟨1, ![n]⟩ : Shape).BroadcastsInDim ⟨2, ![n, 1]⟩ ![0])
    (hw : (⟨2, ![n, 1]⟩ : Shape).BroadcastsInDim ⟨2, ![n, C]⟩ ![0, 1])
    (h0 : (⟨0, ![]⟩ : Shape).BroadcastsInDim ⟨1, ![n]⟩ ![])
    (hz : (⟨0, ![]⟩ : Shape).BroadcastsInDim ⟨2, ![R, C]⟩ ![])
    (k : BitVec 32) (X : FVec Ideal ⟨2, ![R, C]⟩ .f32) (D : FVec Ideal ⟨1, ![R]⟩ .f32)
    (src dst : IVec ⟨1, ![n]⟩ 32) (w : FVec Ideal ⟨1, ![n]⟩ .f32) (r : Fin R) (c : Fin C) :
    weighted (F := Ideal) gv gr sd hc hw h0 hz k X D src dst w (ix2 r c)
      = msgSum hR k (fun ρ γ => X (ix2 ρ γ)) (fun ρ => D (ix1 ρ)) (fun a => src (ix1 a)) (fun a => dst (ix1 a))
          (fun a => w (ix1 a)) r c := by
  unfold weighted msgSum sumTo
  rw [scatter_mul_gather sd gr s1 s2 s3 s4 r1 r2 r3 r4 r5 r6 r7 hR]
  have hz0 : broadcastInDim ⟨2, ![R, C]⟩ ![] hz (constant (F := Ideal) ⟨0, ![]⟩ .f32 0x00000000#32) (ix2 r c) = 0 := by
    rw [broadcastInDim_apply _ hz _ (ix2 r c) (fun a => a.elim0) (fun a => a.elim0)]
    exact Ideal.ofBits_zero_f32
  rw [hz0]
  refine congrArg (0 + ·) (Finset.sum_congr rfl fun e _ => ?_)
  rw [bcast_col_apply hn _ hc hw, normVec_apply hR hn gv v1 v2 v3 v4 v5 v6 v7 hc h0]
  simp only [column_apply hn, wrapVec_apply]
  rfl

end Cert.WeightedConv

end
-- ==== Proof.Model.lean ====
/-
  What both programs compute, as ONE function of the eleven argument arrays, on the extended reals.

  x: 100000 nodes of 128 features; 1600000 edges, each a row of 16 attributes and two index words (row 0 of the
  index table the sources, row 1 the destinations). Every node also has a loop onto itself of weight one whose
  attribute row is all ones.

  * h = (layer-normalised rows of x) · W.
  * The weight of an edge is the Euclidean length of its attribute row; the degree of a node is the weights sent to
    it plus one (its loop); D = 1 / √degree.
  * `convOut`: Σ over the edges sent to r of (D (source) · weight · D (destination)) · h (source, c), plus the
    loop's D (r) · D (r) · h (r, c), plus the bias.
  * `aggrOut`: Σ over the edges sent to r of the edge's features (`featRow` of its attributes), plus the loop's
    features (`featRow` of the all-ones row).
  * The result at (r, c) is the gated combination `gateRow` of these two rows of node r, the gate's weight table cut
    into its first 128 and its last 128 rows.
-/
import Idealize.ShloMosaic.PureOps.Ideal
import Idealize.ShloMosaic.Lib.ValueIdx
import proofs.«144141_j47605417509015_2_alg».proof.Proof.LibWeightedConv
import proofs.«144141_j47605417509015_2_alg».proof.Proof.LibLayerNorm
import proofs.«144141_j47605417509015_2_alg».proof.Proof.Spec

noncomputable section

open scoped BigOperators

namespace Cert.Gnn

open Idealize.ShloMosaic Idealize.ShloMosaic.ValueIdx Cert.RmsNorm Cert.LayerNorm Cert.WeightedConv

variable {R n C K : Nat}

/-- The convolution's result at node r, column c. -/
def convOut (hR : 0 < R) (k : BitVec 32) (H : Fin R → Fin C → EReal) (src dst : Fin n → BitVec 32) (w : Fin n → EReal)
    (b : Fin C → EReal) (r : Fin R) (c : Fin C) : EReal :=
  (msgSum hR k H (fun ρ => Ideal.rsqrt (degree dst w ρ)) src dst w r c
      + (Ideal.rsqrt (degree dst w r) * Ideal.rsqrt (degree dst w r)) * H r c)
    + b c

/-- The aggregated edge features at node r, column c. -/
def aggrOut (ef : Fin n → Fin C → EReal) (dst : Fin n → BitVec 32) (lf : Fin C → EReal) (r : Fin R) (c : Fin C) : EReal :=
  (0 + sumTo dst r (fun e => ef e c)) + lf c

/-- The words of the row length 128, of the small offset of the normalisation, and of the node count. -/
abbrev cN : BitVec 32 := 0x43000000#32
abbrev cE : BitVec 32 := 0x3727C5AC#32
abbrev kW : BitVec 32 := 100000#32

theorem hNodes : 0 < 100000 := by decide

/-- h at (r, q). -/
def hAt (x : (⟨2, ![100000, 128]⟩ : Shape).Idx → EReal) (W : (⟨2, ![128, 128]⟩ : Shape).Idx → EReal)
    (lg lb : (⟨1, ![128]⟩ : Shape).Idx → EReal) (r : Fin 100000) (q : Fin 128) : EReal :=
  rowMat (rowLN cN cE (row x r) (vec lg) (vec lb)) (mat W) q

/-- The source and destination words of edge e. -/
def srcWord (ei : (⟨2, ![2, 1600000]⟩ : Shape).Idx → BitVec 32) (e : Fin 1600000) : BitVec 32 := ei (ix2 (0 : Fin 2) e)
def dstWord (ei : (⟨2, ![2, 1600000]⟩ : Shape).Idx → BitVec 32) (e : Fin 1600000) : BitVec 32 := ei (ix2 (1 : Fin 2) e)

/-- THE MODEL: the result array of both programs. -/
def model (x : (⟨2, ![100000, 128]⟩ : Shape).Idx → EReal) (ea : (⟨2, ![1600000, 16]⟩ : Shape).Idx → EReal)
    (ei : (⟨2, ![2, 1600000]⟩ : Shape).Idx → BitVec 32) (Wg : (⟨2, ![128, 128]⟩ : Shape).Idx → EReal)
    (bg lg lb : (⟨1, ![128]⟩ : Shape).Idx → EReal) (Wp : (⟨2, ![16, 128]⟩ : Shape).Idx → EReal)
    (bp : (⟨1, ![128]⟩ : Shape).Idx → EReal) (Wc : (⟨2, ![256, 128]⟩ : Shape).Idx → EReal)
    (bc : (⟨1, ![128]⟩ : Shape).Idx → EReal) : (⟨2, ![100000, 128]⟩ : Shape).Idx → EReal :=
  fun i =>
    gateRow
      (convOut hNodes kW (hAt x Wg lg lb) (srcWord ei) (dstWord ei) (edgeWeight fun e k => ea (ix2 e k)) (vec bg) (i 0))
      (aggrOut (fun e => featRow (row ea e) (mat Wp) (vec bp)) (dstWord ei) (featRow (fun _ => 1) (mat Wp) (vec bp)) (i 0))
      (fun k q => Wc (ix2 (⟨k.val, by have := k.isLt; omega⟩ : Fin 256) q))
      (fun k q => Wc (ix2 (⟨128 + k.val, by have := k.isLt; omega⟩ : Fin 256) q))
      (vec bc) (i 1)

end Cert.Gnn

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibHostLayout.lean ====
/-
  Two host re-layings read at one entry, over any sizes and any element type.

  * A matrix transposed: the result at (i, j) is the matrix at (j, i).
  * A vector of N entries laid as a row [1, N] and then down M rows, by two `broadcast_in_dim`s: the result at (r, c)
    is entry c.
  * A rank-zero value broadcast to a matrix: every entry is the value.
-/
import Idealize.ShloMosaic.Lib.Pipeline.Value
import Idealize.ShloMosaic.Lib.ValueIdx

noncomputable section

namespace Cert.HostLayout

open Idealize.ShloMosaic Idealize.ShloMosaic.ValueIdx

/-- A transposed matrix at (i, j) is the matrix at (j, i). -/
theorem transpose2_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h (ix2 i j) (ix2 j i) fun q => ?_
  match q with
  | ⟨0, _⟩ => rfl
  | ⟨1, _⟩ => rfl

/-- A vector laid as a row and then down M rows reads, at (r, c), entry c. -/
theorem biasRow_apply {α : Type} {M N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 v) (ix2 r c) = v (ix1 c) := by
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A rank-zero value broadcast to any shape reads the value everywhere. -/
theorem scalar_apply {α : Type} {t : Shape} (u : (⟨0, ![]⟩ : Shape).Idx → α)
    (h : (⟨0, ![]⟩ : Shape).BroadcastsInDim t ![]) (i : t.Idx) :
    broadcastInDim t ![] h u i = u (fun a => a.elim0) :=
  broadcastInDim_apply ![] h u i (fun a => a.elim0) (fun a => a.elim0)

end Cert.HostLayout

end
-- ==== Proof.LibGraphHost.lean ====
/-
  Host operations of a graph layer read at one entry, on the extended reals, over any sizes.

  * the Euclidean length of each row of a matrix: square, sum over the last axis from zero, square root
    (`rowLength_apply`);
  * the sum of a matrix's rows (a sum over the FIRST axis from zero) at a column (`colSum_apply`);
  * a dense layer cut off below at zero — the plain product, a bias laid out by two broadcasts, the maximum with a
    broadcast zero — at (p, q) (`denseRelu_apply`);
  * the logistic function spelt 1 / (1 + exp (−z)) with the ones the f32 word of one (`hostLogistic_apply`);
  * one row of a two-row table of words, sliced out and flattened (`rowSlice_apply`); a block of rows sliced out of a
    taller table (`blockSlice_apply`);
  * two matrices joined along the rows or along the columns, read in either piece (`stackRows_*`, `stackCols_*`);
  * the f32 word of one is one (`ofBits_one_f32`).
-/
import Idealize.ShloMosaic.PureOps.Ideal
import Idealize.ShloMosaic.PureOps.Ideal.Laws
import Idealize.ShloMosaic.Lib.ValueIdx
import Idealize.ShloMosaic.Lib.Pipeline.Value
import proofs.«144141_j47605417509015_2_alg».proof.Proof.LibRmsNorm
import proofs.«144141_j47605417509015_2_alg».proof.Proof.LibHostReads
import proofs.«144141_j47605417509015_2_alg».proof.Proof.LibHostLayout
import proofs.«144141_j47605417509015_2_alg».proof.Proof.LibWeightedConv
import proofs.«144141_j47605417509015_2_alg».proof.Proof.Spec

noncomputable section

open scoped BigOperators

namespace Cert.GraphHost

open Idealize.ShloMosaic Idealize.ShloMosaic.ValueIdx Cert.RmsNorm Cert.WeightedConv Cert.Gnn

/-- The f32 word of one. -/
theorem ofBits_one_f32 : Ideal.ofBits .f32 0x3F800000#32 = 1 := by
  simp [Ideal.ofBits, Ideal.ieee]
  rw [← EReal.coe_mul, ← EReal.coe_one]
  refine congrArg _ ?_
  norm_num

/-- A rank-zero constant broadcast to any shape reads the number its word encodes everywhere. -/
theorem splat_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  Cert.HostLayout.scalar_apply _ h i

/-- The Euclidean length of row e. -/
theorem rowLength_apply {n K : ℕ} (ea : FVec Ideal ⟨2, ![n, K]⟩ .f32)
    (hrt : (⟨2, ![n, K]⟩ : Shape).ReducesTo [1] (⟨1, ![n]⟩ : Shape))
    (hr : (⟨2, ![n, K]⟩ : Shape).Reduces [1] (⟨1, ![n]⟩ : Shape)) (h0 : 0 < (⟨0, ![]⟩ : Shape).numel) (e : Fin n) :
    Host.sqrt (Host.reduceAdd (mulf ea ea) (constant (F := Ideal) ⟨0, ![]⟩ .f32 0x00000000#32) hrt h0) (ix1 e)
      = edgeWeight (fun a k => ea (ix2 a k)) e := by
  show Ideal.sqrt (Host.reduceAdd (mulf ea ea) (constant (F := Ideal) ⟨0, ![]⟩ .f32 0x00000000#32) hrt h0 (ix1 e)) = _
  rw [hostSum_apply (mulf ea ea) hrt hr h0 e]
  rfl

/-- The reduced index q with row k put back is (k, q). -/
theorem lift_row {K N : ℕ} (h : (⟨2, ![K, N]⟩ : Shape).Reduces [0] (⟨1, ![N]⟩ : Shape)) (q : Fin N)
    (k : Fin ((⟨2, ![K, N]⟩ : Shape).size 0)) : h.lift (ix1 q) k = ix2 (⟨k.val, k.isLt⟩ : Fin K) q := by
  funext c; apply Fin.ext
  fin_cases c <;> rfl

/-- The sum of the rows of a matrix, from zero, at column q. -/
theorem colSum_apply {K N : ℕ} (W : FVec Ideal ⟨2, ![K, N]⟩ .f32)
    (hrt : (⟨2, ![K, N]⟩ : Shape).ReducesTo [0] (⟨1, ![N]⟩ : Shape))
    (hr : (⟨2, ![K, N]⟩ : Shape).Reduces [0] (⟨1, ![N]⟩ : Shape)) (h0 : 0 < (⟨0, ![]⟩ : Shape).numel) (q : Fin N) :
    Host.reduceAdd W (constant (F := Ideal) ⟨0, ![]⟩ .f32 0x00000000#32) hrt h0 (ix1 q) = ∑ k : Fin K, W (ix2 k q) := by
  show Ideal.hostReduceAdd hrt W (Ideal.ofBits .f32 0x00000000#32) (ix1 q) = _
  rw [Ideal.hostReduceAdd_single hrt hr, Ideal.ofBits_zero_f32, zero_add]
  exact Finset.sum_congr rfl fun k _ => congrArg W (lift_row hr q k)

/-- A dense layer cut off below at zero, at (p, q). -/
theorem denseRelu_apply {M K N : ℕ} (X : FVec Ideal ⟨2, ![M, K]⟩ .f32) (W : FVec Ideal ⟨2, ![K, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (p : Fin M) (q : Fin N) :
    maximumf (addf (Host.dotGeneral (F := Ideal) (DotDims.plain M K N) none X W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32)) (ix2 p q)
      = featRow (row X p) (mat W) (vec b) q := by
  rw [maximumf_apply, addf_apply, Cert.LibHostReads.dotGeneral_plain_apply, Cert.HostLayout.biasRow_apply, splat_apply,
    Ideal.ofBits_zero_f32]
  rfl

/-- The logistic function as the host spells it. -/
theorem hostLogistic_apply {s : Shape} (h : (⟨0, ![]⟩ : Shape).BroadcastsInDim s ![]) (z : FVec Ideal s .f32) (i : s.Idx) :
    Host.divf (broadcastInDim s ![] h (constant (F := Ideal) ⟨0, ![]⟩ .f32 0x3F800000#32))
      (addf (broadcastInDim s ![] h (constant (F := Ideal) ⟨0, ![]⟩ .f32 0x3F800000#32)) (Host.exp (Host.negf z))) i
      = Ideal.logistic (z i) := by
  show Ideal.div (broadcastInDim s ![] h (constant (F := Ideal) ⟨0, ![]⟩ .f32 0x3F800000#32) i)
    (broadcastInDim s ![] h (constant (F := Ideal) ⟨0, ![]⟩ .f32 0x3F800000#32) i + Ideal.exp (-(z i))) = _
  rw [splat_apply, ofBits_one_f32]
  rfl

/-- Row a of a two-row table, sliced out and flattened, at e. -/
theorem rowSlice_apply {α : Type} {n : ℕ} (a : Fin 2) (ei : (⟨2, ![2, n]⟩ : Shape).Idx → α)
    (hsl : (⟨2, ![2, n]⟩ : Shape).Slices ![a.val, 0] ⟨2, ![1, n]⟩)
    (hsc : (⟨2, ![1, n]⟩ : Shape).ShapeCasts ⟨1, ![n]⟩) (e : Fin n) :
    shapeCast ⟨1, ![n]⟩ (extractStridedSlice ⟨2, ![1, n]⟩ ![a.val, 0] ei hsl) hsc (ix1 e) = ei (ix2 a e) := by
  refine (shapeCast_apply _ hsc (ix1 e) (ix2 (0 : Fin 1) e) ?_).trans ?_
  · rewrite [Shape.rowMajor_val_two, Shape.rowMajor_val_one]
    show (0 : Fin 1).val * n + e.val = e.val
    simp
  refine extractStridedSlice_apply ![a.val, 0] ei hsl (ix2 (0 : Fin 1) e) (ix2 a e) ?_
  intro c
  match c with
  | ⟨0, _⟩ => show a.val = a.val + (0 : Fin 1).val; simp
  | ⟨1, _⟩ => show e.val = 0 + e.val; omega

/-- A block of B rows sliced out of a taller table at row offset off, at (k, q). -/
theorem blockSlice_apply {α : Type} {A B N : ℕ} (off : ℕ) (W : (⟨2, ![A, N]⟩ : Shape).Idx → α)
    (hsl : (⟨2, ![A, N]⟩ : Shape).Slices ![off, 0] ⟨2, ![B, N]⟩) (k : Fin B) (q : Fin N) (hk : off + k.val < A) :
    extractStridedSlice ⟨2, ![B, N]⟩ ![off, 0] W hsl (ix2 k q) = W (ix2 (⟨off + k.val, hk⟩ : Fin A) q) := by
  refine extractStridedSlice_apply ![off, 0] W hsl (ix2 k q) (ix2 (⟨off + k.val, hk⟩ : Fin A) q) ?_
  intro c
  match c with
  | ⟨0, _⟩ => rfl
  | ⟨1, _⟩ => show q.val = 0 + q.val; omega

/-- Two matrices joined along the rows, read in the upper piece. -/
theorem stackRows_left {α : Type} {a b t K : ℕ} (h : Shape.Concatenates [⟨2, ![a, K]⟩, ⟨2, ![b, K]⟩] ⟨2, ![t, K]⟩ 0)
    (u : (⟨2, ![a, K]⟩ : Shape).Idx → α) (v : (⟨2, ![b, K]⟩ : Shape).Idx → α) (i : Fin a) (hi : i.val < t) (k : Fin K) :
    concatenate ⟨2, ![t, K]⟩ 0 [⟨⟨2, ![a, K]⟩, u⟩, ⟨⟨2, ![b, K]⟩, v⟩] h (ix2 (⟨i.val, hi⟩ : Fin t) k) = u (ix2 i k) := by
  refine concatenate_pair_apply_left 0 u v h (ix2 (⟨i.val, hi⟩ : Fin t) k) rfl (ix2 i k) ?_
  intro c
  match c with
  | ⟨0, _⟩ => rfl
  | ⟨1, _⟩ => rfl

/-- … and in the lower piece, at row a + j. -/
theorem stackRows_right {α : Type} {a b t K : ℕ} (h : Shape.Concatenates [⟨2, ![a, K]⟩, ⟨2, ![b, K]⟩] ⟨2, ![t, K]⟩ 0)
    (u : (⟨2, ![a, K]⟩ : Shape).Idx → α) (v : (⟨2, ![b, K]⟩ : Shape).Idx → α) (j : Fin b) (hj : a + j.val < t) (k : Fin K) :
    concatenate ⟨2, ![t, K]⟩ 0 [⟨⟨2, ![a, K]⟩, u⟩, ⟨⟨2, ![b, K]⟩, v⟩] h (ix2 (⟨a + j.val, hj⟩ : Fin t) k) = v (ix2 j k) := by
  refine concatenate_pair_apply_right 0 u v h (ix2 (⟨a + j.val, hj⟩ : Fin t) k) rfl rfl (ix2 j k) ?_ ?_
  · intro c hc
    match c with
    | ⟨0, _⟩ => exact absurd rfl hc
    | ⟨1, _⟩ => rfl
  · show j.val + a = a + j.val
    omega

/-- Two matrices joined along the columns, read in the left piece. -/
theorem stackCols_left {α : Type} {M a b t : ℕ} (h : Shape.Concatenates [⟨2, ![M, a]⟩, ⟨2, ![M, b]⟩] ⟨2, ![M, t]⟩ 1)
    (u : (⟨2, ![M, a]⟩ : Shape).Idx → α) (v : (⟨2, ![M, b]⟩ : Shape).Idx → α) (r : Fin M) (i : Fin a) (hi : i.val < t) :
    concatenate ⟨2, ![M, t]⟩ 1 [⟨⟨2, ![M, a]⟩, u⟩, ⟨⟨2, ![M, b]⟩, v⟩] h (ix2 r (⟨i.val, hi⟩ : Fin t)) = u (ix2 r i) := by
  refine concatenate_pair_apply_left 1 u v h (ix2 r (⟨i.val, hi⟩ : Fin t)) rfl (ix2 r i) ?_
  intro c
  match c with
  | ⟨0, _⟩ => rfl
  | ⟨1, _⟩ => rfl

/-- … and in the right piece, at column a + j. -/
theorem stackCols_right {α : Type} {M a b t : ℕ} (h : Shape.Concatenates [⟨2, ![M, a]⟩, ⟨2, ![M, b]⟩] ⟨2, ![M, t]⟩ 1)
    (u : (⟨2, ![M, a]⟩ : Shape).Idx → α) (v : (⟨2, ![M, b]⟩ : Shape).Idx → α) (r : Fin M) (j : Fin b) (hj : a + j.val < t) :
    concatenate ⟨2, ![M, t]⟩ 1 [⟨⟨2, ![M, a]⟩, u⟩, ⟨⟨2, ![M, b]⟩, v⟩] h (ix2 r (⟨a + j.val, hj⟩ : Fin t)) = v (ix2 r j) := by
  refine concatenate_pair_apply_right 1 u v h (ix2 r (⟨a + j.val, hj⟩ : Fin t)) rfl rfl (ix2 r j) ?_ ?_
  · intro c hc
    match c with
    | ⟨0, _⟩ => rfl
    | ⟨1, _⟩ => exact absurd rfl hc
  · show j.val + a = a + j.val
    omega

end Cert.GraphHost

end
-- ==== Proof.KernelHost.lean ====
/-
  The host expressions of the idealized kernel program, over variables, each read at one entry.

  The edge weights (the Euclidean length of each attribute row), the two rows of index words as vectors, a vector
  laid as one row, the reciprocal square roots of the degrees (the weights sent to a node, plus one for its loop),
  the convolution's result (`outTab`: the messages added up, plus D · D · h for the loop, plus the bias) and the
  aggregated features (`aggTab`: the edge features added up, plus the features of the all-ones row for the loop).
-/
import proofs.«144141_j47605417509015_2_alg».proof.KernelIdeal
import proofs.«144141_j47605417509015_2_alg».proof.Proof.Gen.KernelIdeal
import proofs.«144141_j47605417509015_2_alg».proof.Proof.Model
import proofs.«144141_j47605417509015_2_alg».proof.Proof.LibGraphHost
import proofs.«144141_j47605417509015_2_alg».proof.Proof.LibHostLayout
import proofs.«144141_j47605417509015_2_alg».proof.Proof.LibColRowBroadcast
import proofs.«144141_j47605417509015_2_alg».proof.Proof.LibGcnNorm
import Idealize.ShloMosaic.Lib.Pipeline.Value
import Idealize.ShloMosaic.Lib.ValueIdx

set_option maxRecDepth 16384

noncomputable section

open scoped BigOperators

namespace Cert.KernelIdeal.HostValue

open Idealize.ShloMosaic Idealize.ShloMosaic.ValueIdx
open Cert.KernelIdeal Cert.KernelIdeal.Gen
open Cert.RmsNorm Cert.LayerNorm Cert.WeightedConv Cert.Gnn Cert.GraphHost Cert.LibSelfLoops Cert.LibGcnNorm

/-! ## The host expressions, over variables -/

/-- The edge weights. -/
def ewVec (ea : FVec Ideal S1600000x16 .f32) : FVec Ideal S1600000 .f32 :=
  Host.sqrt (Host.reduceAdd (mulf ea ea) (constant (F := Ideal) S_ .f32 0x00000000#32) reducesTo_S1600000x16_S1600000_d1 h_S_)

/-- The source words and the destination words, as vectors. -/
def srcVec (ei : IVec S2x1600000 32) : IVec S1600000 32 :=
  shapeCast S1600000 (extractStridedSlice S1x1600000 ![0, 0] ei slices_S2x1600000_S1x1600000_0_0) shapeCasts_S1x1600000_S1600000
def dstVec (ei : IVec S2x1600000 32) : IVec S1600000 32 :=
  shapeCast S1600000 (extractStridedSlice S1x1600000 ![1, 0] ei slices_S2x1600000_S1x1600000_1_0) shapeCasts_S1x1600000_S1600000

/-- A vector of 128 numbers laid as one row. -/
def rowOf (v : FVec Ideal S128 .f32) : FVec Ideal S1x128 .f32 := shapeCast S1x128 v shapeCasts_S128_S1x128

/-- One over the square root of (the weights sent to each node, plus one). -/
def dinvVec (ew : FVec Ideal S1600000 .f32) (dst : IVec S1600000 32) : FVec Ideal S100000 .f32 :=
  Host.rsqrt (addf (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 dst) ew)
    (broadcastInDim S100000 ![] bcast_S_S100000 (constant (F := Ideal) S_ .f32 0x3F800000#32)))

/-- The convolution's result. -/
def outTab (ew : FVec Ideal S1600000 .f32) (src dst : IVec S1600000 32) (h : FVec Ideal S100000x128 .f32)
    (bg : FVec Ideal S128 .f32) : FVec Ideal S100000x128 .f32 :=
  addf (addf
      (weighted gather_S100000_S1600000x1_S1600000_n_0_n_n_0_1_1 gather_S100000x128_S1600000x1_S1600000x128_1_0_n_n_0_1_1128
        scatter_S100000x128_S1600000x1_S1600000x128_1_0_0_1 bcast_S1600000_S1600000x1_0 bcast_S1600000x1_S1600000x128_0_1
        bcast_S_S1600000 bcast_S_S100000x128 kW h (dinvVec ew dst) src dst ew)
      (mulf (broadcastInDim S100000x128 ![0, 1] bcast_S100000x1_S100000x128_0_1
          (broadcastInDim S100000x1 ![0] bcast_S100000_S100000x1_0 (mulf (dinvVec ew dst) (dinvVec ew dst)))) h))
    (broadcastInDim S100000x128 ![0, 1] bcast_S1x128_S100000x128_0_1 (broadcastInDim S1x128 ![1] bcast_S128_S1x128_1 bg))

/-- The features of the all-ones row: the sum of the projection table's rows plus the bias, cut off below at zero. -/
def loopVec (wp : FVec Ideal S16x128 .f32) (bp : FVec Ideal S128 .f32) : FVec Ideal S128 .f32 :=
  maximumf (addf (Host.reduceAdd wp (constant (F := Ideal) S_ .f32 0x00000000#32) reducesTo_S16x128_S128_d0 h_S_) bp)
    (broadcastInDim S128 ![] bcast_S_S128 (constant (F := Ideal) S_ .f32 0x00000000#32))

/-- The aggregated features. -/
def aggTab (dst : IVec S1600000 32) (ef : FVec Ideal S1600000x128 .bf16) (wp : FVec Ideal S16x128 .f32)
    (bp : FVec Ideal S128 .f32) : FVec Ideal S100000x128 .f32 :=
  addf (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst) (extf .f32 ef bitsLt_bf16_f32))
    (broadcastInDim S100000x128 ![0, 1] bcast_S1x128_S100000x128_0_1
      (broadcastInDim S1x128 ![1] bcast_S128_S1x128_1 (loopVec wp bp)))

/-! ## Read at one entry -/

theorem srcVec_apply (ei : IVec S2x1600000 32) (e : Fin 1600000) : srcVec ei (ix1 e) = srcWord ei e :=
  rowSlice_apply (0 : Fin 2) ei slices_S2x1600000_S1x1600000_0_0 shapeCasts_S1x1600000_S1600000 e

theorem dstVec_apply (ei : IVec S2x1600000 32) (e : Fin 1600000) : dstVec ei (ix1 e) = dstWord ei e :=
  rowSlice_apply (1 : Fin 2) ei slices_S2x1600000_S1x1600000_1_0 shapeCasts_S1x1600000_S1600000 e

theorem ewVec_apply (ea : FVec Ideal S1600000x16 .f32) (e : Fin 1600000) :
    ewVec ea (ix1 e) = edgeWeight (fun a k => ea (ix2 a k)) e :=
  rowLength_apply ea reducesTo_S1600000x16_S1600000_d1 (by decide) h_S_ e

theorem rowOf_row (v : FVec Ideal S128 .f32) : row (rowOf v) 0 = vec v :=
  funext fun q => Cert.ColRowBroadcast.rowCast_apply v shapeCasts_S128_S1x128 0 q

/-- The host's reciprocal square root of a sum of two arrays, at an entry. -/
theorem rsqrt_add_apply {s : Shape} (a b : FVec Ideal s .f32) (i : s.Idx) :
    Host.rsqrt (addf a b) i = Ideal.rsqrt (a i + b i) := rfl

theorem dinvVec_apply (ew : FVec Ideal S1600000 .f32) (dst : IVec S1600000 32) (r : Fin 100000) :
    dinvVec ew dst (ix1 r) = Ideal.rsqrt (degree (fun a => dst (ix1 a)) (fun a => ew (ix1 a)) r) := by
  have hdeg := Cert.LibGcnNorm.degree_apply (n := 1600000) (R := 100000) (by decide)
    scatter_S100000_S1600000x1_S1600000_n_0_0_1 rfl rfl rfl rfl bcast_S1600000_S1600000x1_0
    (broadcastInDim S100000 ![] bcast_S_S100000 (constant (F := Ideal) S_ .f32 0x00000000#32)) dst ew r
  have h1 : broadcastInDim S100000 ![] bcast_S_S100000 (constant (F := Ideal) S_ .f32 0x3F800000#32) (ix1 r) = 1 :=
    (splat_apply 0x3F800000#32 bcast_S_S100000 (ix1 r)).trans ofBits_one_f32
  have h0 : broadcastInDim S100000 ![] bcast_S_S100000 (constant (F := Ideal) S_ .f32 0x00000000#32) (ix1 r) = 0 :=
    (splat_apply 0x00000000#32 bcast_S_S100000 (ix1 r)).trans Ideal.ofBits_zero_f32
  unfold dinvVec degree sumTo
  rw [rsqrt_add_apply, hdeg, h1, h0]

theorem outTab_apply (ew : FVec Ideal S1600000 .f32) (src dst : IVec S1600000 32) (h : FVec Ideal S100000x128 .f32)
    (bg : FVec Ideal S128 .f32) (r : Fin 100000) (q : Fin 128) :
    outTab ew src dst h bg (ix2 r q)
      = convOut hNodes kW (fun ρ γ => h (ix2 ρ γ)) (fun a => src (ix1 a)) (fun a => dst (ix1 a)) (fun a => ew (ix1 a))
          (vec bg) r q := by
  unfold outTab convOut
  rw [addf_apply, addf_apply]
  have hD : (fun ρ => dinvVec ew dst (ix1 ρ)) = fun ρ => Ideal.rsqrt (degree (fun a => dst (ix1 a)) (fun a => ew (ix1 a)) ρ) :=
    funext fun ρ => dinvVec_apply ew dst ρ
  refine congrArg₂ (· + ·) (congrArg₂ (· + ·) ?_ ?_) ?_
  · refine (weighted_apply (n := 1600000) hNodes (by decide) gather_S100000_S1600000x1_S1600000_n_0_n_n_0_1_1
      gather_S100000x128_S1600000x1_S1600000x128_1_0_n_n_0_1_1128 scatter_S100000x128_S1600000x1_S1600000x128_1_0_0_1
      rfl rfl rfl rfl rfl rfl rfl rfl rfl rfl rfl rfl rfl rfl rfl rfl rfl rfl
      bcast_S1600000_S1600000x1_0 bcast_S1600000x1_S1600000x128_0_1 bcast_S_S1600000 bcast_S_S100000x128 kW
      h (dinvVec ew dst) src dst ew r q).trans ?_
    rw [hD]
  · rw [mulf_apply]
    refine congrArg₂ (· * ·) ?_ rfl
    refine (Cert.LibRowGatherScatter.bcast_col_apply (N := 100000) (C := 128) (by decide) (mulf (dinvVec ew dst) (dinvVec ew dst))
      bcast_S100000_S100000x1_0 bcast_S100000x1_S100000x128_0_1 r q).trans ?_
    rw [mulf_apply, dinvVec_apply]
  · exact Cert.HostLayout.biasRow_apply bg bcast_S128_S1x128_1 bcast_S1x128_S100000x128_0_1 r q

theorem loopVec_apply (wp : FVec Ideal S16x128 .f32) (bp : FVec Ideal S128 .f32) (q : Fin 128) :
    loopVec wp bp (ix1 q) = featRow (fun _ => 1) (mat wp) (vec bp) q := by
  unfold loopVec
  rw [maximumf_apply, addf_apply, colSum_apply wp reducesTo_S16x128_S128_d0 (by decide) h_S_ q, splat_apply,
    Ideal.ofBits_zero_f32]
  unfold featRow rowMat
  simp only [one_mul]
  rfl

theorem aggTab_apply (dst : IVec S1600000 32) (ef : FVec Ideal S1600000x128 .bf16) (wp : FVec Ideal S16x128 .f32)
    (bp : FVec Ideal S128 .f32) (r : Fin 100000) (q : Fin 128) :
    aggTab dst ef wp bp (ix2 r q)
      = aggrOut (fun e γ => ef (ix2 e γ)) (fun a => dst (ix1 a)) (featRow (fun _ => 1) (mat wp) (vec bp)) r q := by
  unfold aggTab
  rw [addf_apply, Cert.LibGcnNorm.aggregate_apply (n := 1600000) (by decide) scatter_S100000x128_S1600000x1_S1600000x128_1_0_0_1
      rfl rfl rfl rfl bcast_S1600000_S1600000x1_0 _ dst (extf .f32 ef bitsLt_bf16_f32) r q,
    splat_apply, Ideal.ofBits_zero_f32,
    Cert.HostLayout.biasRow_apply (loopVec wp bp) bcast_S128_S1x128_1 bcast_S1x128_S100000x128_0_1 r q, loopVec_apply]
  rfl

end Cert.KernelIdeal.HostValue

end
-- ==== Proof.KernelValue.lean ====
/-
  The idealized kernel program's result array is the model of the argument arrays.

  The buffers' contents at each boundary are a fold from the launch memory: a stretch of host operations applies
  them one after the other; a launch leaves each of its arrays at what its write-backs leave and every other buffer
  as it found it. Read through that fold: the stretch before the first launch leaves the edge weights, the index
  words as vectors and the projection bias as a row; the first launch leaves the edge features; the second, after
  the gain and bias are laid as rows, the table h; the long stretch before the third launch leaves the
  convolution's result and the aggregated features, the two halves of the gate's weight table and its bias as a
  row; the third launch leaves the gated combination. Entry by entry that is the model.
-/
import proofs.«144141_j47605417509015_2_alg».proof.Proof.Gen.KernelIdeal.Frame
import proofs.«144141_j47605417509015_2_alg».proof.Proof.Region0
import proofs.«144141_j47605417509015_2_alg».proof.Proof.Region1
import proofs.«144141_j47605417509015_2_alg».proof.Proof.Region2
import proofs.«144141_j47605417509015_2_alg».proof.Proof.Model
import proofs.«144141_j47605417509015_2_alg».proof.Proof.KernelHost
import proofs.«144141_j47605417509015_2_alg».proof.Proof.LibGraphHost
import Idealize.ShloMosaic.Lib.Pipeline.Value
import Idealize.ShloMosaic.Lib.ValueIdx

set_option maxRecDepth 16384

noncomputable section

open scoped BigOperators

namespace Cert.KernelIdeal.Gen

open Idealize.ShloMosaic Idealize.ShloMosaic.TcCoe Idealize.ShloMosaic.ValueIdx Idealize.ShloMosaic.StableHlo Idealize.SL.Sem
open Cert.KernelIdeal.HostValue Cert.RmsNorm Cert.LayerNorm Cert.WeightedConv Cert.Gnn Cert.GraphHost

variable (m : (ℓ : Loc nD τ sig) → Buf (Elt Ideal) ℓ) (ρ : Dev nD → PrngReg)

theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W1_main_arg7 (c : Dev nD) : W1 m ρ c (Proc.devRef .tc main_arg7) = m ((c : Thread nD τ).loc main_arg7) :=
  calc W1 m ρ c (Proc.devRef .tc main_arg7)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := (W2_arr m ρ c 1).trans (((dat0 (V1 m ρ) c).arrAt_in 1 rfl _).trans (A_eq0 (V1 m ρ) c 1))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W4_to_W1_main_v6 (c : Dev nD) : W4 m ρ c (Proc.devRef .tc main_v6) = W1 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := W2_of_ne m ρ c main_v6 (by decide)

theorem W4_to_W1_main_v1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem W4_to_W1_main_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-- Before the first launch: the edge weights, the index words, the projection bias as a row. -/
theorem W1_main_v6 (c : Dev nD) : W1 m ρ c (Proc.devRef .tc main_v6) = ewVec (m ((c : Thread nD τ).loc main_arg1)) := by
  show StableHlo.after hostOps0 (W0 m ρ c) _ = _
  simp only [hostOps0]
  after_results_simp
  rfl
theorem W1_main_v1 (c : Dev nD) : W1 m ρ c (Proc.devRef .tc main_v1) = srcVec (m ((c : Thread nD τ).loc main_arg2)) := by
  show StableHlo.after hostOps0 (W0 m ρ c) _ = _
  simp only [hostOps0]
  after_results_simp
  rfl
theorem W1_main_v3 (c : Dev nD) : W1 m ρ c (Proc.devRef .tc main_v3) = dstVec (m ((c : Thread nD τ).loc main_arg2)) := by
  show StableHlo.after hostOps0 (W0 m ρ c) _ = _
  simp only [hostOps0]
  after_results_simp
  rfl
theorem W1_main_v7 (c : Dev nD) : W1 m ρ c (Proc.devRef .tc main_v7) = rowOf (m ((c : Thread nD τ).loc main_arg8)) := by
  show StableHlo.after hostOps0 (W0 m ρ c) _ = _
  simp only [hostOps0]
  after_results_simp
  rfl

/-- The first launch leaves the edge features. -/
theorem W2_main_v8 (c : Dev nD) : W2 m ρ c (Proc.devRef .tc main_v8)
    = Region0.efTable (m ((c : Thread nD τ).loc main_arg1)) (m ((c : Thread nD τ).loc main_arg7))
        (rowOf (m ((c : Thread nD τ).loc main_arg8))) := by
  refine (W2_arr m ρ c 3).trans ?_
  rw [Region0.final (V1 m ρ) c]
  show Region0.efTable (W1 m ρ c (Proc.devRef .tc main_arg1)) (W1 m ρ c (Proc.devRef .tc main_arg7))
    (W1 m ρ c (Proc.devRef .tc main_v7)) = _
  rw [W1_main_arg1, W1_main_arg7, W1_main_v7]

theorem W4_main_v8 (c : Dev nD) : W4 m ρ c (Proc.devRef .tc main_v8)
    = Region0.efTable (m ((c : Thread nD τ).loc main_arg1)) (m ((c : Thread nD τ).loc main_arg7))
        (rowOf (m ((c : Thread nD τ).loc main_arg8))) :=
  calc W4 m ρ c (Proc.devRef .tc main_v8)
    _ = W3 m ρ c (Proc.devRef .tc main_v8) := W4_of_ne m ρ c main_v8 (by decide)
    _ = W2 m ρ c (Proc.devRef .tc main_v8) := StableHlo.after_of_forall_not_mem (b := Proc.devRef .tc main_v8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = _ := W2_main_v8 m ρ c

/-- Before the second launch: the gain and the bias as rows. -/
theorem W3_main_v9 (c : Dev nD) : W3 m ρ c (Proc.devRef .tc main_v9) = rowOf (m ((c : Thread nD τ).loc main_arg5)) := by
  have h5 : W2 m ρ c (Proc.devRef .tc main_arg5) = m ((c : Thread nD τ).loc main_arg5) :=
    calc W2 m ρ c (Proc.devRef .tc main_arg5)
      _ = W1 m ρ c (Proc.devRef .tc main_arg5) := W2_of_ne m ρ c main_arg5 (by decide)
      _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = _ := rfl
  show StableHlo.after hostOps1 (W2 m ρ c) _ = _
  simp only [hostOps1]
  after_results_simp
  rw [h5]
  rfl
theorem W3_main_v10 (c : Dev nD) : W3 m ρ c (Proc.devRef .tc main_v10) = rowOf (m ((c : Thread nD τ).loc main_arg6)) := by
  have h6 : W2 m ρ c (Proc.devRef .tc main_arg6) = m ((c : Thread nD τ).loc main_arg6) :=
    calc W2 m ρ c (Proc.devRef .tc main_arg6)
      _ = W1 m ρ c (Proc.devRef .tc main_arg6) := W2_of_ne m ρ c main_arg6 (by decide)
      _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = _ := rfl
  show StableHlo.after hostOps1 (W2 m ρ c) _ = _
  simp only [hostOps1]
  after_results_simp
  rw [h6]
  rfl

/-- The second launch leaves the table h. -/
theorem W4_main_v11 (c : Dev nD) : W4 m ρ c (Proc.devRef .tc main_v11)
    = Region1.hTable (m ((c : Thread nD τ).loc main_arg0)) (m ((c : Thread nD τ).loc main_arg3))
        (rowOf (m ((c : Thread nD τ).loc main_arg5))) (rowOf (m ((c : Thread nD τ).loc main_arg6))) := by
  refine (W4_arr m ρ c 4).trans ?_
  rw [Region1.final (V3 m ρ) c]
  show Region1.hTable (W3 m ρ c (Proc.devRef .tc main_arg0)) (W3 m ρ c (Proc.devRef .tc main_arg3))
    (W3 m ρ c (Proc.devRef .tc main_v9)) (W3 m ρ c (Proc.devRef .tc main_v10)) = _
  rw [W3_main_arg0, W3_main_arg3, W3_main_v9, W3_main_v10]

/-- Before the third launch: the convolution's result, the aggregated features, the gate's tables. -/
theorem W7_main_v54 (c : Dev nD) : W7 m ρ c (Proc.devRef .tc main_v54)
    = outTab (W4 m ρ c (Proc.devRef .tc main_v6)) (W4 m ρ c (Proc.devRef .tc main_v1)) (W4 m ρ c (Proc.devRef .tc main_v3))
        (W4 m ρ c (Proc.devRef .tc main_v11)) (W4 m ρ c (Proc.devRef .tc main_arg4)) := by
  show StableHlo.after hostOps2_2 (StableHlo.after hostOps2_1 (StableHlo.after hostOps2 (W4 m ρ c))) _ = _
  simp only [hostOps2_2, hostOps2_1, hostOps2]
  after_results_simp
  rfl
theorem W7_main_v64 (c : Dev nD) : W7 m ρ c (Proc.devRef .tc main_v64)
    = aggTab (W4 m ρ c (Proc.devRef .tc main_v3)) (W4 m ρ c (Proc.devRef .tc main_v8))
        (W4 m ρ c (Proc.devRef .tc main_arg7)) (W4 m ρ c (Proc.devRef .tc main_arg8)) := by
  show StableHlo.after hostOps2_2 (StableHlo.after hostOps2_1 (StableHlo.after hostOps2 (W4 m ρ c))) _ = _
  simp only [hostOps2_2, hostOps2_1, hostOps2]
  after_results_simp
  rfl
theorem W7_main_v65 (c : Dev nD) : W7 m ρ c (Proc.devRef .tc main_v65)
    = extractStridedSlice S128x128 ![0, 0] (m ((c : Thread nD τ).loc main_arg9)) slices_S256x128_S128x128_0_0 := by
  show StableHlo.after hostOps2_2 (StableHlo.after hostOps2_1 (StableHlo.after hostOps2 (W4 m ρ c))) _ = _
  simp only [hostOps2_2, hostOps2_1, hostOps2]
  after_results_simp
  rw [W4_main_arg9]
theorem W7_main_v66 (c : Dev nD) : W7 m ρ c (Proc.devRef .tc main_v66)
    = extractStridedSlice S128x128 ![128, 0] (m ((c : Thread nD τ).loc main_arg9)) slices_S256x128_S128x128_128_0 := by
  show StableHlo.after hostOps2_2 (StableHlo.after hostOps2_1 (StableHlo.after hostOps2 (W4 m ρ c))) _ = _
  simp only [hostOps2_2, hostOps2_1, hostOps2]
  after_results_simp
  rw [W4_main_arg9]
theorem W7_main_v67 (c : Dev nD) : W7 m ρ c (Proc.devRef .tc main_v67) = rowOf (m ((c : Thread nD τ).loc main_arg10)) := by
  show StableHlo.after hostOps2_2 (StableHlo.after hostOps2_1 (StableHlo.after hostOps2 (W4 m ρ c))) _ = _
  simp only [hostOps2_2, hostOps2_1, hostOps2]
  after_results_simp
  rw [W4_main_arg10]
  rfl

/-- THE RESULT ARRAY after the run is the model of the argument arrays. -/
theorem W8_main_v68 (c : Dev nD) : W8 m ρ c (Proc.devRef .tc main_v68)
    = model (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (W8_arr m ρ c 5).trans ?_
  rw [Region2.final (V7 m ρ) c]
  show Region2.finTable (W7 m ρ c (Proc.devRef .tc main_v54)) (W7 m ρ c (Proc.devRef .tc main_v64))
    (W7 m ρ c (Proc.devRef .tc main_v65)) (W7 m ρ c (Proc.devRef .tc main_v66)) (W7 m ρ c (Proc.devRef .tc main_v67)) = _
  rw [W7_main_v54, W7_main_v64, W7_main_v65, W7_main_v66, W7_main_v67, W4_to_W1_main_v6, W4_to_W1_main_v1,
    W4_to_W1_main_v3, W1_main_v6, W1_main_v1, W1_main_v3, W4_main_v11, W4_main_v8, W4_main_arg4, W4_main_arg7,
    W4_main_arg8]
  funext i
  obtain ⟨r, q, rfl⟩ : ∃ (r : Fin 100000) (q : Fin 128), i = ix2 r q := ⟨i 0, i 1, eq_ix2 i⟩
  unfold Region2.finTable model
  have hO : row (outTab (ewVec (m ((c : Thread nD τ).loc main_arg1))) (srcVec (m ((c : Thread nD τ).loc main_arg2)))
        (dstVec (m ((c : Thread nD τ).loc main_arg2)))
        (Region1.hTable (m ((c : Thread nD τ).loc main_arg0)) (m ((c : Thread nD τ).loc main_arg3))
          (rowOf (m ((c : Thread nD τ).loc main_arg5))) (rowOf (m ((c : Thread nD τ).loc main_arg6))))
        (m ((c : Thread nD τ).loc main_arg4))) r
      = convOut hNodes kW (hAt (m ((c : Thread nD τ).loc main_arg0)) (m ((c : Thread nD τ).loc main_arg3))
          (m ((c : Thread nD τ).loc main_arg5)) (m ((c : Thread nD τ).loc main_arg6)))
          (srcWord (m ((c : Thread nD τ).loc main_arg2))) (dstWord (m ((c : Thread nD τ).loc main_arg2)))
          (edgeWeight fun e k => m ((c : Thread nD τ).loc main_arg1) (ix2 e k)) (vec (m ((c : Thread nD τ).loc main_arg4))) r := by
    funext γ
    refine (outTab_apply _ _ _ _ _ r γ).trans ?_
    have h1 : (fun ρ' γ' => Region1.hTable (m ((c : Thread nD τ).loc main_arg0)) (m ((c : Thread nD τ).loc main_arg3))
          (rowOf (m ((c : Thread nD τ).loc main_arg5))) (rowOf (m ((c : Thread nD τ).loc main_arg6))) (ix2 ρ' γ'))
        = hAt (m ((c : Thread nD τ).loc main_arg0)) (m ((c : Thread nD τ).loc main_arg3))
            (m ((c : Thread nD τ).loc main_arg5)) (m ((c : Thread nD τ).loc main_arg6)) := by
      funext ρ' γ'
      unfold Region1.hTable hAt
      rw [rowOf_row, rowOf_row]
    have h2 : (fun a => srcVec (m ((c : Thread nD τ).loc main_arg2)) (ix1 a)) = srcWord (m ((c : Thread nD τ).loc main_arg2)) :=
      funext fun a => srcVec_apply _ a
    have h3 : (fun a => dstVec (m ((c : Thread nD τ).loc main_arg2)) (ix1 a)) = dstWord (m ((c : Thread nD τ).loc main_arg2)) :=
      funext fun a => dstVec_apply _ a
    have h4 : (fun a => ewVec (m ((c : Thread nD τ).loc main_arg1)) (ix1 a))
        = edgeWeight fun e k => m ((c : Thread nD τ).loc main_arg1) (ix2 e k) :=
      funext fun a => ewVec_apply _ a
    rw [h1, h2, h3, h4]
  have hA : row (aggTab (dstVec (m ((c : Thread nD τ).loc main_arg2)))
        (Region0.efTable (m ((c : Thread nD τ).loc main_arg1)) (m ((c : Thread nD τ).loc main_arg7))
          (rowOf (m ((c : Thread nD τ).loc main_arg8))))
        (m ((c : Thread nD τ).loc main_arg7)) (m ((c : Thread nD τ).loc main_arg8))) r
      = aggrOut (fun e => featRow (row (m ((c : Thread nD τ).loc main_arg1)) e) (mat (m ((c : Thread nD τ).loc main_arg7)))
            (vec (m ((c : Thread nD τ).loc main_arg8))))
          (dstWord (m ((c : Thread nD τ).loc main_arg2)))
          (featRow (fun _ => 1) (mat (m ((c : Thread nD τ).loc main_arg7))) (vec (m ((c : Thread nD τ).loc main_arg8)))) r := by
    funext γ
    refine (aggTab_apply _ _ _ _ r γ).trans ?_
    have h3 : (fun a => dstVec (m ((c : Thread nD τ).loc main_arg2)) (ix1 a)) = dstWord (m ((c : Thread nD τ).loc main_arg2)) :=
      funext fun a => dstVec_apply _ a
    have h5 : (fun e γ' => Region0.efTable (m ((c : Thread nD τ).loc main_arg1)) (m ((c : Thread nD τ).loc main_arg7))
          (rowOf (m ((c : Thread nD τ).loc main_arg8))) (ix2 e γ'))
        = fun e => featRow (row (m ((c : Thread nD τ).loc main_arg1)) e) (mat (m ((c : Thread nD τ).loc main_arg7)))
            (vec (m ((c : Thread nD τ).loc main_arg8))) := by
      funext e γ'
      unfold Region0.efTable
      rw [rowOf_row]
    rw [h3, h5]
  have hW1 : mat (extractStridedSlice S128x128 ![0, 0] (m ((c : Thread nD τ).loc main_arg9)) slices_S256x128_S128x128_0_0)
      = fun k γ => m ((c : Thread nD τ).loc main_arg9) (ix2 (⟨k.val, by have := k.isLt; omega⟩ : Fin 256) γ) := by
    funext k γ
    refine (blockSlice_apply 0 _ slices_S256x128_S128x128_0_0 k γ (by have := k.isLt; omega)).trans ?_
    exact congrArg (fun z => m ((c : Thread nD τ).loc main_arg9) (ix2 z γ)) (Fin.ext (by simp))
  have hW2 : mat (extractStridedSlice S128x128 ![128, 0] (m ((c : Thread nD τ).loc main_arg9)) slices_S256x128_S128x128_128_0)
      = fun k γ => m ((c : Thread nD τ).loc main_arg9) (ix2 (⟨128 + k.val, by have := k.isLt; omega⟩ : Fin 256) γ) := by
    funext k γ
    exact blockSlice_apply 128 _ slices_S256x128_S128x128_128_0 k γ (by have := k.isLt; omega)
  rw [hO, hA, hW1, hW2, rowOf_row]
  rfl

end Cert.KernelIdeal.Gen

end
-- ==== Proof.RefStages.lean ====
/-
  The reference program's lengthened lists and its degrees, read at one entry.

  The reference lengthens the edge list by one loop per node (source and destination words the counting vector,
  weight one, attribute row all ones). Below the cut its index words, weights and attribute rows are the real
  edges'; above the cut the loops'. Its degree of node r is the weights sent to r over the long list, which by the
  loop law is the real edges' plus one; being a real number ≥ 1 when the attributes are finite, its guarded
  reciprocal square root is the plain one.
-/
import proofs.«144141_j47605417509015_2_alg».proof.Proof.Gen.ReferenceIdeal.Read
import proofs.«144141_j47605417509015_2_alg».proof.Proof.Model
import proofs.«144141_j47605417509015_2_alg».proof.Proof.LibGraphHost
import proofs.«144141_j47605417509015_2_alg».proof.Proof.LibHostReads
import proofs.«144141_j47605417509015_2_alg».proof.Proof.LibHostLayout
import proofs.«144141_j47605417509015_2_alg».proof.Proof.LibGcnNorm
import Idealize.ShloMosaic.Lib.Pipeline.Value
import Idealize.ShloMosaic.Lib.ValueIdx

set_option maxRecDepth 16384

noncomputable section

open scoped BigOperators

namespace Cert.ReferenceIdeal.RefValue

open Idealize.ShloMosaic Idealize.ShloMosaic.ValueIdx
open Cert.ReferenceIdeal Cert.ReferenceIdeal.Gen Cert.ReferenceIdeal.Read
open Cert.RmsNorm Cert.LayerNorm Cert.WeightedConv Cert.Gnn Cert.GraphHost Cert.LibSelfLoops Cert.LibRealEntries

variable (x0 : (⟨S100000x128, .f32⟩ : BufTy).Contents (Elt Ideal)) (x1 : (⟨S1600000x16, .f32⟩ : BufTy).Contents (Elt Ideal))
  (x2 : (⟨S2x1600000, .i32⟩ : BufTy).Contents (Elt Ideal)) (x3 : (⟨S128x128, .f32⟩ : BufTy).Contents (Elt Ideal))
  (x4 x5 x6 : (⟨S128, .f32⟩ : BufTy).Contents (Elt Ideal)) (x7 : (⟨S16x128, .f32⟩ : BufTy).Contents (Elt Ideal))
  (x8 : (⟨S128, .f32⟩ : BufTy).Contents (Elt Ideal)) (x9 : (⟨S256x128, .f32⟩ : BufTy).Contents (Elt Ideal))
  (x10 : (⟨S128, .f32⟩ : BufTy).Contents (Elt Ideal))

/-- The edge weights of the real edges. -/
abbrev ew : Fin 1600000 → EReal := edgeWeight fun e k => x1 (ix2 e k)

/-! ## The lengthened lists, below and above the cut -/

theorem h_apply (r : Fin 100000) (q : Fin 128) :
    val_main_v43 (F := Ideal) x0 x3 x5 x6 (ix2 r q) = hAt x0 x3 x5 x6 r q := by
  unfold val_main_v43
  refine (Cert.LibHostReads.dotGeneral_plain_apply 100000 128 128 none _ _ r q).trans ?_
  unfold hAt rowMat
  refine Finset.sum_congr rfl fun k _ => ?_
  exact congrArg (· * x3 (ix2 k q)) (congrFun (hostLN_row cN cE x0 x5 x6 reducesTo_S100000x128_S100000_d1 (by decide) h_S_
    bcast_S100000_S100000x1_0 bcast_S_S100000x1 bcast_S100000x1_S100000x128_0_1 bcast_S128_S1x128_1
    bcast_S1x128_S100000x128_0_1 r) k)

theorem ew_apply (e : Fin 1600000) : val_main_v2 (F := Ideal) x1 (ix1 e) = ew x1 e :=
  rowLength_apply x1 reducesTo_S1600000x16_S1600000_d1 (by decide) h_S_ e

theorem src_left (e : Fin 1600000) :
    val_main_v6 (F := Ideal) x2 (ix1 (⟨e.val, by have := e.isLt; omega⟩ : Fin 1700000)) = srcWord x2 e := by
  unfold val_main_v6
  refine (join_left concatenates_S1600000_S100000_S1700000_d0 _ _ e _).trans ?_
  exact rowSlice_apply (0 : Fin 2) x2 slices_S2x1600000_S1x1600000_0_0 shapeCasts_S1x1600000_S1600000 e

theorem src_right (j : Fin 100000) :
    val_main_v6 (F := Ideal) x2 (ix1 (⟨1600000 + j.val, by have := j.isLt; omega⟩ : Fin 1700000)) = BitVec.ofNat 32 j.val := by
  unfold val_main_v6
  exact (join_right concatenates_S1600000_S100000_S1700000_d0 _ _ j _).trans (iota_apply j)

theorem dst_left (e : Fin 1600000) :
    val_main_v9 (F := Ideal) x2 (ix1 (⟨e.val, by have := e.isLt; omega⟩ : Fin 1700000)) = dstWord x2 e := by
  unfold val_main_v9
  refine (join_left concatenates_S1600000_S100000_S1700000_d0 _ _ e _).trans ?_
  exact rowSlice_apply (1 : Fin 2) x2 slices_S2x1600000_S1x1600000_1_0 shapeCasts_S1x1600000_S1600000 e

theorem dst_right (j : Fin 100000) :
    val_main_v9 (F := Ideal) x2 (ix1 (⟨1600000 + j.val, by have := j.isLt; omega⟩ : Fin 1700000)) = BitVec.ofNat 32 j.val := by
  unfold val_main_v9
  exact (join_right concatenates_S1600000_S100000_S1700000_d0 _ _ j _).trans (iota_apply j)

theorem w_left (e : Fin 1600000) :
    val_main_v13 (F := Ideal) x1 (ix1 (⟨e.val, by have := e.isLt; omega⟩ : Fin 1700000)) = ew x1 e := by
  unfold val_main_v13
  exact (join_left concatenates_S1600000_S100000_S1700000_d0 _ _ e _).trans (ew_apply x1 e)

theorem w_right (j : Fin 100000) :
    val_main_v13 (F := Ideal) x1 (ix1 (⟨1600000 + j.val, by have := j.isLt; omega⟩ : Fin 1700000)) = 1 := by
  unfold val_main_v13
  refine (join_right concatenates_S1600000_S100000_S1700000_d0 _ _ j _).trans ?_
  exact (splat_apply 0x3F800000#32 bcast_S_S100000 (ix1 j)).trans ofBits_one_f32

/-- The features of entry e' of the long list: `featRow` of its attribute row. -/
theorem feat_apply (e' : Fin 1700000) (q : Fin 128) :
    val_main_v18 (F := Ideal) x1 x7 x8 (ix2 e' q) = featRow (row (val_main_v11 (F := Ideal) x1) e') (mat x7) (vec x8) q :=
  denseRelu_apply (val_main_v11 (F := Ideal) x1) x7 x8 bcast_S128_S1x128_1 bcast_S1x128_S1700000x128_0_1
    bcast_S_S1700000x128 e' q

theorem attr_left (e : Fin 1600000) :
    row (val_main_v11 (F := Ideal) x1) (⟨e.val, by have := e.isLt; omega⟩ : Fin 1700000) = row x1 e := by
  funext k
  unfold val_main_v11
  exact stackRows_left concatenates_S1600000x16_S100000x16_S1700000x16_d0 _ _ e _ k

theorem attr_right (j : Fin 100000) :
    row (val_main_v11 (F := Ideal) x1) (⟨1600000 + j.val, by have := j.isLt; omega⟩ : Fin 1700000) = fun _ => 1 := by
  funext k
  unfold val_main_v11
  refine (stackRows_right concatenates_S1600000x16_S100000x16_S1700000x16_d0 _ _ j _ k).trans ?_
  exact (splat_apply 0x3F800000#32 bcast_S_S100000x16 (ix2 j k)).trans ofBits_one_f32

/-! ## The degrees and their reciprocal square roots -/

theorem deg_apply (r : Fin 100000) :
    val_main_v46 (F := Ideal) x1 x2 (ix1 r) = degree (dstWord x2) (ew x1) r := by
  unfold val_main_v46
  refine (Cert.LibGcnNorm.degree_apply (n := 1700000) (by decide) scatter_S100000_S1700000x1_S1700000_n_0_0_1 rfl rfl rfl rfl
    bcast_S1700000_S1700000x1_0 _ (val_main_v9 (F := Ideal) x2) (val_main_v13 (F := Ideal) x1) r).trans ?_
  rw [show val_main_v44 (F := Ideal) (ix1 r) = 0 from (splat_apply 0x00000000#32 bcast_S_S100000 (ix1 r)).trans Ideal.ofBits_zero_f32]
  unfold degree
  exact sumTo_loops (n := 1600000) (R := 100000) rfl (by norm_num) r _ _ (dstWord x2) (ew x1) (fun _ => 1)
    (dst_left x2) (w_left x1) (dst_right x2) (w_right x1)

/-- The guarded reciprocal square root of an array, at an entry where the array is a real number at least one. -/
theorem guard_apply {s : Shape} (deg z t zz : FVec Ideal s .f32) (i : s.Idx) (x : ℝ) (hx : 1 ≤ x) (hd : deg i = (x : EReal))
    (hz : z i = Ideal.ofBits .f32 0x00000000#32) (ht : t i = Ideal.ofBits .f32 0x2B8CBCCC#32)
    (hzz : zz i = Ideal.ofBits .f32 0x00000000#32) :
    select (cmpf .ogt deg z) (Host.rsqrt (maximumf deg t)) zz i = Ideal.rsqrt (deg i) := by
  show Scalar.select (Ideal.cmp .ogt (deg i) (z i)) (Ideal.rsqrt (max (deg i) (t i))) (zz i) = _
  rw [hz, ht, hzz]
  exact guard_eq _ x hx hd

theorem dinv_apply (hfin : ∀ e k, IsReal (x1 (ix2 e k))) (r : Fin 100000) :
    val_main_v52 (F := Ideal) x1 x2 (ix1 r) = Ideal.rsqrt (degree (dstWord x2) (ew x1) r) := by
  obtain ⟨x, hx1, hx⟩ := degree_real (dstWord x2) (ew x1) r (fun e => edgeWeight_real _ e (hfin e))
  have e46 := deg_apply x1 x2 r
  unfold val_main_v52 val_main_v48 val_main_v51 val_main_v50
  exact (guard_apply _ _ _ _ (ix1 r) x hx1 (e46.trans hx) (splat_apply _ bcast_S_S100000 (ix1 r))
    (splat_apply _ bcast_S_S100000 (ix1 r)) (splat_apply _ bcast_S_S100000 (ix1 r))).trans (congrArg Ideal.rsqrt e46)

end Cert.ReferenceIdeal.RefValue

end
-- ==== Proof.RefValue.lean ====
/-
  The reference program's result array is the model of the argument arrays.

  Its messages added up at (r, c) over the lengthened list are, by the loop law, the real edges' plus the loop's
  (D r · 1 · D r) · h (r, c); likewise the aggregated features, the loop's being the features of the all-ones row.
  The gate's product of the joined table [O | A] with the 256-row weight table is the sum of the two products with
  its first and its last 128 rows, and 1 / (1 + exp (−z)) is the logistic function.
-/
import proofs.«144141_j47605417509015_2_alg».proof.Proof.Gen.ReferenceIdeal.Read
import proofs.«144141_j47605417509015_2_alg».proof.Proof.RefStages
import proofs.«144141_j47605417509015_2_alg».proof.Proof.Model
import proofs.«144141_j47605417509015_2_alg».proof.Proof.LibGraphHost
import proofs.«144141_j47605417509015_2_alg».proof.Proof.LibHostReads
import proofs.«144141_j47605417509015_2_alg».proof.Proof.LibHostLayout
import proofs.«144141_j47605417509015_2_alg».proof.Proof.LibGcnNorm
import Idealize.ShloMosaic.Lib.Pipeline.Value
import Idealize.ShloMosaic.Lib.ValueIdx

set_option maxRecDepth 16384

noncomputable section

open scoped BigOperators

namespace Cert.ReferenceIdeal.RefValue

open Idealize.ShloMosaic Idealize.ShloMosaic.ValueIdx
open Cert.ReferenceIdeal Cert.ReferenceIdeal.Gen Cert.ReferenceIdeal.Read
open Cert.RmsNorm Cert.LayerNorm Cert.WeightedConv Cert.Gnn Cert.GraphHost Cert.LibSelfLoops Cert.LibRealEntries

variable (x0 : (⟨S100000x128, .f32⟩ : BufTy).Contents (Elt Ideal)) (x1 : (⟨S1600000x16, .f32⟩ : BufTy).Contents (Elt Ideal))
  (x2 : (⟨S2x1600000, .i32⟩ : BufTy).Contents (Elt Ideal)) (x3 : (⟨S128x128, .f32⟩ : BufTy).Contents (Elt Ideal))
  (x4 x5 x6 : (⟨S128, .f32⟩ : BufTy).Contents (Elt Ideal)) (x7 : (⟨S16x128, .f32⟩ : BufTy).Contents (Elt Ideal))
  (x8 : (⟨S128, .f32⟩ : BufTy).Contents (Elt Ideal)) (x9 : (⟨S256x128, .f32⟩ : BufTy).Contents (Elt Ideal))
  (x10 : (⟨S128, .f32⟩ : BufTy).Contents (Elt Ideal))

/-! ## The convolution and the aggregated features -/

/-- The reference's lengthened lists as functions of the entry, and the reciprocal square roots of the degrees. -/
abbrev srcL : Fin 1700000 → BitVec 32 := fun a => val_main_v6 (F := Ideal) x2 (ix1 a)
abbrev dstL : Fin 1700000 → BitVec 32 := fun a => val_main_v9 (F := Ideal) x2 (ix1 a)
abbrev wL : Fin 1700000 → EReal := fun a => val_main_v13 (F := Ideal) x1 (ix1 a)
abbrev Dn : Fin 100000 → EReal := fun ρ => Ideal.rsqrt (degree (dstWord x2) (ew x1) ρ)

/-- An entry of the long list below the cut sends what the real edge sends. -/
theorem msg_left (q : Fin 128) (e : Fin 1600000) :
    normOf hNodes kW (Dn x1 x2) (srcL x2) (dstL x2) (wL x1) (⟨e.val, by have := e.isLt; omega⟩ : Fin 1700000)
        * hAt x0 x3 x5 x6 (nodeOf hNodes kW (srcL x2 (⟨e.val, by have := e.isLt; omega⟩ : Fin 1700000))) q
      = normOf hNodes kW (Dn x1 x2) (srcWord x2) (dstWord x2) (ew x1) e
        * hAt x0 x3 x5 x6 (nodeOf hNodes kW (srcWord x2 e)) q := by
  unfold normOf
  rw [show srcL x2 (⟨e.val, by have := e.isLt; omega⟩ : Fin 1700000) = srcWord x2 e from src_left x2 e,
    show dstL x2 (⟨e.val, by have := e.isLt; omega⟩ : Fin 1700000) = dstWord x2 e from dst_left x2 e,
    show wL x1 (⟨e.val, by have := e.isLt; omega⟩ : Fin 1700000) = ew x1 e from w_left x1 e]

/-- Entry n + j of the long list, node j's loop, sends D j · D j · h (j, q). -/
theorem msg_right (q : Fin 128) (j : Fin 100000) :
    normOf hNodes kW (Dn x1 x2) (srcL x2) (dstL x2) (wL x1) (⟨1600000 + j.val, by have := j.isLt; omega⟩ : Fin 1700000)
        * hAt x0 x3 x5 x6 (nodeOf hNodes kW (srcL x2 (⟨1600000 + j.val, by have := j.isLt; omega⟩ : Fin 1700000))) q
      = (Dn x1 x2 j * Dn x1 x2 j) * hAt x0 x3 x5 x6 j q := by
  unfold normOf
  rw [show srcL x2 (⟨1600000 + j.val, by have := j.isLt; omega⟩ : Fin 1700000) = BitVec.ofNat 32 j.val from src_right x2 j,
    show dstL x2 (⟨1600000 + j.val, by have := j.isLt; omega⟩ : Fin 1700000) = BitVec.ofNat 32 j.val from dst_right x2 j,
    show wL x1 (⟨1600000 + j.val, by have := j.isLt; omega⟩ : Fin 1700000) = 1 from w_right x1 j,
    nodeOf_word hNodes (by norm_num) kW j, mul_one]

theorem out_apply (hfin : ∀ e k, IsReal (x1 (ix2 e k))) (r : Fin 100000) (q : Fin 128) :
    val_main_v84 (F := Ideal) x0 x1 x2 x3 x4 x5 x6 (ix2 r q)
      = convOut hNodes kW (hAt x0 x3 x5 x6) (srcWord x2) (dstWord x2) (ew x1) (vec x4) r q := by
  refine (val_main_v84_apply (F := Ideal) x0 x1 x2 x3 x4 x5 x6 (ix2 r q)).trans ?_
  rw [Ideal.addf_def, show val_main_v83 (F := Ideal) x4 (ix2 r q) = x4 (ix1 q) from
    Cert.HostLayout.biasRow_apply x4 bcast_S128_S1x128_1 bcast_S1x128_S100000x128_0_1 r q]
  unfold convOut
  refine congrArg (· + x4 (ix1 q)) ?_
  have h81 : val_main_v81 (F := Ideal) x0 x1 x2 x3 x5 x6 (ix2 r q)
      = msgSum hNodes kW (fun ρ γ => val_main_v43 (F := Ideal) x0 x3 x5 x6 (ix2 ρ γ))
          (fun ρ => val_main_v52 (F := Ideal) x1 x2 (ix1 ρ)) (srcL x2) (dstL x2) (wL x1) r q :=
    weighted_apply (n := 1700000) hNodes (by decide) gather_S100000_S1700000x1_S1700000_n_0_n_n_0_1_1
      gather_S100000x128_S1700000x1_S1700000x128_1_0_n_n_0_1_1128 scatter_S100000x128_S1700000x1_S1700000x128_1_0_0_1
      rfl rfl rfl rfl rfl rfl rfl rfl rfl rfl rfl rfl rfl rfl rfl rfl rfl rfl
      bcast_S1700000_S1700000x1_0 bcast_S1700000x1_S1700000x128_0_1 bcast_S_S1700000 bcast_S_S100000x128 kW
      (val_main_v43 (F := Ideal) x0 x3 x5 x6) (val_main_v52 (F := Ideal) x1 x2) (val_main_v6 (F := Ideal) x2)
      (val_main_v9 (F := Ideal) x2) (val_main_v13 (F := Ideal) x1) r q
  rw [h81]
  have hH : (fun ρ γ => val_main_v43 (F := Ideal) x0 x3 x5 x6 (ix2 ρ γ)) = hAt x0 x3 x5 x6 :=
    funext fun ρ => funext fun γ => h_apply x0 x3 x5 x6 ρ γ
  have hD : (fun ρ => val_main_v52 (F := Ideal) x1 x2 (ix1 ρ)) = Dn x1 x2 :=
    funext fun ρ => dinv_apply x1 x2 hfin ρ
  rw [hH, hD]
  unfold msgSum
  exact sumTo_loops (n := 1600000) (R := 100000) (t := 1700000) rfl (by norm_num) r (dstL x2)
    (fun e' => normOf hNodes kW (Dn x1 x2) (srcL x2) (dstL x2) (wL x1) e'
      * hAt x0 x3 x5 x6 (nodeOf hNodes kW (srcL x2 e')) q)
    (dstWord x2)
    (fun e => normOf hNodes kW (Dn x1 x2) (srcWord x2) (dstWord x2) (ew x1) e
      * hAt x0 x3 x5 x6 (nodeOf hNodes kW (srcWord x2 e)) q)
    (fun j => (Dn x1 x2 j * Dn x1 x2 j) * hAt x0 x3 x5 x6 j q)
    (dst_left x2) (msg_left x0 x1 x2 x3 x5 x6 q) (dst_right x2) (msg_right x0 x1 x2 x3 x5 x6 q)

theorem aggr_apply (r : Fin 100000) (q : Fin 128) :
    val_main_v87 (F := Ideal) x1 x2 x7 x8 (ix2 r q)
      = aggrOut (fun e => featRow (row x1 e) (mat x7) (vec x8)) (dstWord x2) (featRow (fun _ => 1) (mat x7) (vec x8)) r q := by
  unfold val_main_v87
  refine (Cert.LibGcnNorm.aggregate_apply (n := 1700000) (by decide) scatter_S100000x128_S1700000x1_S1700000x128_1_0_0_1
    rfl rfl rfl rfl bcast_S1700000_S1700000x1_0 _ (val_main_v9 (F := Ideal) x2) (val_main_v18 (F := Ideal) x1 x7 x8) r q).trans ?_
  rw [show val_main_v85 (F := Ideal) (ix2 r q) = 0 from
    (splat_apply 0x00000000#32 bcast_S_S100000x128 (ix2 r q)).trans Ideal.ofBits_zero_f32]
  unfold aggrOut
  have hl : ∀ e : Fin 1600000, val_main_v18 (F := Ideal) x1 x7 x8 (ix2 (⟨e.val, by have := e.isLt; omega⟩ : Fin 1700000) q)
      = featRow (row x1 e) (mat x7) (vec x8) q := fun e => by rw [feat_apply, attr_left]
  have hr : ∀ j : Fin 100000, val_main_v18 (F := Ideal) x1 x7 x8 (ix2 (⟨1600000 + j.val, by have := j.isLt; omega⟩ : Fin 1700000) q)
      = featRow (fun _ => 1) (mat x7) (vec x8) q := fun j => by rw [feat_apply, attr_right]
  exact sumTo_loops (n := 1600000) (R := 100000) (t := 1700000) rfl (by norm_num) r (dstL x2)
    (fun e' => val_main_v18 (F := Ideal) x1 x7 x8 (ix2 e' q)) (dstWord x2)
    (fun e => featRow (row x1 e) (mat x7) (vec x8) q) (fun _ => featRow (fun _ => 1) (mat x7) (vec x8) q)
    (dst_left x2) hl (dst_right x2) hr

/-! ## The gated combination -/

theorem logits_apply (r : Fin 100000) (q : Fin 128) :
    val_main_v92 (F := Ideal) x0 x1 x2 x3 x4 x5 x6 x7 x8 x9 x10 (ix2 r q)
      = (rowMat (row (val_main_v84 (F := Ideal) x0 x1 x2 x3 x4 x5 x6) r)
            (fun k γ => x9 (ix2 (⟨k.val, by have := k.isLt; omega⟩ : Fin 256) γ)) q
          + rowMat (row (val_main_v87 (F := Ideal) x1 x2 x7 x8) r)
            (fun k γ => x9 (ix2 (⟨128 + k.val, by have := k.isLt; omega⟩ : Fin 256) γ)) q)
        + x10 (ix1 q) := by
  refine (val_main_v92_apply (F := Ideal) x0 x1 x2 x3 x4 x5 x6 x7 x8 x9 x10 (ix2 r q)).trans ?_
  rw [Ideal.addf_def, show val_main_v91 (F := Ideal) x10 (ix2 r q) = x10 (ix1 q) from
    Cert.HostLayout.biasRow_apply x10 bcast_S128_S1x128_1 bcast_S1x128_S100000x128_0_1 r q]
  refine congrArg (· + x10 (ix1 q)) ?_
  unfold val_main_v89
  refine (Cert.LibHostReads.dotGeneral_plain_apply 100000 256 128 none _ _ r q).trans ?_
  rw [sum_append (a := 128) (b := 128) (t := 256) rfl]
  unfold rowMat row val_main_v88
  dsimp only
  refine congrArg₂ (· + ·) (Finset.sum_congr rfl fun k _ => ?_) (Finset.sum_congr rfl fun k _ => ?_)
  · exact congrArg (· * x9 (ix2 _ q))
      (stackCols_left concatenates_S100000x128_S100000x128_S100000x256_d1 _ _ r k _)
  · exact congrArg (· * x9 (ix2 _ q))
      (stackCols_right concatenates_S100000x128_S100000x128_S100000x256_d1 _ _ r k _)

theorem gate_apply (r : Fin 100000) (q : Fin 128) :
    val_main_v98 (F := Ideal) x0 x1 x2 x3 x4 x5 x6 x7 x8 x9 x10 (ix2 r q)
      = Ideal.logistic (val_main_v92 (F := Ideal) x0 x1 x2 x3 x4 x5 x6 x7 x8 x9 x10 (ix2 r q)) :=
  hostLogistic_apply bcast_S_S100000x128 (val_main_v92 (F := Ideal) x0 x1 x2 x3 x4 x5 x6 x7 x8 x9 x10) (ix2 r q)

/-- THE REFERENCE'S RESULT is the model of its arguments, when the edge attributes are real numbers. -/
theorem result_eq (hfin : ∀ e k, IsReal (x1 (ix2 e k))) :
    val_main_v104 (F := Ideal) x0 x1 x2 x3 x4 x5 x6 x7 x8 x9 x10 = model x0 x1 x2 x3 x4 x5 x6 x7 x8 x9 x10 := by
  funext i
  obtain ⟨r, q, rfl⟩ : ∃ (r : Fin 100000) (q : Fin 128), i = ix2 r q := ⟨i 0, i 1, eq_ix2 i⟩
  rw [val_main_v104_apply, val_main_v103_apply, val_main_v99_apply, val_main_v102_apply, val_main_v101_apply,
    Ideal.maximumf_def, Ideal.addf_def, Ideal.mulf_def, Ideal.mulf_def, Ideal.subf_def]
  rw [show val_main_v100 (F := Ideal) (ix2 r q) = Ideal.ofBits .f32 0x3F800000#32 from splat_apply _ bcast_S_S100000x128 (ix2 r q),
    show val_main_call2_v0 (F := Ideal) (ix2 r q) = 0 from
      (splat_apply 0x00000000#32 bcast_S_S100000x128 (ix2 r q)).trans Ideal.ofBits_zero_f32,
    gate_apply, logits_apply]
  have hO : row (val_main_v84 (F := Ideal) x0 x1 x2 x3 x4 x5 x6) r
      = convOut hNodes kW (hAt x0 x3 x5 x6) (srcWord x2) (dstWord x2) (ew x1) (vec x4) r :=
    funext fun γ => out_apply x0 x1 x2 x3 x4 x5 x6 hfin r γ
  have hA : row (val_main_v87 (F := Ideal) x1 x2 x7 x8) r
      = aggrOut (fun e => featRow (row x1 e) (mat x7) (vec x8)) (dstWord x2) (featRow (fun _ => 1) (mat x7) (vec x8)) r :=
    funext fun γ => aggr_apply x1 x2 x7 x8 r γ
  rw [hO, hA, show val_main_v84 (F := Ideal) x0 x1 x2 x3 x4 x5 x6 (ix2 r q) = row (val_main_v84 (F := Ideal) x0 x1 x2 x3 x4 x5 x6) r q from rfl,
    show val_main_v87 (F := Ideal) x1 x2 x7 x8 (ix2 r q) = row (val_main_v87 (F := Ideal) x1 x2 x7 x8) r q from rfl, hO, hA]
  rfl

end Cert.ReferenceIdeal.RefValue

end
-- ==== Proof.Finite.lean ====
/-
  From the precondition to real entries.

  The precondition says, array by array, that every entry's absolute value is below +∞, and joins the eleven
  statements by "and". An extended real whose absolute value max (x, −x) is below +∞ is neither +∞ nor −∞: it is a
  real number. Only the edge attributes' statement is used: the laws that join the two programs hold for arbitrary
  extended reals except the one about the degrees, which needs the edge weights to be real and not negative.
-/
import proofs.«144141_j47605417509015_2_alg».proof.Defs
import proofs.«144141_j47605417509015_2_alg».proof.Proof.LibRealEntries
import Idealize.ShloMosaic.Lib.ReduceAll
import Idealize.ShloMosaic.Lib.Affine
import Idealize.ShloMosaic.Lib.ValueIdx

set_option maxRecDepth 16384

noncomputable section

namespace Cert.Pre_finite_inputs.Finite

open Idealize.ShloMosaic Idealize.ShloMosaic.ValueIdx Cert.Pre_finite_inputs Cert.LibRealEntries

variable [hP : Cert.Pre_finite_inputs.Facts]

instance : Subsingleton S_.Idx := ⟨fun a b => funext fun d => d.elim0⟩

/-- An extended real whose absolute value is below the f32 word of +∞ is a real number. -/
theorem isReal_of_abs_lt (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  induction x using EReal.rec with
  | bot => simp at hlt
  | coe r => exact isReal_coe r
  | top => simp at hlt

/-- Under the precondition every edge attribute is a real number. -/
theorem attr_real (x0 : FVec Ideal S100000x128 .f32) (x1 : FVec Ideal S1600000x16 .f32) (x2 : IVec S2x1600000 32)
    (x3 : FVec Ideal S128x128 .f32) (x4 x5 x6 : FVec Ideal S128 .f32) (x7 : FVec Ideal S16x128 .f32)
    (x8 : FVec Ideal S128 .f32) (x9 : FVec Ideal S256x128 .f32) (x10 : FVec Ideal S128 .f32)
    (h : fn (F := Ideal) x0 x1 x2 x3 x4 x5 x6 x7 x8 x9 x10 = fun _ => 1#1) (e : Fin 1600000) (k : Fin 16) :
    IsReal (x1 (ix2 e k)) := by
  have h0 := congrFun h ValueIdx.ix0
  dsimp only [fn, fn_part1, fn_part2] at h0
  obtain ⟨h0, -⟩ := IntOp.andi_eq_one.mp h0
  obtain ⟨h0, -⟩ := IntOp.andi_eq_one.mp h0
  obtain ⟨h0, -⟩ := IntOp.andi_eq_one.mp h0
  obtain ⟨h0, -⟩ := IntOp.andi_eq_one.mp h0
  obtain ⟨h0, -⟩ := IntOp.andi_eq_one.mp h0
  obtain ⟨h0, -⟩ := IntOp.andi_eq_one.mp h0
  obtain ⟨h0, -⟩ := IntOp.andi_eq_one.mp h0
  obtain ⟨h0, -⟩ := IntOp.andi_eq_one.mp h0
  obtain ⟨-, h7⟩ := IntOp.andi_eq_one.mp h0
  have he := Host.reduce_andi_all _ _ _ _ _ h7 (ix2 e k)
  exact isReal_of_abs_lt _ he

end Cert.Pre_finite_inputs.Finite

end
-- ==== Proof.lean ====
/-
  The claim: the kernel and its idealization run and leave their arguments alone; the idealization rewrote nothing;
  and at the ideal instance the idealized kernel and the idealized reference, run from memories that agree on the
  eleven arguments, both end with the result array at ONE function of those arguments — `Cert.Gnn.model`: the gated
  combination of a weighted, symmetrically normalised graph convolution of the layer-normalised nodes and the
  aggregated edge features, with a loop of weight one at every node.

  The kernel program computes the loops' contributions in closed form (one more in the degree, D · D · h in the
  convolution, the features of the all-ones attribute row in the aggregation) and drops the guard around the
  reciprocal square root of the degree; the reference lengthens the edge list by the loops and keeps the guard. The
  two agree because a sum over the lengthened list is the sum over the real edges plus the one loop sent to the node
  (commutativity and associativity of + on the extended reals only), because multiplying by one changes nothing, and
  because the degree — a sum of Euclidean lengths of rows of finite numbers, plus one — is a real number at least
  one, where the guard is the identity. This last step is the only use of the precondition.
-/
import proofs.«144141_j47605417509015_2_alg».proof.Defs
import proofs.«144141_j47605417509015_2_alg».proof.Proof.Gen.Kernel
import proofs.«144141_j47605417509015_2_alg».proof.Proof.Gen.Kernel.Skeleton
import proofs.«144141_j47605417509015_2_alg».proof.Proof.Gen.Kernel.Launch
import proofs.«144141_j47605417509015_2_alg».proof.Proof.Gen.Kernel.Points
import proofs.«144141_j47605417509015_2_alg».proof.Proof.Gen.Kernel.Frame
import proofs.«144141_j47605417509015_2_alg».proof.Proof.Gen.KernelIdeal
import proofs.«144141_j47605417509015_2_alg».proof.Proof.Gen.KernelIdeal.Skeleton
import proofs.«144141_j47605417509015_2_alg».proof.Proof.Gen.KernelIdeal.Launch
import proofs.«144141_j47605417509015_2_alg».proof.Proof.Gen.KernelIdeal.Points
import proofs.«144141_j47605417509015_2_alg».proof.Proof.Gen.KernelIdeal.Frame
import proofs.«144141_j47605417509015_2_alg».proof.Proof.Gen.ReferenceIdeal
import proofs.«144141_j47605417509015_2_alg».proof.Proof.Gen.Pre_finite_inputs
import proofs.«144141_j47605417509015_2_alg».proof.Proof.Gen.ReferenceIdeal.Run
import proofs.«144141_j47605417509015_2_alg».proof.Proof.Gen.ReferenceIdeal.Read
import proofs.«144141_j47605417509015_2_alg».proof.Proof.KernelRun
import proofs.«144141_j47605417509015_2_alg».proof.Proof.KernelValue
import proofs.«144141_j47605417509015_2_alg».proof.Proof.RefValue
import proofs.«144141_j47605417509015_2_alg».proof.Proof.Finite
import Idealize.ShloMosaic.Adequacy
import Idealize.ShloMosaic.Init

noncomputable section

namespace Cert.Proof

open Idealize.ShloMosaic Idealize.SL.Sem

/-- The kernel runs and its arguments end unchanged. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts)
    (hPre_finite_inputs := Cert.Pre_finite_inputs.Gen.facts) :=
  fun m ρ _ => Cert.KernelIdeal.Gen.frame m ρ

/-- The reference's run, its result dropped. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both idealized programs end with the result array at the model of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W8 m ρ c (Proc.devRef .tc Cert.KernelIdeal.main_v68),
    Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v104 m' c
    = Cert.KernelIdeal.Gen.W8 m ρ c (Proc.devRef .tc Cert.KernelIdeal.main_v68)
  rw [Cert.ReferenceIdeal.Read.val_main_v104_eq, Cert.KernelIdeal.Gen.W8_main_v68]
  obtain ⟨a0, a1, a2, a3, a4, a5, a6, a7, a8, a9, a10⟩ := hagree c
  rw [a0, a1, a2, a3, a4, a5, a6, a7, a8, a9, a10]
  exact Cert.ReferenceIdeal.RefValue.result_eq _ _ _ _ _ _ _ _ _ _ _
    (Cert.Pre_finite_inputs.Finite.attr_real (hP := Cert.Pre_finite_inputs.Gen.facts) _ _ _ _ _ _ _ _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
